-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x32x32 : Shape := ⟨4, ![64, 256, 32, 32]⟩
abbrev S_ : Shape := ⟨0, ![]⟩

class Facts : Prop where
  bcast_S_S64x256x32x32 : S_.BroadcastsInDim S64x256x32x32 (![] : Fin 0 → Fin S64x256x32x32.rank)
  reducesTo_S64x256x32x32_S_d0_1_2_3 : S64x256x32x32.ReducesTo [0, 1, 2, 3] S_
  h_S_ : 0 < S_.numel

variable [Facts]

def fn {F : FTy → Type} [FloatOps F] (main_arg0 : FVec F S64x256x32x32 .f32) : IVec S_ 1 :=
  let main_v0 : FVec F S64x256x32x32 .f32 := Host.absf main_arg0
  let main_cst : FVec F S_ .f32 := constant S_ .f32 0x7F800000#32
  let main_v1 : FVec F S64x256x32x32 .f32 := broadcastInDim S64x256x32x32 ![] bcast_S_S64x256x32x32 main_cst
  let main_v2 : IVec S64x256x32x32 1 := cmpf .olt main_v0 main_v1
  let main_c : IVec S_ 1 := constantI S_ 1 1#1
  let main_v3 : IVec S_ 1 := (fun x v => Host.reduce IntOp.andi x v reducesTo_S64x256x32x32_S_d0_1_2_3 h_S_) main_v2 main_c
  main_v3
-- ==== Kernel.lean ====
abbrev S64x256x32x32 : Shape := ⟨4, ![64, 256, 32, 32]⟩
abbrev S64x32x32x256 : Shape := ⟨4, ![64, 32, 32, 256]⟩
abbrev S4x16x1024x256 : Shape := ⟨4, ![4, 16, 1024, 256]⟩
abbrev S4x16x1024x257 : Shape := ⟨4, ![4, 16, 1024, 257]⟩
abbrev S4x2x1024x256 : Shape := ⟨4, ![4, 2, 1024, 256]⟩
abbrev S2x1 : Shape := ⟨2, ![2, 1]⟩
abbrev S2x1024x256 : Shape := ⟨3, ![2, 1024, 256]⟩
abbrev S1x2x1024x256 : Shape := ⟨4, ![1, 2, 1024, 256]⟩
abbrev S2 : Shape := ⟨1, ![2]⟩
abbrev S1x2x1x1 : Shape := ⟨4, ![1, 2, 1, 1]⟩
abbrev S4x2x1024x1 : Shape := ⟨4, ![4, 2, 1024, 1]⟩
abbrev S64x32x32x257 : Shape := ⟨4, ![64, 32, 32, 257]⟩
abbrev S64x257x32x32 : Shape := ⟨4, ![64, 257, 32, 32]⟩

abbrev nBuf : Space → Nat
  | .hbm => 6
  | .vmem => 5
  | .smem => 0
  | _ => 0

abbrev bufTy : (tb : Table) → Fin (tcTables nBuf tb) → BufTy
  | .hbm, ⟨0, _⟩ => ⟨S64x256x32x32, .f32⟩
  | .hbm, ⟨1, _⟩ => ⟨S64x32x32x256, .f32⟩
  | .hbm, ⟨2, _⟩ => ⟨S4x16x1024x256, .f32⟩
  | .hbm, ⟨3, _⟩ => ⟨S4x16x1024x257, .f32⟩
  | .hbm, ⟨4, _⟩ => ⟨S64x32x32x257, .f32⟩
  | .hbm, ⟨5, _⟩ => ⟨S64x257x32x32, .f32⟩
  | .local _ .vmem, ⟨0, _⟩ => ⟨S4x2x1024x256, .f32⟩
  | .local _ .vmem, ⟨1, _⟩ => ⟨S4x2x1024x256, .f32⟩
  | .local _ .vmem, ⟨2, _⟩ => ⟨S4x2x1024x256, .f32⟩
  | .local _ .vmem, ⟨3, _⟩ => ⟨S4x2x1024x256, .f32⟩
  | .local _ .vmem, ⟨4, _⟩ => ⟨S2x1, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let c0_i32_2 : BitVec 32 := 0#32
  let c0_i32_3 : BitVec 32 := 0#32
  ![c0_i32_1.toNat, arg0.toNat, v1.toNat, c0_i32_2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat, arg1.toNat]

abbrev stage0_0 : Fin 2 → Memref sig .tc .vmem S4x2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x2x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  transposes_S64x256x32x32_S64x32x32x256_0_2_3_1 : S64x256x32x32.Transposes [0, 2, 3, 1] S64x32x32x256
  shapeCasts_S64x32x32x256_S4x16x1024x256 : S64x32x32x256.ShapeCasts S4x16x1024x256
  inb_S2x1_S2x1_0_0 : ∀ a, (![0, 0] : Fin 2 → Nat) a + S2x1.size a ≤ S2x1.size a
  h_S2x1 : 0 < S2x1.numel
  shapeCasts_S2x1_S2x1 : S2x1.ShapeCasts S2x1
  inb_S4x2x1024x256_S4x2x1024x256_0_0_0_0 : ∀ a, (![0, 0, 0, 0] : Fin 4 → Nat) a + S4x2x1024x256.size a ≤ S4x2x1024x256.size a
  h_S4x2x1024x256 : 0 < S4x2x1024x256.numel
  shapeCasts_S4x2x1024x256_S4x2x1024x256 : S4x2x1024x256.ShapeCasts S4x2x1024x256
  reduces_S4x2x1024x256_S2x1024x256 : S4x2x1024x256.Reduces [0] S2x1024x256
  shapeCasts_S2x1024x256_S1x2x1024x256 : S2x1024x256.ShapeCasts S1x2x1024x256
  broadcasts_S1x2x1024x256_S4x2x1024x256 : S1x2x1024x256.Broadcasts S4x2x1024x256
  reduces_S2x1024x256_S2 : S2x1024x256.Reduces [1, 2] S2
  shapeCasts_S2_S2x1 : S2.ShapeCasts S2x1
  shapeCasts_S2x1_S1x2x1x1 : S2x1.ShapeCasts S1x2x1x1
  shapeCasts_S1x2x1x1_S1x2x1x1 : S1x2x1x1.ShapeCasts S1x2x1x1
  broadcasts_S1x2x1x1_S4x2x1024x1 : S1x2x1x1.Broadcasts S4x2x1024x1
  inb_S4x2x1024x256_S4x2x1024x1_0_0_0_0 : ∀ a, (![0, 0, 0, 0] : Fin 4 → Nat) a + S4x2x1024x1.size a ≤ S4x2x1024x256.size a
  h_S4x2x1024x1 : 0 < S4x2x1024x1.numel
  shapeCasts_S4x16x1024x257_S64x32x32x257 : S4x16x1024x257.ShapeCasts S64x32x32x257
  transposes_S64x32x32x257_S64x257x32x32_0_3_1_2 : S64x32x32x257.Transposes [0, 3, 1, 2] S64x257x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2x1024x256.size a ≤ S4x16x1024x256.size a
  hwx0_0 : ∀ i : grid0.Coords, EltTy.bits .f32 = 32 ∨ (Rect.block (s := S4x16x1024x256) S4x2x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4x2x1024x256.size a < S4x16x1024x257.size a
  hwx0_1 : ∀ i : grid0.Coords, EltTy.bits .f32 = 32 ∨ (Rect.unit (s := S4x16x1024x257) (fun a => cc0_transform_1 i a * S4x2x1024x256.size a) (fun a => (Pipeline.Clip.of (cc0_transform_1 i a) (S4x2x1024x256.size a) (S4x16x1024x257.size a)).extent (S4x2x1024x256.size a)) fun a => Pipeline.Clip.inb (Pipeline.Clip.ok_of (hstart0_1 i a))).WholeWords (EltTy.packing .f32)
  hwxs0_1 : ∀ i : grid0.Coords, EltTy.bits .f32 = 32 ∨ (Rect.unit (s := S4x2x1024x256) (fun _ => 0) (fun a => (Pipeline.Clip.of (cc0_transform_1 i a) (S4x2x1024x256.size a) (S4x16x1024x257.size a)).extent (S4x2x1024x256.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpec (Memref.whole main_v1) S4x2x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v2) S4x2x1024x256.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) && !(k0_cond3 i == 1#1) | ⟨_ + 2, h⟩ => absurd h (Nat.not_lt.2 (Nat.le_add_left _ _))

class Facts : Prop extends Facts₀ where

variable [Facts]
-- ==== ReferenceIdeal.lean ====
abbrev S64x256x32x32 : Shape := ⟨4, ![64, 256, 32, 32]⟩
abbrev S4x16x262144 : Shape := ⟨3, ![4, 16, 262144]⟩
abbrev S16x1 : Shape := ⟨2, ![16, 1]⟩
abbrev S4x8x65536 : Shape := ⟨3, ![4, 8, 65536]⟩
abbrev S8x1 : Shape := ⟨2, ![8, 1]⟩
abbrev S8x65536 : Shape := ⟨2, ![8, 65536]⟩
abbrev S1x8x65536 : Shape := ⟨3, ![1, 8, 65536]⟩
abbrev S8 : Shape := ⟨1, ![8]⟩
abbrev S1x16x1 : Shape := ⟨3, ![1, 16, 1]⟩
abbrev S1x1x1x16x1x1 : Shape := ⟨6, ![1, 1, 1, 16, 1, 1]⟩
abbrev S4x1x1x16x1x1 : Shape := ⟨6, ![4, 1, 1, 16, 1, 1]⟩
abbrev S4x16x1 : Shape := ⟨3, ![4, 16, 1]⟩
abbrev S64x1x1 : Shape := ⟨3, ![64, 1, 1]⟩
abbrev S64x256x1024 : Shape := ⟨3, ![64, 256, 1024]⟩
abbrev S64x257x1024 : Shape := ⟨3, ![64, 257, 1024]⟩
abbrev S2x256x1024 : Shape := ⟨3, ![2, 256, 1024]⟩
abbrev S2x257x1024 : Shape := ⟨3, ![2, 257, 1024]⟩
abbrev S2x1x1 : Shape := ⟨3, ![2, 1, 1]⟩
abbrev S2x1x1024 : Shape := ⟨3, ![2, 1, 1024]⟩
abbrev S64x257x32x32 : Shape := ⟨4, ![64, 257, 32, 32]⟩

abbrev nBuf : Space → Nat
  | .hbm => 11
  | .vmem => 9
  | .smem => 0
  | _ => 0

abbrev bufTy : (tb : Table) → Fin (tcTables nBuf tb) → BufTy
  | .hbm, ⟨0, _⟩ => ⟨S64x256x32x32, .f32⟩
  | .hbm, ⟨1, _⟩ => ⟨S4x16x262144, .f32⟩
  | .hbm, ⟨2, _⟩ => ⟨S16x1, .f32⟩
  | .hbm, ⟨3, _⟩ => ⟨S1x16x1, .f32⟩
  | .hbm, ⟨4, _⟩ => ⟨S1x1x1x16x1x1, .f32⟩
  | .hbm, ⟨5, _⟩ => ⟨S4x1x1x16x1x1, .f32⟩
  | .hbm, ⟨6, _⟩ => ⟨S4x16x1, .f32⟩
  | .hbm, ⟨7, _⟩ => ⟨S64x1x1, .f32⟩
  | .hbm, ⟨8, _⟩ => ⟨S64x256x1024, .f32⟩
  | .hbm, ⟨9, _⟩ => ⟨S64x257x1024, .f32⟩
  | .hbm, ⟨10, _⟩ => ⟨S64x257x32x32, .f32⟩
  | .local _ .vmem, ⟨0, _⟩ => ⟨S4x8x65536, .f32⟩
  | .local _ .vmem, ⟨1, _⟩ => ⟨S4x8x65536, .f32⟩
  | .local _ .vmem, ⟨2, _⟩ => ⟨S8x1, .f32⟩
  | .local _ .vmem, ⟨3, _⟩ => ⟨S8x1, .f32⟩
  | .local _ .vmem, ⟨4, _⟩ => ⟨S2x256x1024, .f32⟩
  | .local _ .vmem, ⟨5, _⟩ => ⟨S2x256x1024, .f32⟩
  | .local _ .vmem, ⟨6, _⟩ => ⟨S64x1x1, .f32⟩
  | .local _ .vmem, ⟨7, _⟩ => ⟨S2x257x1024, .f32⟩
  | .local _ .vmem, ⟨8, _⟩ => ⟨S2x257x1024, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4x8x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![32, 1], ![false, false]⟩

def k1_mult1 (i : grid1.Coords) : BitVec 32 :=
  let arg0 : BitVec 32 := BitVec.ofNat 32 (i 0).val
  let c2_i32 : BitVec 32 := 2#32
  let v3 : BitVec 32 := Scalar.muli arg0 c2_i32
  v3
def k1_off1 (i : grid1.Coords) : Fin 3 → Nat :=
  let arg0 : BitVec 32 := BitVec.ofNat 32 (i 0).val
  let c2_i32 : BitVec 32 := 2#32
  let v3 : BitVec 32 := Scalar.muli arg0 c2_i32
  let v4 : BitVec 32 := v3
  let v5 : Index := Scalar.indexCast v4
  let c0_5 : Index := 0#32
  let c0_6 : Index := 0#32
  ![v5.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S2x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S64x1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2x257x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S64x256x32x32_S4x16x262144 : S64x256x32x32.ShapeCasts S4x16x262144
  inb_S8x1_S8x1_0_0 : ∀ a, (![0, 0] : Fin 2 → Nat) a + S8x1.size a ≤ S8x1.size a
  h_S8x1 : 0 < S8x1.numel
  inb_S4x8x65536_S4x8x65536_0_0_0 : ∀ a, (![0, 0, 0] : Fin 3 → Nat) a + S4x8x65536.size a ≤ S4x8x65536.size a
  h_S4x8x65536 : 0 < S4x8x65536.numel
  shapeCasts_S4x8x65536_S4x8x65536 : S4x8x65536.ShapeCasts S4x8x65536
  reduces_S4x8x65536_S8x65536 : S4x8x65536.Reduces [0] S8x65536
  shapeCasts_S8x65536_S1x8x65536 : S8x65536.ShapeCasts S1x8x65536
  broadcasts_S1x8x65536_S4x8x65536 : S1x8x65536.Broadcasts S4x8x65536
  shapeCasts_S8x1_S8x1 : S8x1.ShapeCasts S8x1
  reduces_S8x65536_S8 : S8x65536.Reduces [1] S8
  shapeCasts_S8_S8x1 : S8.ShapeCasts S8x1
  shapeCasts_S16x1_S1x16x1 : S16x1.ShapeCasts S1x16x1
  shapeCasts_S1x16x1_S1x1x1x16x1x1 : S1x16x1.ShapeCasts S1x1x1x16x1x1
  bcast_S1x1x1x16x1x1_S4x1x1x16x1x1_0_1_2_3_4_5 : S1x1x1x16x1x1.BroadcastsInDim S4x1x1x16x1x1 (![0, 1, 2, 3, 4, 5] : Fin 6 → Fin S4x1x1x16x1x1.rank)
  shapeCasts_S4x1x1x16x1x1_S4x16x1 : S4x1x1x16x1x1.ShapeCasts S4x16x1
  shapeCasts_S4x16x1_S64x1x1 : S4x16x1.ShapeCasts S64x1x1
  shapeCasts_S64x256x32x32_S64x256x1024 : S64x256x32x32.ShapeCasts S64x256x1024
  inb_S2x256x1024_S2x256x1024_0_0_0 : ∀ a, (![0, 0, 0] : Fin 3 → Nat) a + S2x256x1024.size a ≤ S2x256x1024.size a
  h_S2x256x1024 : 0 < S2x256x1024.numel
  shapeCasts_S2x256x1024_S2x256x1024 : S2x256x1024.ShapeCasts S2x256x1024
  inb_S2x257x1024_S2x256x1024_0_0_0 : ∀ a, (![0, 0, 0] : Fin 3 → Nat) a + S2x256x1024.size a ≤ S2x257x1024.size a
  h_S2x1x1 : 0 < S2x1x1.numel
  shapeCasts_S2x1x1_S2x1x1 : S2x1x1.ShapeCasts S2x1x1
  broadcasts_S2x1x1_S2x1x1024 : S2x1x1.Broadcasts S2x1x1024
  inb_S2x257x1024_S2x1x1024_0_256_0 : ∀ a, (![0, 256, 0] : Fin 3 → Nat) a + S2x1x1024.size a ≤ S2x257x1024.size a
  h_S2x1x1024 : 0 < S2x1x1024.numel
  shapeCasts_S64x257x1024_S64x257x32x32 : S64x257x1024.ShapeCasts S64x257x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x65536.size a ≤ S4x16x262144.size a
  hwx0_0 : ∀ i : grid0.Coords, EltTy.bits .f32 = 32 ∨ (Rect.block (s := S4x16x262144) S4x8x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1.size a ≤ S16x1.size a
  hwx0_1 : ∀ i : grid0.Coords, EltTy.bits .f32 = 32 ∨ (Rect.block (s := S16x1) S8x1.size (cc0_transform_1 i) (hinb0_1 i)).WholeWords (EltTy.packing .f32)
  hrank1 : 0 < grid1.rank
  k1_mult1_dvd : ∀ i : grid1.Coords, 2 ∣ (k1_mult1 i).toNat
  k1_off1_inb : ∀ i : grid1.Coords, ∀ a, (k1_off1 i) a + S2x1x1.size a ≤ S64x1x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x1024.size a ≤ S64x256x1024.size a
  hwx1_0 : ∀ i : grid1.Coords, EltTy.bits .f32 = 32 ∨ (Rect.block (s := S64x256x1024) S2x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1x1.size a ≤ S64x1x1.size a
  hwx1_1 : ∀ i : grid1.Coords, EltTy.bits .f32 = 32 ∨ (Rect.block (s := S64x1x1) S64x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x257x1024.size a ≤ S64x257x1024.size a
  hwx1_2 : ∀ i : grid1.Coords, EltTy.bits .f32 = 32 ∨ (Rect.block (s := S64x257x1024) S2x257x1024.size (cc1_transform_2 i) (hinb1_2 i)).WholeWords (EltTy.packing .f32)

variable [Facts₀]

abbrev win0_0 : Pipeline.Window sig grid0 :=
  Pipeline.Window.ofSpec (Memref.whole main_v0) S4x8x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v7) S2x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S64x1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2x257x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.KBody.lean ====
/-
  The kernel body run at one grid point, in its two cases, at any float instance.

  The grid is (replica pair i : 8) x (step k : 2) x (one pixel tile).  At step 0 the body clears its two-entry
  accumulator, copies the whole input block to the output block and adds the block's scaled deviation sum to the
  accumulator.  At step 1 it stores the accumulator, broadcast along the group and pixel axes, into channel 0 of the
  output block and touches nothing else.  Each run hands every buffer back with the list of stores made into it.
-/
import proofs.«123689_g2000102519160773_pallasbulk_914_7_alg».proof.Proof.Gen.Kernel.Frame
import proofs.«123689_g2000102519160773_pallasbulk_914_7_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The three conditions of the body, from the grid coordinates -/

/-- "step 0 and first pixel tile": the accumulator is cleared. -/
abbrev condClear (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- "step 0": copy and accumulate. -/
abbrev condCopy (i : grid0.Coords) : Prop := k0_cond2 i = 1#1
/-- "step 1": write the statistic's channel. -/
abbrev condStat (i : grid0.Coords) : Prop := k0_cond3 i = 1#1

/-- Points are numbered 2 * i + k: the even ones are step 0, the odd ones step 1. -/
theorem condClear_iff : ∀ t : Fin cfg0.N, condClear (grid0.coords t) ↔ t.val % 2 = 0 :=
  (by decide +kernel : ∀ t : Fin grid0.N, condClear (grid0.coords t) ↔ t.val % 2 = 0)
theorem condCopy_iff : ∀ t : Fin cfg0.N, condCopy (grid0.coords t) ↔ t.val % 2 = 0 :=
  (by decide +kernel : ∀ t : Fin grid0.N, condCopy (grid0.coords t) ↔ t.val % 2 = 0)
theorem condStat_iff : ∀ t : Fin cfg0.N, condStat (grid0.coords t) ↔ t.val % 2 = 1 :=
  (by decide +kernel : ∀ t : Fin grid0.N, condStat (grid0.coords t) ↔ t.val % 2 = 1)

/-! ## Step 0 -/

set_option maxHeartbeats 1000000 in
/-- At step 0, from the input block `x0`, any output buffer and any accumulator, the body ends with the input as it
    was and the output and the accumulator each overwritten by the stores found (last first). -/
noncomputable def runCopy (c : Dev nD) (i : grid0.Coords) (arg3 : Memref sig .tc .vmem S4x2x1024x256 .f32) (harg3 : arg3.IsWhole)
    (arg4 : Memref sig .tc .vmem S4x2x1024x256 .f32) (harg4 : arg4.IsWhole) (arg5 : Memref sig .tc .vmem S2x1 .f32) (harg5 : arg5.IsWhole)
    (hc0 : condClear i) (hc1 : condCopy i) (hc2 : ¬condStat i) (x0 : Vec F S4x2x1024x256 .f32) :
    (L1 : List (View.Piece (Elt F) S4x2x1024x256 .f32)) ×' (L2 : List (View.Piece (Elt F) S2x1 .f32)) ×'
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d)
            ∗ (iprop(owns (c : Thread nD τ) arg3 fullShare x0
                ∗ (∃ f, arg4.view.loc (c : Thread nD τ) ↦[arg4.view.set]{fullShare} arg4.view.writes (Elt F) f L1)
                ∗ (∃ f, arg5.view.loc (c : Thread nD τ) ↦[arg5.view.set]{fullShare} arg5.view.writes (Elt F) f L2)) -∗ K ⟨⟩))
          ⊢ wp frame (wpE (defs₀ (F := F)) Variants.none c none) E (cc0__fused_mbstd_kernel i arg3 harg3 arg4 harg4 arg5 harg5) K := by
  refine ⟨?_, ?_, fun E K => ?run⟩
  case run =>
    simp only [cc0__fused_mbstd_kernel_eq_skeleton]; unfold cc0__fused_mbstd_kernel_skel
    unfold owns
    iintro ⟨⟨%f0, %hf0, H0⟩, ⟨%d1, %f1, -, H1⟩, ⟨%ds0, %fs0, -, HS0⟩, Hk⟩
    obtain rfl := harg3.eq_unread hf0
    sl_exec (disch := first | exact hc0 | exact hc1 | exact hc2)
    sl_step
    iapply Hk
    isplitl [H0]
    · iexists _; isplitr; · ipureintro; exact harg3.read_unread _
      iexact H0
    isplitl [H1]
    · iexists _; iexact H1
    iexists _; iexact HS0

/-! ## Step 1 -/

set_option maxHeartbeats 1000000 in
/-- At step 1, from the input block `x0` and the accumulator at `s`, whatever the output buffer holds, the body ends
    with the input and the accumulator as they were and the output buffer overwritten by the stores found. -/
noncomputable def runStat (c : Dev nD) (i : grid0.Coords) (arg3 : Memref sig .tc .vmem S4x2x1024x256 .f32) (harg3 : arg3.IsWhole)
    (arg4 : Memref sig .tc .vmem S4x2x1024x256 .f32) (harg4 : arg4.IsWhole) (arg5 : Memref sig .tc .vmem S2x1 .f32) (harg5 : arg5.IsWhole)
    (hc0 : ¬condClear i) (hc1 : ¬condCopy i) (hc2 : condStat i) (x0 : Vec F S4x2x1024x256 .f32) (s : Vec F S2x1 .f32) :
    (L1 : List (View.Piece (Elt F) S4x2x1024x256 .f32)) ×'
      ∀ (d : Vec F S4x2x1024x256 .f32) (E : Set ℕ) (K : PUnit → sProp 𝕄),
        iprop(owns (c : Thread nD τ) arg3 fullShare x0 ∗ owns (c : Thread nD τ) arg4 fullShare d ∗ owns (c : Thread nD τ) arg5 fullShare s
            ∗ (iprop(owns (c : Thread nD τ) arg3 fullShare x0
                ∗ (arg4.view.loc (c : Thread nD τ) ↦[arg4.view.set]{fullShare} arg4.view.writes (Elt F) (harg4.unread d) L1)
                ∗ owns (c : Thread nD τ) arg5 fullShare s) -∗ K ⟨⟩))
          ⊢ wp frame (wpE (defs₀ (F := F)) Variants.none c none) E (cc0__fused_mbstd_kernel i arg3 harg3 arg4 harg4 arg5 harg5) K := by
  refine ⟨?_, fun d E K => ?run⟩
  case run =>
    simp only [cc0__fused_mbstd_kernel_eq_skeleton]; unfold cc0__fused_mbstd_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg5.eq_unread hfs0
    sl_exec (disch := first | exact hc0 | exact hc1 | exact hc2)
    sl_step
    iapply Hk
    isplitl [H0]
    · iexists _; isplitr; · ipureintro; exact harg3.read_unread _
      iexact H0
    isplitl [H1]
    · iexact H1
    iexists _; isplitr; · ipureintro; exact harg5.read_unread _
    iexact HS0

end Cert.Kernel.Hand

end
-- ==== Proof.KData.lean ====
/-
  The proof data of the kernel's pipeline and the body's obligation at every grid point, at any float instance.

  Points are numbered t = 2 * i + k.  After an even point the output block holds a copy of the input block and the
  accumulator holds the block's scaled deviation sum added to zero; after an odd point the accumulator is unchanged and
  channel 0 of the output block holds it, broadcast.  The output window's block at an odd point lies past the array's
  last channel except for its channel 0, so only that channel is written back and only that channel is stated.
-/
import proofs.«123689_g2000102519160773_pallasbulk_914_7_alg».proof.Proof.KBody
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-! ## The staging memrefs at a point, and the accumulator's -/

abbrev ms0 (t : Fin cfg0.N) : Memref sig .tc .vmem S4x2x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x2x1024x256 .f32 := win0_1.stage (cfg0.slots t 1)
abbrev hs1 (t : Fin cfg0.N) : (ms1 t).IsWhole := hstage0_1 ((cfg0.slots t 1).cast nbuf0_1)
abbrev scM : Memref sig .tc .vmem S2x1 .f32 := Memref.whole cc0_scratch0
abbrev hsc : (scM : Memref sig .tc .vmem S2x1 .f32).IsWhole := Memref.isWhole_whole _

/-- The region's invariant: the accumulator at something, the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What each step leaves, as the canon of its stores -/

section Pieces
variable (c : Dev nD) (i : grid0.Coords) (arg3 : Memref sig .tc .vmem S4x2x1024x256 .f32) (harg3 : arg3.IsWhole)
    (arg4 : Memref sig .tc .vmem S4x2x1024x256 .f32) (harg4 : arg4.IsWhole) (arg5 : Memref sig .tc .vmem S2x1 .f32) (harg5 : arg5.IsWhole)

/-- The output block after step 0. -/
def copyOut (hc0 : condClear i) (hc1 : condCopy i) (hc2 : ¬condStat i) (x0 : Vec F S4x2x1024x256 .f32) : Vec F S4x2x1024x256 .f32 :=
  View.canon (runCopy c i arg3 harg3 arg4 harg4 arg5 harg5 hc0 hc1 hc2 x0).1
/-- The accumulator after step 0. -/
def copyAcc (hc0 : condClear i) (hc1 : condCopy i) (hc2 : ¬condStat i) (x0 : Vec F S4x2x1024x256 .f32) : Vec F S2x1 .f32 :=
  View.canon (runCopy c i arg3 harg3 arg4 harg4 arg5 harg5 hc0 hc1 hc2 x0).2.1
/-- The output block after step 1, where it was stored (junk elsewhere). -/
def statOut (hc0 : ¬condClear i) (hc1 : ¬condCopy i) (hc2 : condStat i) (x0 : Vec F S4x2x1024x256 .f32) (s : Vec F S2x1 .f32) : Vec F S4x2x1024x256 .f32 :=
  View.canon (runStat c i arg3 harg3 arg4 harg4 arg5 harg5 hc0 hc1 hc2 x0 s).1

theorem cover_copyOut (hc0 : condClear i) (hc1 : condCopy i) (hc2 : ¬condStat i) (x0 : Vec F S4x2x1024x256 .f32) (y : S4x2x1024x256.Idx) :
    ∃ pc ∈ (runCopy c i arg3 harg3 arg4 harg4 arg5 harg5 hc0 hc1 hc2 x0).1, y ∈ pc.1.set :=
  View.cover_of_tiledL (runCopy c i arg3 harg3 arg4 harg4 arg5 harg5 hc0 hc1 hc2 x0).1 S4x2x1024x256.size (by sl_kernel_rfl) y
theorem cover_copyAcc (hc0 : condClear i) (hc1 : condCopy i) (hc2 : ¬condStat i) (x0 : Vec F S4x2x1024x256 .f32) (y : S2x1.Idx) :
    ∃ pc ∈ (runCopy c i arg3 harg3 arg4 harg4 arg5 harg5 hc0 hc1 hc2 x0).2.1, y ∈ pc.1.set :=
  View.cover_of_tiledL (runCopy c i arg3 harg3 arg4 harg4 arg5 harg5 hc0 hc1 hc2 x0).2.1 S2x1.size (by sl_kernel_rfl) y

theorem zero4 : (![0, 0, 0, 0] : Fin 4 → Nat) = fun _ => 0 := funext fun a => by fin_cases a <;> rfl
theorem zero2 : (![0, 0] : Fin 2 → Nat) = fun _ => 0 := funext fun a => by fin_cases a <;> rfl

/-- Step 0 copies the input block. -/
theorem copyOut_eq (hc0 : condClear i) (hc1 : condCopy i) (hc2 : ¬condStat i) (x0 : Vec F S4x2x1024x256 .f32) :
    copyOut c i arg3 harg3 arg4 harg4 arg5 harg5 hc0 hc1 hc2 x0 = k0_pay2 x0 := by
  unfold copyOut runCopy; dsimp only
  rw [View.canon_unit_zero zero4]
  simp only [View.readAt_eq_ld, harg3.read_unread, View.ld_unit_zero (S := S4x2x1024x256) zero4]

/-- Step 0 leaves in the accumulator the block's scaled sum added to the cleared accumulator. -/
theorem copyAcc_eq (hc0 : condClear i) (hc1 : condCopy i) (hc2 : ¬condStat i) (x0 : Vec F S4x2x1024x256 .f32) :
    copyAcc c i arg3 harg3 arg4 harg4 arg5 harg5 hc0 hc1 hc2 x0 = k0_pay3 x0 (k0_pay1 (F := F)) := by
  unfold copyAcc runCopy; dsimp only
  sl_unfold_words
  rw [View.canon_cons_unit_zero zero2]
  simp only [View.readAt_eq_ld, harg3.read_unread, View.ld_unit_zero (S := S4x2x1024x256) zero4]
  rw [View.readCov_unit_zero (S := S2x1) arg5.view zero2]

/-- Step 1 makes one store: the accumulator, broadcast, into channel 0 of the output block. -/
theorem runStat_fst (hc0 : ¬condClear i) (hc1 : ¬condCopy i) (hc2 : condStat i) (x0 : Vec F S4x2x1024x256 .f32) (s : Vec F S2x1 .f32) :
    (runStat c i arg3 harg3 arg4 harg4 arg5 harg5 hc0 hc1 hc2 x0 s).1
      = [⟨Rect.unit (s := S4x2x1024x256) ![0, 0, 0, 0] ![4, 2, 1024, 1] inb_S4x2x1024x256_S4x2x1024x1_0_0_0_0,
          k0_pay4 (View.readAt (Elt F) arg5.view (Rect.unit (s := S2x1) ![0, 0] ![2, 1] inb_S2x1_S2x1_0_0).toLoadRect (harg5.unread s))⟩] := by
  unfold runStat; rfl

theorem cover_statOut (hc0 : ¬condClear i) (hc1 : ¬condCopy i) (hc2 : condStat i) (x0 : Vec F S4x2x1024x256 .f32) (s : Vec F S2x1 .f32)
    (y : S4x2x1024x256.Idx) (hy : y ∈ (Rect.unit (s := S4x2x1024x256) ![0, 0, 0, 0] ![4, 2, 1024, 1] inb_S4x2x1024x256_S4x2x1024x1_0_0_0_0).set) :
    ∃ pc ∈ (runStat c i arg3 harg3 arg4 harg4 arg5 harg5 hc0 hc1 hc2 x0 s).1, y ∈ pc.1.set := by
  rw [runStat_fst]; exact ⟨_, List.mem_singleton_self _, hy⟩

end Pieces

/-! ## Point by point -/

variable (m : (ℓ : Loc nD τ sig) → Buf (Elt F) ℓ) (ρ : Dev nD → PrngReg)

theorem not_stat_of_even (t : Fin cfg0.N) (h0 : t.val % 2 = 0) : ¬condStat (grid0.coords t) := fun h => by
  have := (condStat_iff t).mp h; omega
theorem stat_of_odd (t : Fin cfg0.N) (h0 : ¬t.val % 2 = 0) : condStat (grid0.coords t) := (condStat_iff t).mpr (by omega)

/-- The accumulator after the body at position `n`: an even point computes it from its input block, an odd point keeps it. -/
def accAt (c : Dev nD) : (n : ℕ) → n < cfg0.N → Vec F S2x1 .f32
  | 0, hn => copyAcc c (grid0.coords ⟨0, hn⟩) (ms0 ⟨0, hn⟩) (hs0 ⟨0, hn⟩) (ms1 ⟨0, hn⟩) (hs1 ⟨0, hn⟩) scM hsc
      ((condClear_iff ⟨0, hn⟩).mpr (Nat.zero_mod _)) ((condCopy_iff ⟨0, hn⟩).mpr (Nat.zero_mod _)) (not_stat_of_even ⟨0, hn⟩ (Nat.zero_mod _)) (iblk m c 0 ⟨0, hn⟩)
  | n + 1, hn =>
    if h0 : (n + 1) % 2 = 0 then
      copyAcc c (grid0.coords ⟨n + 1, hn⟩) (ms0 ⟨n + 1, hn⟩) (hs0 ⟨n + 1, hn⟩) (ms1 ⟨n + 1, hn⟩) (hs1 ⟨n + 1, hn⟩) scM hsc
        ((condClear_iff ⟨n + 1, hn⟩).mpr h0) ((condCopy_iff ⟨n + 1, hn⟩).mpr h0) (not_stat_of_even ⟨n + 1, hn⟩ h0) (iblk m c 0 ⟨n + 1, hn⟩)
    else accAt c n (Nat.lt_of_succ_lt hn)

theorem accAt_even (c : Dev nD) (t : Fin cfg0.N) (h0 : t.val % 2 = 0) :
    accAt m c t.val t.isLt = copyAcc c (grid0.coords t) (ms0 t) (hs0 t) (ms1 t) (hs1 t) scM hsc
      ((condClear_iff t).mpr h0) ((condCopy_iff t).mpr h0) (not_stat_of_even t h0) (iblk m c 0 t) := by
  obtain ⟨n, hn⟩ := t
  cases n with
  | zero => exact rfl
  | succ n => exact (dif_pos h0).trans rfl

theorem accAt_odd (c : Dev nD) (t : Fin cfg0.N) (h0 : ¬t.val % 2 = 0) :
    accAt m c t.val t.isLt = accAt m c (t.val - 1) (Nat.lt_of_le_of_lt (Nat.sub_le _ _) t.isLt) := by
  obtain ⟨n, hn⟩ := t
  cases n with
  | zero => exact (by exfalso; (try dsimp only at h0); exact absurd (Nat.zero_mod _) h0)
  | succ n => exact (dif_neg h0).trans rfl

/-- The output block after the body at point `t`. -/
def outAt (c : Dev nD) (t : Fin cfg0.N) : Vec F S4x2x1024x256 .f32 :=
  if h0 : t.val % 2 = 0 then
    copyOut c (grid0.coords t) (ms0 t) (hs0 t) (ms1 t) (hs1 t) scM hsc
      ((condClear_iff t).mpr h0) ((condCopy_iff t).mpr h0) (not_stat_of_even t h0) (iblk m c 0 t)
  else
    statOut c (grid0.coords t) (ms0 t) (hs0 t) (ms1 t) (hs1 t) scM hsc
      (fun h => h0 ((condClear_iff t).mp h)) (fun h => h0 ((condCopy_iff t).mp h)) (stat_of_odd t h0) (iblk m c 0 t)
      (accAt m c (t.val - 1) (Nat.lt_of_le_of_lt (Nat.sub_le _ _) t.isLt))

/-- The region's invariant before position `n`: before the first point the accumulator holds anything; afterwards what
    the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- At any position the invariant holds the accumulator at something. -/
theorem PhiS_weak (c : Dev nD) (n : ℕ) (h : n ≤ cfg0.N) :
    PhiS m c n h ⊢ (iprop(iprop((∃ d, owns (c : Thread nD τ) scM fullShare d)) ∗ (∃ r, prngReg c r)) : sProp 𝕄) := by
  cases n with
  | zero => rw [show PhiS m c 0 h = Pipeline.ΦA spec0 c from rfl, PhiA0_eq]
  | succ n =>
    rw [PhiS_succ]
    iintro ⟨HS0, Hg⟩
    isplitl [HS0]
    · iexists _; iexact HS0
    iexact Hg

/-- The proof data: the arrays as the region finds them; after the body the input's buffer at its block, the output's
    at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = outAt m c t := by dsimp only [dats]

theorem before0 (c : Dev nD) (t : Fin cfg0.N) (d) : (dats m 0 c).before 0 t d = iblk m c 0 t :=
  before0_0_of m (dats m 0 c) (A_eq m c 0) (after0 m c) t d

/-- The output window is live at every point: every point is step 0 or step 1. -/
theorem live1 : ∀ t : Fin cfg0.N, cfg0.idle 1 (cfg0.grid.coords t) = false :=
  (by decide +kernel : ∀ t : Fin grid0.N, idle0 1 (grid0.coords t) = false)

/-! ## The body obligation -/

/-- At an odd point only channel 0 of the output window's block lies inside the array. -/
theorem xsize_odd : ∀ t : Fin cfg0.N, t.val % 2 = 1 → win0_1.xsize (grid0.coords t) 3 = 1 :=
  (by decide +kernel : ∀ t : Fin grid0.N, t.val % 2 = 1 → win0_1.xsize (grid0.coords t) 3 = 1)

/-- So the part of the block that is written back at an odd point lies under step 1's one store. -/
theorem moved_mem_col (t : Fin cfg0.N) (h0 : ¬t.val % 2 = 0) (j : (win0_1.xblock (grid0.coords t)).Idx) :
    win0_1.xinj (grid0.coords t) j ∈ (Rect.unit (s := S4x2x1024x256) ![0, 0, 0, 0] ![4, 2, 1024, 1] inb_S4x2x1024x256_S4x2x1024x1_0_0_0_0).set := by
  rw [Rect.mem_set_unit]
  have h3 : (j 3).val < 1 := lt_of_lt_of_eq (j 3).isLt (xsize_odd t (by omega))
  intro a
  fin_cases a
  · exact ⟨Nat.zero_le _, by have := (win0_1.xinj (grid0.coords t) j 0).isLt; simpa using this⟩
  · exact ⟨Nat.zero_le _, by have := (win0_1.xinj (grid0.coords t) j 1).isLt; simpa using this⟩
  · exact ⟨Nat.zero_le _, by have := (win0_1.xinj (grid0.coords t) j 2).isLt; simpa using this⟩
  · exact ⟨Nat.zero_le _, by simpa using h3⟩

/-- On the part written back at an odd point, whatever the buffer held before, it reads what step 1 stored. -/
theorem cut_stat (c : Dev nD) (t : Fin cfg0.N) (h0 : ¬t.val % 2 = 0) (x0 : Vec F S4x2x1024x256 .f32) (s : Vec F S2x1 .f32)
    (f : (ms1 t).view.ty.Contents (Elt F)) :
    win0_1.cut (grid0.coords t) ((ms1 t).view.read (Elt F) ((ms1 t).view.writes (Elt F) f
        (runStat c (grid0.coords t) (ms0 t) (hs0 t) (ms1 t) (hs1 t) scM hsc (fun h => h0 ((condClear_iff t).mp h))
          (fun h => h0 ((condCopy_iff t).mp h)) (stat_of_odd t h0) x0 s).1))
      = win0_1.cut (grid0.coords t) (statOut c (grid0.coords t) (ms0 t) (hs0 t) (ms1 t) (hs1 t) scM hsc (fun h => h0 ((condClear_iff t).mp h))
          (fun h => h0 ((condCopy_iff t).mp h)) (stat_of_odd t h0) x0 s) :=
  funext fun j => View.read_writes_apply_eq_canon _ _ _ _ (cover_statOut c _ _ _ _ _ _ _ _ _ _ _ _ _ (moved_mem_col t h0 j))

theorem leaves0_eq (c : Dev nD) (t : Fin cfg0.N) :
    (dats m 0 c).leaves 0 t = owns (c : Thread nD τ) (ms0 t) fullShare ((dats m 0 c).after 0 t) := rfl

theorem leaves1_eq (c : Dev nD) (t : Fin cfg0.N) :
    (dats m 0 c).leaves 1 t = iprop(∃ d, owns (c : Thread nD τ) (ms1 t) fullShare
      (win0_1.fill (grid0.coords t) d (win0_1.cut (grid0.coords t) ((dats m 0 c).after 1 t)))) := by
  unfold Dat.leaves; rw [live1 t]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it returns: the output's buffer stated on the part that is written back. -/
def bodyPost (c : Dev nD) (t : Fin cfg0.N) : sProp 𝕄 :=
  iprop((dats m 0 c).Φ t.succ ∗ (dats m 0 c).owesAt () t.succ ∗ (dats m 0 c).leaves 0 t ∗ (dats m 0 c).leaves 1 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [leaves0_eq, leaves1_eq, after0, after1,
    show (dats m 0 c).owesAt () t.succ = (dats m 0 c).owesAt () t.castSucc from rfl,
    show (dats m 0 c).Φ t.succ = PhiS m c (t.val + 1) t.isLt from rfl, PhiS_succ, PhiS_castSucc]
  have hN : t.val < 16 := lt_of_lt_of_eq t.isLt (show cfg0.N = 16 from N_0)
  by_cases h0 : t.val % 2 = 0
  · rw [accAt_even m c t h0, show outAt m c t = _ from dif_pos h0]
    unfold copyAcc copyOut
    refine (sep_mono (PhiS_weak m c _ _) .rfl).trans ?_
    iintro ⟨⟨⟨%ds, HS⟩, Hg⟩, Ho, ⟨%d0, H0⟩, ⟨%d1, H1⟩⟩
    iapply ((runCopy c (grid0.coords t) _ _ _ _ _ _ ((condClear_iff t).mpr h0) ((condCopy_iff t).mpr h0) (not_stat_of_even t h0) (iblk m c 0 t)).2.2 Set.univ _)
    isplitl [H0]; · iexact H0
    isplitl [H1]; · iexists _; iexact H1
    isplitl [HS]; · iexists _; iexact HS
    iintro ⟨H0, ⟨%e1, H1⟩, ⟨%es, HS⟩⟩
    isplitl [HS Hg]
    · isplitl [HS]
      · unfold owns; iexists _; isplitr
        swap; · iexact HS
        ipureintro; exact View.read_writes_eq_canon _ _ _ (cover_copyAcc c _ _ _ _ _ _ _ _ _ _ _)
      iexact Hg
    isplitl [Ho]; · iexact Ho
    isplitl [H0]; · iexact H0
    iexists _
    rw [Window.fill_cut]
    unfold owns; iexists _; isplitr
    swap; · iexact H1
    ipureintro; exact View.read_writes_eq_canon _ _ _ (cover_copyOut c _ _ _ _ _ _ _ _ _ _ _)
  · have hpos : t.val ≠ 0 := by omega
    rw [PhiS_pos m c t.val _ hpos, accAt_odd m c t h0, show outAt m c t = _ from dif_neg h0]
    iintro ⟨⟨HS, Hg⟩, Ho, ⟨%d0, H0⟩, ⟨%d1, H1⟩⟩
    iapply ((runStat c (grid0.coords t) _ _ _ _ _ _ (fun h => h0 ((condClear_iff t).mp h)) (fun h => h0 ((condCopy_iff t).mp h)) (stat_of_odd t h0) (iblk m c 0 t)
      (accAt m c (t.val - 1) (Nat.lt_of_le_of_lt (Nat.sub_le _ _) t.isLt))).2 _ Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    iexists _
    rw [win0_1.fill_congr_cut _ (cut_stat c t h0 _ _ ((hs1 t).unread ((dats m 0 c).before 1 t d1)))]
    unfold owns; iexists _; isplitr
    swap; · iexact H1
    ipureintro; rfl

/-- The body obligation, at every point. -/
theorem body_obligation (c : Dev nD) : BodyObligationLoose (dats (F := F) m 0 c) (defs₀ (F := F)) Variants.none () Set.univ := fun t => by
  rw [bigSep_W0, bigSep_W0]
  exact sound_body m c t

end Cert.Kernel.Hand

end
-- ==== Proof.KFrame.lean ====
/-
  The kernel's program runs: the launch around the region, from the body obligation.  Every weakly fair execution
  terminates without a fault; the output array ends at what the write-backs leave, every other buffer outside the
  region's scope at what the host lines after the region compute, and the argument array ends as launched.
-/
import proofs.«123689_g2000102519160773_pallasbulk_914_7_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- After the last point the invariant gives it back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_weak m c _ _

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KBodyIdeal.lean ====
/-
  The kernel body run at one grid point, in its two cases, at any float instance.

  The grid is (replica pair i : 8) x (step k : 2) x (one pixel tile).  At step 0 the body clears its two-entry
  accumulator, copies the whole input block to the output block and adds the block's scaled deviation sum to the
  accumulator.  At step 1 it stores the accumulator, broadcast along the group and pixel axes, into channel 0 of the
  output block and touches nothing else.  Each run hands every buffer back with the list of stores made into it.
-/
import proofs.«123689_g2000102519160773_pallasbulk_914_7_alg».proof.Proof.Gen.KernelIdeal.Frame
import proofs.«123689_g2000102519160773_pallasbulk_914_7_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The three conditions of the body, from the grid coordinates -/

/-- "step 0 and first pixel tile": the accumulator is cleared. -/
abbrev condClear (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
/-- "step 0": copy and accumulate. -/
abbrev condCopy (i : grid0.Coords) : Prop := k0_cond2 i = 1#1
/-- "step 1": write the statistic's channel. -/
abbrev condStat (i : grid0.Coords) : Prop := k0_cond3 i = 1#1

/-- Points are numbered 2 * i + k: the even ones are step 0, the odd ones step 1. -/
theorem condClear_iff : ∀ t : Fin cfg0.N, condClear (grid0.coords t) ↔ t.val % 2 = 0 :=
  (by decide +kernel : ∀ t : Fin grid0.N, condClear (grid0.coords t) ↔ t.val % 2 = 0)
theorem condCopy_iff : ∀ t : Fin cfg0.N, condCopy (grid0.coords t) ↔ t.val % 2 = 0 :=
  (by decide +kernel : ∀ t : Fin grid0.N, condCopy (grid0.coords t) ↔ t.val % 2 = 0)
theorem condStat_iff : ∀ t : Fin cfg0.N, condStat (grid0.coords t) ↔ t.val % 2 = 1 :=
  (by decide +kernel : ∀ t : Fin grid0.N, condStat (grid0.coords t) ↔ t.val % 2 = 1)

/-! ## Step 0 -/

set_option maxHeartbeats 1000000 in
/-- At step 0, from the input block `x0`, any output buffer and any accumulator, the body ends with the input as it
    was and the output and the accumulator each overwritten by the stores found (last first). -/
noncomputable def runCopy (c : Dev nD) (i : grid0.Coords) (arg3 : Memref sig .tc .vmem S4x2x1024x256 .f32) (harg3 : arg3.IsWhole)
    (arg4 : Memref sig .tc .vmem S4x2x1024x256 .f32) (harg4 : arg4.IsWhole) (arg5 : Memref sig .tc .vmem S2x1 .f32) (harg5 : arg5.IsWhole)
    (hc0 : condClear i) (hc1 : condCopy i) (hc2 : ¬condStat i) (x0 : Vec F S4x2x1024x256 .f32) :
    (L1 : List (View.Piece (Elt F) S4x2x1024x256 .f32)) ×' (L2 : List (View.Piece (Elt F) S2x1 .f32)) ×'
      ∀ (E : Set ℕ) (K : PUnit → sProp 𝕄),
        iprop(owns (c : Thread nD τ) arg3 fullShare x0 ∗ (∃ d, owns (c : Thread nD τ) arg4 fullShare d) ∗ (∃ d, owns (c : Thread nD τ) arg5 fullShare d)
            ∗ (iprop(owns (c : Thread nD τ) arg3 fullShare x0
                ∗ (∃ f, arg4.view.loc (c : Thread nD τ) ↦[arg4.view.set]{fullShare} arg4.view.writes (Elt F) f L1)
                ∗ (∃ f, arg5.view.loc (c : Thread nD τ) ↦[arg5.view.set]{fullShare} arg5.view.writes (Elt F) f L2)) -∗ K ⟨⟩))
          ⊢ wp frame (wpE (defs₀ (F := F)) Variants.none c none) E (cc0__fused_mbstd_kernel i arg3 harg3 arg4 harg4 arg5 harg5) K := by
  refine ⟨?_, ?_, fun E K => ?run⟩
  case run =>
    simp only [cc0__fused_mbstd_kernel_eq_skeleton]; unfold cc0__fused_mbstd_kernel_skel
    unfold owns
    iintro ⟨⟨%f0, %hf0, H0⟩, ⟨%d1, %f1, -, H1⟩, ⟨%ds0, %fs0, -, HS0⟩, Hk⟩
    obtain rfl := harg3.eq_unread hf0
    sl_exec (disch := first | exact hc0 | exact hc1 | exact hc2)
    sl_step
    iapply Hk
    isplitl [H0]
    · iexists _; isplitr; · ipureintro; exact harg3.read_unread _
      iexact H0
    isplitl [H1]
    · iexists _; iexact H1
    iexists _; iexact HS0

/-! ## Step 1 -/

set_option maxHeartbeats 1000000 in
/-- At step 1, from the input block `x0` and the accumulator at `s`, whatever the output buffer holds, the body ends
    with the input and the accumulator as they were and the output buffer overwritten by the stores found. -/
noncomputable def runStat (c : Dev nD) (i : grid0.Coords) (arg3 : Memref sig .tc .vmem S4x2x1024x256 .f32) (harg3 : arg3.IsWhole)
    (arg4 : Memref sig .tc .vmem S4x2x1024x256 .f32) (harg4 : arg4.IsWhole) (arg5 : Memref sig .tc .vmem S2x1 .f32) (harg5 : arg5.IsWhole)
    (hc0 : ¬condClear i) (hc1 : ¬condCopy i) (hc2 : condStat i) (x0 : Vec F S4x2x1024x256 .f32) (s : Vec F S2x1 .f32) :
    (L1 : List (View.Piece (Elt F) S4x2x1024x256 .f32)) ×'
      ∀ (d : Vec F S4x2x1024x256 .f32) (E : Set ℕ) (K : PUnit → sProp 𝕄),
        iprop(owns (c : Thread nD τ) arg3 fullShare x0 ∗ owns (c : Thread nD τ) arg4 fullShare d ∗ owns (c : Thread nD τ) arg5 fullShare s
            ∗ (iprop(owns (c : Thread nD τ) arg3 fullShare x0
                ∗ (arg4.view.loc (c : Thread nD τ) ↦[arg4.view.set]{fullShare} arg4.view.writes (Elt F) (harg4.unread d) L1)
                ∗ owns (c : Thread nD τ) arg5 fullShare s) -∗ K ⟨⟩))
          ⊢ wp frame (wpE (defs₀ (F := F)) Variants.none c none) E (cc0__fused_mbstd_kernel i arg3 harg3 arg4 harg4 arg5 harg5) K := by
  refine ⟨?_, fun d E K => ?run⟩
  case run =>
    simp only [cc0__fused_mbstd_kernel_eq_skeleton]; unfold cc0__fused_mbstd_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg5.eq_unread hfs0
    sl_exec (disch := first | exact hc0 | exact hc1 | exact hc2)
    sl_step
    iapply Hk
    isplitl [H0]
    · iexists _; isplitr; · ipureintro; exact harg3.read_unread _
      iexact H0
    isplitl [H1]
    · iexact H1
    iexists _; isplitr; · ipureintro; exact harg5.read_unread _
    iexact HS0

end Cert.KernelIdeal.Hand

end
-- ==== Proof.KDataIdeal.lean ====
/-
  The proof data of the kernel's pipeline and the body's obligation at every grid point, at any float instance.

  Points are numbered t = 2 * i + k.  After an even point the output block holds a copy of the input block and the
  accumulator holds the block's scaled deviation sum added to zero; after an odd point the accumulator is unchanged and
  channel 0 of the output block holds it, broadcast.  The output window's block at an odd point lies past the array's
  last channel except for its channel 0, so only that channel is written back and only that channel is stated.
-/
import proofs.«123689_g2000102519160773_pallasbulk_914_7_alg».proof.Proof.KBodyIdeal
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-! ## The staging memrefs at a point, and the accumulator's -/

abbrev ms0 (t : Fin cfg0.N) : Memref sig .tc .vmem S4x2x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x2x1024x256 .f32 := win0_1.stage (cfg0.slots t 1)
abbrev hs1 (t : Fin cfg0.N) : (ms1 t).IsWhole := hstage0_1 ((cfg0.slots t 1).cast nbuf0_1)
abbrev scM : Memref sig .tc .vmem S2x1 .f32 := Memref.whole cc0_scratch0
abbrev hsc : (scM : Memref sig .tc .vmem S2x1 .f32).IsWhole := Memref.isWhole_whole _

/-- The region's invariant: the accumulator at something, the generator register at some state. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## What each step leaves, as the canon of its stores -/

section Pieces
variable (c : Dev nD) (i : grid0.Coords) (arg3 : Memref sig .tc .vmem S4x2x1024x256 .f32) (harg3 : arg3.IsWhole)
    (arg4 : Memref sig .tc .vmem S4x2x1024x256 .f32) (harg4 : arg4.IsWhole) (arg5 : Memref sig .tc .vmem S2x1 .f32) (harg5 : arg5.IsWhole)

/-- The output block after step 0. -/
def copyOut (hc0 : condClear i) (hc1 : condCopy i) (hc2 : ¬condStat i) (x0 : Vec F S4x2x1024x256 .f32) : Vec F S4x2x1024x256 .f32 :=
  View.canon (runCopy c i arg3 harg3 arg4 harg4 arg5 harg5 hc0 hc1 hc2 x0).1
/-- The accumulator after step 0. -/
def copyAcc (hc0 : condClear i) (hc1 : condCopy i) (hc2 : ¬condStat i) (x0 : Vec F S4x2x1024x256 .f32) : Vec F S2x1 .f32 :=
  View.canon (runCopy c i arg3 harg3 arg4 harg4 arg5 harg5 hc0 hc1 hc2 x0).2.1
/-- The output block after step 1, where it was stored (junk elsewhere). -/
def statOut (hc0 : ¬condClear i) (hc1 : ¬condCopy i) (hc2 : condStat i) (x0 : Vec F S4x2x1024x256 .f32) (s : Vec F S2x1 .f32) : Vec F S4x2x1024x256 .f32 :=
  View.canon (runStat c i arg3 harg3 arg4 harg4 arg5 harg5 hc0 hc1 hc2 x0 s).1

theorem cover_copyOut (hc0 : condClear i) (hc1 : condCopy i) (hc2 : ¬condStat i) (x0 : Vec F S4x2x1024x256 .f32) (y : S4x2x1024x256.Idx) :
    ∃ pc ∈ (runCopy c i arg3 harg3 arg4 harg4 arg5 harg5 hc0 hc1 hc2 x0).1, y ∈ pc.1.set :=
  View.cover_of_tiledL (runCopy c i arg3 harg3 arg4 harg4 arg5 harg5 hc0 hc1 hc2 x0).1 S4x2x1024x256.size (by sl_kernel_rfl) y
theorem cover_copyAcc (hc0 : condClear i) (hc1 : condCopy i) (hc2 : ¬condStat i) (x0 : Vec F S4x2x1024x256 .f32) (y : S2x1.Idx) :
    ∃ pc ∈ (runCopy c i arg3 harg3 arg4 harg4 arg5 harg5 hc0 hc1 hc2 x0).2.1, y ∈ pc.1.set :=
  View.cover_of_tiledL (runCopy c i arg3 harg3 arg4 harg4 arg5 harg5 hc0 hc1 hc2 x0).2.1 S2x1.size (by sl_kernel_rfl) y

theorem zero4 : (![0, 0, 0, 0] : Fin 4 → Nat) = fun _ => 0 := funext fun a => by fin_cases a <;> rfl
theorem zero2 : (![0, 0] : Fin 2 → Nat) = fun _ => 0 := funext fun a => by fin_cases a <;> rfl

/-- Step 0 copies the input block. -/
theorem copyOut_eq (hc0 : condClear i) (hc1 : condCopy i) (hc2 : ¬condStat i) (x0 : Vec F S4x2x1024x256 .f32) :
    copyOut c i arg3 harg3 arg4 harg4 arg5 harg5 hc0 hc1 hc2 x0 = k0_pay2 x0 := by
  unfold copyOut runCopy; dsimp only
  rw [View.canon_unit_zero zero4]
  simp only [View.readAt_eq_ld, harg3.read_unread, View.ld_unit_zero (S := S4x2x1024x256) zero4]

/-- Step 0 leaves in the accumulator the block's scaled sum added to the cleared accumulator. -/
theorem copyAcc_eq (hc0 : condClear i) (hc1 : condCopy i) (hc2 : ¬condStat i) (x0 : Vec F S4x2x1024x256 .f32) :
    copyAcc c i arg3 harg3 arg4 harg4 arg5 harg5 hc0 hc1 hc2 x0 = k0_pay3 x0 (k0_pay1 (F := F)) := by
  unfold copyAcc runCopy; dsimp only
  sl_unfold_words
  rw [View.canon_cons_unit_zero zero2]
  simp only [View.readAt_eq_ld, harg3.read_unread, View.ld_unit_zero (S := S4x2x1024x256) zero4]
  rw [View.readCov_unit_zero (S := S2x1) arg5.view zero2]

/-- Step 1 makes one store: the accumulator, broadcast, into channel 0 of the output block. -/
theorem runStat_fst (hc0 : ¬condClear i) (hc1 : ¬condCopy i) (hc2 : condStat i) (x0 : Vec F S4x2x1024x256 .f32) (s : Vec F S2x1 .f32) :
    (runStat c i arg3 harg3 arg4 harg4 arg5 harg5 hc0 hc1 hc2 x0 s).1
      = [⟨Rect.unit (s := S4x2x1024x256) ![0, 0, 0, 0] ![4, 2, 1024, 1] inb_S4x2x1024x256_S4x2x1024x1_0_0_0_0,
          k0_pay4 (View.readAt (Elt F) arg5.view (Rect.unit (s := S2x1) ![0, 0] ![2, 1] inb_S2x1_S2x1_0_0).toLoadRect (harg5.unread s))⟩] := by
  unfold runStat; rfl

theorem cover_statOut (hc0 : ¬condClear i) (hc1 : ¬condCopy i) (hc2 : condStat i) (x0 : Vec F S4x2x1024x256 .f32) (s : Vec F S2x1 .f32)
    (y : S4x2x1024x256.Idx) (hy : y ∈ (Rect.unit (s := S4x2x1024x256) ![0, 0, 0, 0] ![4, 2, 1024, 1] inb_S4x2x1024x256_S4x2x1024x1_0_0_0_0).set) :
    ∃ pc ∈ (runStat c i arg3 harg3 arg4 harg4 arg5 harg5 hc0 hc1 hc2 x0 s).1, y ∈ pc.1.set := by
  rw [runStat_fst]; exact ⟨_, List.mem_singleton_self _, hy⟩

end Pieces

/-! ## Point by point -/

variable (m : (ℓ : Loc nD τ sig) → Buf (Elt F) ℓ) (ρ : Dev nD → PrngReg)

theorem not_stat_of_even (t : Fin cfg0.N) (h0 : t.val % 2 = 0) : ¬condStat (grid0.coords t) := fun h => by
  have := (condStat_iff t).mp h; omega
theorem stat_of_odd (t : Fin cfg0.N) (h0 : ¬t.val % 2 = 0) : condStat (grid0.coords t) := (condStat_iff t).mpr (by omega)

/-- The accumulator after the body at position `n`: an even point computes it from its input block, an odd point keeps it. -/
def accAt (c : Dev nD) : (n : ℕ) → n < cfg0.N → Vec F S2x1 .f32
  | 0, hn => copyAcc c (grid0.coords ⟨0, hn⟩) (ms0 ⟨0, hn⟩) (hs0 ⟨0, hn⟩) (ms1 ⟨0, hn⟩) (hs1 ⟨0, hn⟩) scM hsc
      ((condClear_iff ⟨0, hn⟩).mpr (Nat.zero_mod _)) ((condCopy_iff ⟨0, hn⟩).mpr (Nat.zero_mod _)) (not_stat_of_even ⟨0, hn⟩ (Nat.zero_mod _)) (iblk m c 0 ⟨0, hn⟩)
  | n + 1, hn =>
    if h0 : (n + 1) % 2 = 0 then
      copyAcc c (grid0.coords ⟨n + 1, hn⟩) (ms0 ⟨n + 1, hn⟩) (hs0 ⟨n + 1, hn⟩) (ms1 ⟨n + 1, hn⟩) (hs1 ⟨n + 1, hn⟩) scM hsc
        ((condClear_iff ⟨n + 1, hn⟩).mpr h0) ((condCopy_iff ⟨n + 1, hn⟩).mpr h0) (not_stat_of_even ⟨n + 1, hn⟩ h0) (iblk m c 0 ⟨n + 1, hn⟩)
    else accAt c n (Nat.lt_of_succ_lt hn)

theorem accAt_even (c : Dev nD) (t : Fin cfg0.N) (h0 : t.val % 2 = 0) :
    accAt m c t.val t.isLt = copyAcc c (grid0.coords t) (ms0 t) (hs0 t) (ms1 t) (hs1 t) scM hsc
      ((condClear_iff t).mpr h0) ((condCopy_iff t).mpr h0) (not_stat_of_even t h0) (iblk m c 0 t) := by
  obtain ⟨n, hn⟩ := t
  cases n with
  | zero => exact rfl
  | succ n => exact (dif_pos h0).trans rfl

theorem accAt_odd (c : Dev nD) (t : Fin cfg0.N) (h0 : ¬t.val % 2 = 0) :
    accAt m c t.val t.isLt = accAt m c (t.val - 1) (Nat.lt_of_le_of_lt (Nat.sub_le _ _) t.isLt) := by
  obtain ⟨n, hn⟩ := t
  cases n with
  | zero => exact (by exfalso; (try dsimp only at h0); exact absurd (Nat.zero_mod _) h0)
  | succ n => exact (dif_neg h0).trans rfl

/-- The output block after the body at point `t`. -/
def outAt (c : Dev nD) (t : Fin cfg0.N) : Vec F S4x2x1024x256 .f32 :=
  if h0 : t.val % 2 = 0 then
    copyOut c (grid0.coords t) (ms0 t) (hs0 t) (ms1 t) (hs1 t) scM hsc
      ((condClear_iff t).mpr h0) ((condCopy_iff t).mpr h0) (not_stat_of_even t h0) (iblk m c 0 t)
  else
    statOut c (grid0.coords t) (ms0 t) (hs0 t) (ms1 t) (hs1 t) scM hsc
      (fun h => h0 ((condClear_iff t).mp h)) (fun h => h0 ((condCopy_iff t).mp h)) (stat_of_odd t h0) (iblk m c 0 t)
      (accAt m c (t.val - 1) (Nat.lt_of_le_of_lt (Nat.sub_le _ _) t.isLt))

/-- The region's invariant before position `n`: before the first point the accumulator holds anything; afterwards what
    the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- At any position the invariant holds the accumulator at something. -/
theorem PhiS_weak (c : Dev nD) (n : ℕ) (h : n ≤ cfg0.N) :
    PhiS m c n h ⊢ (iprop(iprop((∃ d, owns (c : Thread nD τ) scM fullShare d)) ∗ (∃ r, prngReg c r)) : sProp 𝕄) := by
  cases n with
  | zero => rw [show PhiS m c 0 h = Pipeline.ΦA spec0 c from rfl, PhiA0_eq]
  | succ n =>
    rw [PhiS_succ]
    iintro ⟨HS0, Hg⟩
    isplitl [HS0]
    · iexists _; iexact HS0
    iexact Hg

/-- The proof data: the arrays as the region finds them; after the body the input's buffer at its block, the output's
    at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = outAt m c t := by dsimp only [dats]

theorem before0 (c : Dev nD) (t : Fin cfg0.N) (d) : (dats m 0 c).before 0 t d = iblk m c 0 t :=
  before0_0_of m (dats m 0 c) (A_eq m c 0) (after0 m c) t d

/-- The output window is live at every point: every point is step 0 or step 1. -/
theorem live1 : ∀ t : Fin cfg0.N, cfg0.idle 1 (cfg0.grid.coords t) = false :=
  (by decide +kernel : ∀ t : Fin grid0.N, idle0 1 (grid0.coords t) = false)

/-! ## The body obligation -/

/-- At an odd point only channel 0 of the output window's block lies inside the array. -/
theorem xsize_odd : ∀ t : Fin cfg0.N, t.val % 2 = 1 → win0_1.xsize (grid0.coords t) 3 = 1 :=
  (by decide +kernel : ∀ t : Fin grid0.N, t.val % 2 = 1 → win0_1.xsize (grid0.coords t) 3 = 1)

/-- So the part of the block that is written back at an odd point lies under step 1's one store. -/
theorem moved_mem_col (t : Fin cfg0.N) (h0 : ¬t.val % 2 = 0) (j : (win0_1.xblock (grid0.coords t)).Idx) :
    win0_1.xinj (grid0.coords t) j ∈ (Rect.unit (s := S4x2x1024x256) ![0, 0, 0, 0] ![4, 2, 1024, 1] inb_S4x2x1024x256_S4x2x1024x1_0_0_0_0).set := by
  rw [Rect.mem_set_unit]
  have h3 : (j 3).val < 1 := lt_of_lt_of_eq (j 3).isLt (xsize_odd t (by omega))
  intro a
  fin_cases a
  · exact ⟨Nat.zero_le _, by have := (win0_1.xinj (grid0.coords t) j 0).isLt; simpa using this⟩
  · exact ⟨Nat.zero_le _, by have := (win0_1.xinj (grid0.coords t) j 1).isLt; simpa using this⟩
  · exact ⟨Nat.zero_le _, by have := (win0_1.xinj (grid0.coords t) j 2).isLt; simpa using this⟩
  · exact ⟨Nat.zero_le _, by simpa using h3⟩

/-- On the part written back at an odd point, whatever the buffer held before, it reads what step 1 stored. -/
theorem cut_stat (c : Dev nD) (t : Fin cfg0.N) (h0 : ¬t.val % 2 = 0) (x0 : Vec F S4x2x1024x256 .f32) (s : Vec F S2x1 .f32)
    (f : (ms1 t).view.ty.Contents (Elt F)) :
    win0_1.cut (grid0.coords t) ((ms1 t).view.read (Elt F) ((ms1 t).view.writes (Elt F) f
        (runStat c (grid0.coords t) (ms0 t) (hs0 t) (ms1 t) (hs1 t) scM hsc (fun h => h0 ((condClear_iff t).mp h))
          (fun h => h0 ((condCopy_iff t).mp h)) (stat_of_odd t h0) x0 s).1))
      = win0_1.cut (grid0.coords t) (statOut c (grid0.coords t) (ms0 t) (hs0 t) (ms1 t) (hs1 t) scM hsc (fun h => h0 ((condClear_iff t).mp h))
          (fun h => h0 ((condCopy_iff t).mp h)) (stat_of_odd t h0) x0 s) :=
  funext fun j => View.read_writes_apply_eq_canon _ _ _ _ (cover_statOut c _ _ _ _ _ _ _ _ _ _ _ _ _ (moved_mem_col t h0 j))

theorem leaves0_eq (c : Dev nD) (t : Fin cfg0.N) :
    (dats m 0 c).leaves 0 t = owns (c : Thread nD τ) (ms0 t) fullShare ((dats m 0 c).after 0 t) := rfl

theorem leaves1_eq (c : Dev nD) (t : Fin cfg0.N) :
    (dats m 0 c).leaves 1 t = iprop(∃ d, owns (c : Thread nD τ) (ms1 t) fullShare
      (win0_1.fill (grid0.coords t) d (win0_1.cut (grid0.coords t) ((dats m 0 c).after 1 t)))) := by
  unfold Dat.leaves; rw [live1 t]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))

/-- and what it returns: the output's buffer stated on the part that is written back. -/
def bodyPost (c : Dev nD) (t : Fin cfg0.N) : sProp 𝕄 :=
  iprop((dats m 0 c).Φ t.succ ∗ (dats m 0 c).owesAt () t.succ ∗ (dats m 0 c).leaves 0 t ∗ (dats m 0 c).leaves 1 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [leaves0_eq, leaves1_eq, after0, after1,
    show (dats m 0 c).owesAt () t.succ = (dats m 0 c).owesAt () t.castSucc from rfl,
    show (dats m 0 c).Φ t.succ = PhiS m c (t.val + 1) t.isLt from rfl, PhiS_succ, PhiS_castSucc]
  have hN : t.val < 16 := lt_of_lt_of_eq t.isLt (show cfg0.N = 16 from N_0)
  by_cases h0 : t.val % 2 = 0
  · rw [accAt_even m c t h0, show outAt m c t = _ from dif_pos h0]
    unfold copyAcc copyOut
    refine (sep_mono (PhiS_weak m c _ _) .rfl).trans ?_
    iintro ⟨⟨⟨%ds, HS⟩, Hg⟩, Ho, ⟨%d0, H0⟩, ⟨%d1, H1⟩⟩
    iapply ((runCopy c (grid0.coords t) _ _ _ _ _ _ ((condClear_iff t).mpr h0) ((condCopy_iff t).mpr h0) (not_stat_of_even t h0) (iblk m c 0 t)).2.2 Set.univ _)
    isplitl [H0]; · iexact H0
    isplitl [H1]; · iexists _; iexact H1
    isplitl [HS]; · iexists _; iexact HS
    iintro ⟨H0, ⟨%e1, H1⟩, ⟨%es, HS⟩⟩
    isplitl [HS Hg]
    · isplitl [HS]
      · unfold owns; iexists _; isplitr
        swap; · iexact HS
        ipureintro; exact View.read_writes_eq_canon _ _ _ (cover_copyAcc c _ _ _ _ _ _ _ _ _ _ _)
      iexact Hg
    isplitl [Ho]; · iexact Ho
    isplitl [H0]; · iexact H0
    iexists _
    rw [Window.fill_cut]
    unfold owns; iexists _; isplitr
    swap; · iexact H1
    ipureintro; exact View.read_writes_eq_canon _ _ _ (cover_copyOut c _ _ _ _ _ _ _ _ _ _ _)
  · have hpos : t.val ≠ 0 := by omega
    rw [PhiS_pos m c t.val _ hpos, accAt_odd m c t h0, show outAt m c t = _ from dif_neg h0]
    iintro ⟨⟨HS, Hg⟩, Ho, ⟨%d0, H0⟩, ⟨%d1, H1⟩⟩
    iapply ((runStat c (grid0.coords t) _ _ _ _ _ _ (fun h => h0 ((condClear_iff t).mp h)) (fun h => h0 ((condCopy_iff t).mp h)) (stat_of_odd t h0) (iblk m c 0 t)
      (accAt m c (t.val - 1) (Nat.lt_of_le_of_lt (Nat.sub_le _ _) t.isLt))).2 _ Set.univ _)
    isplitl [H0]; · iexact H0
    isplitl [H1]; · iexact H1
    isplitl [HS]; · iexact HS
    iintro ⟨H0, H1, HS⟩
    isplitl [HS Hg]
    · isplitl [HS]; · iexact HS
      iexact Hg
    isplitl [Ho]; · iexact Ho
    isplitl [H0]; · iexact H0
    iexists _
    rw [win0_1.fill_congr_cut _ (cut_stat c t h0 _ _ ((hs1 t).unread ((dats m 0 c).before 1 t d1)))]
    unfold owns; iexists _; isplitr
    swap; · iexact H1
    ipureintro; rfl

/-- The body obligation, at every point. -/
theorem body_obligation (c : Dev nD) : BodyObligationLoose (dats (F := F) m 0 c) (defs₀ (F := F)) Variants.none () Set.univ := fun t => by
  rw [bigSep_W0, bigSep_W0]
  exact sound_body m c t

end Cert.KernelIdeal.Hand

end
-- ==== Proof.KFrameIdeal.lean ====
/-
  The kernel's program runs: the launch around the region, from the body obligation.  Every weakly fair execution
  terminates without a fault; the output array ends at what the write-backs leave, every other buffer outside the
  region's scope at what the host lines after the region compute, and the argument array ends as launched.
-/
import proofs.«123689_g2000102519160773_pallasbulk_914_7_alg».proof.Proof.KDataIdeal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the region is the invariant before the first point. -/
theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- After the last point the invariant gives it back: the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_weak m c _ _

set_option backward.isDefEq.respectTransparency.types false in
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.Spec.lean ====
/-
  The mathematics both programs compute, stated once over plain extended-real arrays and importing no program.

  The input is an array x[b, ch, h, w] of 64 x 256 x 32 x 32 extended reals.  The batch axis splits as b = g * 16 + r
  into 4 group members g of 16 replicas r.  For a replica r and a feature (ch, h, w) the four group members' entries
  have a population standard deviation with a small additive constant under the root (dev); its mean over all
  256 * 32 * 32 features, taken as the sum times the constant 2^-18, is the replica's statistic (stat).  The result
  array has 257 channels: the first 256 copy x, the last one holds the statistic of the entry's replica at every pixel.

  The two programs accumulate the statistic in different arrangements of the same sum: one sums all features of a
  replica at once, pixel-major (statK); the other adds up four partial sums over quarters of the channel-major
  flattened feature axis, each already scaled (statR).  That the arrangements agree is proved apart from this file.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨4, ![64, 256, 32, 32]⟩
abbrev SY : Shape := ⟨4, ![64, 257, 32, 32]⟩

/-- The divisor 4.0, the additive constant under the root, and the scale 2^-18, as the words both programs hold. -/
def four : EReal := Ideal.ofBits .f32 0x40800000#32
def eps : EReal := Ideal.ofBits .f32 0x322BCC77#32
def invD : EReal := Ideal.ofBits .f32 0x36800000#32

/-- The deviation of four values: the root of their mean squared distance from their mean, plus the constant. -/
def dev4 (a : Fin 4 → EReal) : EReal :=
  Ideal.sqrt (Ideal.div (∑ g : Fin 4, (a g - Ideal.div (∑ g' : Fin 4, a g') four) * (a g - Ideal.div (∑ g' : Fin 4, a g') four)) four + eps)

/-- The four group members' entries of replica `r` at feature `(ch, h, w)`: batch index `g * 16 + r`. -/
def grp (x : SX.Idx → EReal) (r : Fin 16) (ch : Fin 256) (h w : Fin 32) : Fin 4 → EReal :=
  fun g => x (ix4 (⟨g.val * 16 + r.val, by omega⟩ : Fin 64) ch h w)

def dev (x : SX.Idx → EReal) (r : Fin 16) (ch : Fin 256) (h w : Fin 32) : EReal := dev4 (grp x r ch h w)

/-- The sum of a function of the features in canonical order. -/
def total (f : Fin 256 → Fin 32 → Fin 32 → EReal) : EReal := ∑ ch : Fin 256, ∑ h : Fin 32, ∑ w : Fin 32, f ch h w

/-- Replica `r`'s statistic. -/
def stat (x : SX.Idx → EReal) (r : Fin 16) : EReal := total (dev x r) * invD

/-- The result at coordinates. -/
def outAt (x : SX.Idx → EReal) (b : Fin 64) (c : Fin 257) (h w : Fin 32) : EReal :=
  if hc : c.val < 256 then x (ix4 b (⟨c.val, hc⟩ : Fin 256) h w) else stat x ⟨b.val % 16, Nat.mod_lt _ (by norm_num)⟩

/-- The result array. -/
def out (x : SX.Idx → EReal) : SY.Idx → EReal := fun j => outAt x (j 0) (j 1) (j 2) (j 3)

theorem out_ix4 (x : SX.Idx → EReal) (b : Fin 64) (c : Fin 257) (h w : Fin 32) : out x (ix4 b c h w) = outAt x b c h w := rfl

/-! ## The two arrangements of the features' sum -/

/-- Pixel-major: over the 1024 pixels `p = h * 32 + w`, then the channels. -/
def totalK (f : Fin 256 → Fin 32 → Fin 32 → EReal) : EReal :=
  ∑ p : Fin 1024, ∑ ch : Fin 256, f ch ⟨p.val / 32, by omega⟩ ⟨p.val % 32, by omega⟩

/-- A quarter `q` of the channel-major flattened feature axis `d = ch * 1024 + h * 32 + w`: `d = q * 65536 + l`. -/
def quarter (f : Fin 256 → Fin 32 → Fin 32 → EReal) (q : Fin 4) : EReal :=
  ∑ l : Fin 65536, f ⟨(q.val * 65536 + l.val) / 1024, by omega⟩ ⟨(q.val * 65536 + l.val) % 1024 / 32, by omega⟩ ⟨(q.val * 65536 + l.val) % 32, by omega⟩

/-- The statistic as the first program accumulates it: nothing, plus the pixel-major sum scaled. -/
def statK (x : SX.Idx → EReal) (r : Fin 16) : EReal := 0 + totalK (dev x r) * invD

/-- The statistic as the second program accumulates it: nothing, plus each quarter scaled, in order. -/
def statR (x : SX.Idx → EReal) (r : Fin 16) : EReal :=
  (((0 + quarter (dev x r) 0 * invD) + quarter (dev x r) 1 * invD) + quarter (dev x r) 2 * invD) + quarter (dev x r) 3 * invD

/-! ## The same statistic over the input reshaped to [4, 16, 262144] (group, replica, flattened feature) -/

abbrev SF : Shape := ⟨3, ![4, 16, 262144]⟩

/-- A quarter of the flattened feature axis of the reshaped array, for replica `r`. -/
def quarterFlat (X : SF.Idx → EReal) (r : Fin 16) (q : Fin 4) : EReal :=
  ∑ l : Fin 65536, dev4 (fun g => X (ix3 g r (⟨q.val * 65536 + l.val, by omega⟩ : Fin 262144)))

/-- The statistic accumulated quarter by quarter over the reshaped array. -/
def statFlat (X : SF.Idx → EReal) (r : Fin 16) : EReal :=
  (((0 + quarterFlat X r 0 * invD) + quarterFlat X r 1 * invD) + quarterFlat X r 2 * invD) + quarterFlat X r 3 * invD

end Cert.Spec

end
-- ==== Proof.SpecLaws.lean ====
/-
  The rearrangement laws of the statistic's sum, and the facts about the scale constant they need.
  Pure mathematics over extended-real arrays: no program is imported.

  Extended-real addition is commutative and associative, so a finite sum may be reindexed freely; multiplication
  by a finite nonnegative constant distributes over it.  A sum over a product range N = m * n is reindexed
  through p = i * n + j, i = p / n, j = p % n.
-/
import proofs.«123689_g2000102519160773_pallasbulk_914_7_alg».proof.Proof.Spec
import Mathlib.Data.EReal.Operations
import Mathlib.Algebra.BigOperators.Fin
import Mathlib.Logic.Equiv.Fin.Basic

noncomputable section

open scoped BigOperators

namespace Cert.Spec

open Idealize.ShloMosaic Idealize.ShloMosaic.ValueIdx

/-! ## Reindexing a sum over a product range -/

/-- A sum over Fin N, N = m * n, whose summand at p is a function of (p / n, p % n), is the double sum. -/
theorem sum_fin_divmod {M : Type*} [AddCommMonoid M] {N m n : ℕ} (hN : N = m * n) (F : Fin N → M)
    (g : Fin m → Fin n → M)
    (h : ∀ (p : Fin N) (hd : p.val / n < m) (hm : p.val % n < n), F p = g ⟨p.val / n, hd⟩ ⟨p.val % n, hm⟩) :
    ∑ p, F p = ∑ i, ∑ j, g i j := by
  subst hN
  have e : ∀ p : Fin (m * n), F p = (fun x : Fin m × Fin n => g x.1 x.2) (finProdFinEquiv.symm p) := by
    intro p
    exact h p (Fin.divNat p).isLt (Fin.modNat p).isLt
  rw [Fintype.sum_congr _ _ e, Equiv.sum_comp finProdFinEquiv.symm (fun x : Fin m × Fin n => g x.1 x.2),
    Fintype.sum_prod_type]

/-- The same with the summand given at p = i * n + j. -/
theorem sum_fin_muladd {M : Type*} [AddCommMonoid M] {N m n : ℕ} (hN : N = m * n) (F : Fin N → M)
    (g : Fin m → Fin n → M)
    (h : ∀ (i : Fin m) (j : Fin n) (hlt : i.val * n + j.val < N), F ⟨i.val * n + j.val, hlt⟩ = g i j) :
    ∑ p, F p = ∑ i, ∑ j, g i j := by
  apply sum_fin_divmod hN
  intro p hd hm
  have hp : p.val / n * n + p.val % n = p.val := Nat.div_add_mod' _ _
  have := h ⟨p.val / n, hd⟩ ⟨p.val % n, hm⟩ (by simp only [hp]; exact p.isLt)
  rw [← this]
  congr 1
  exact Fin.ext hp.symm

/-! ## The pixel-major arrangement -/

theorem totalK_eq (f : Fin 256 → Fin 32 → Fin 32 → EReal) : totalK f = total f := by
  unfold totalK total
  rw [sum_fin_divmod (m := 32) (n := 32) (by norm_num) _ (fun h w => ∑ ch : Fin 256, f ch h w)
    (fun p hd hm => rfl)]
  calc ∑ h : Fin 32, ∑ w : Fin 32, ∑ ch : Fin 256, f ch h w
      = ∑ h : Fin 32, ∑ ch : Fin 256, ∑ w : Fin 32, f ch h w :=
        Fintype.sum_congr _ _ (fun h => Finset.sum_comm)
    _ = ∑ ch : Fin 256, ∑ h : Fin 32, ∑ w : Fin 32, f ch h w := Finset.sum_comm

/-! ## The four quarters of the channel-major flattened axis -/

/-- The summand of the flattened feature axis at d = ch * 1024 + h * 32 + w. -/
def flat (f : Fin 256 → Fin 32 → Fin 32 → EReal) (d : Fin 262144) : EReal :=
  f ⟨d.val / 1024, by omega⟩ ⟨d.val % 1024 / 32, by omega⟩ ⟨d.val % 32, by omega⟩

theorem sum_flat (f : Fin 256 → Fin 32 → Fin 32 → EReal) : ∑ d : Fin 262144, flat f d = total f := by
  unfold total
  rw [sum_fin_divmod (m := 256) (n := 1024) (by norm_num) _
    (fun ch px => f ch ⟨px.val / 32, by omega⟩ ⟨px.val % 32, by omega⟩)
    (fun p hd hm => by
      unfold flat
      congr 1
      exact Fin.ext (by simp only []; omega))]
  apply Fintype.sum_congr
  intro ch
  exact sum_fin_divmod (m := 32) (n := 32) (by norm_num) _ (fun h w => f ch h w) (fun p hd hm => rfl)

theorem sum_quarter (f : Fin 256 → Fin 32 → Fin 32 → EReal) : ∑ q : Fin 4, quarter f q = total f := by
  rw [← sum_flat]
  symm
  exact sum_fin_muladd (m := 4) (n := 65536) (by norm_num) _ _ (fun q l hlt => rfl)

theorem quarters_eq (f : Fin 256 → Fin 32 → Fin 32 → EReal) (k : EReal) (hk0 : 0 ≤ k) (hk : k ≠ ⊤) :
    (((0 + quarter f 0 * k) + quarter f 1 * k) + quarter f 2 * k) + quarter f 3 * k = total f * k := by
  rw [← sum_quarter, Fin.sum_univ_four, EReal.right_distrib_of_nonneg_of_ne_top hk0 hk,
    EReal.right_distrib_of_nonneg_of_ne_top hk0 hk, EReal.right_distrib_of_nonneg_of_ne_top hk0 hk, zero_add]

/-! ## The scale constant -/

theorem invD_eq : invD = (((2 : ℝ) ^ (-18 : Int) : ℝ) : EReal) := by
  simp [invD, Ideal.ofBits, Ideal.ieee, -EReal.coe_mul]
  norm_num

theorem invD_nonneg : 0 ≤ invD := by
  rw [invD_eq]
  exact EReal.coe_nonneg.mpr (by positivity)

theorem invD_ne_top : invD ≠ ⊤ := by
  rw [invD_eq]
  exact EReal.coe_ne_top _

/-! ## The three accumulations of the statistic -/

theorem statK_eq (x : SX.Idx → EReal) (r : Fin 16) : statK x r = stat x r := by
  unfold statK stat
  rw [totalK_eq, zero_add]

theorem statR_eq (x : SX.Idx → EReal) (r : Fin 16) : statR x r = stat x r := by
  unfold statR stat
  exact quarters_eq (dev x r) invD invD_nonneg invD_ne_top

/-- Over the reshaped array a quarter's sum is the quarter of the features' deviations. -/
theorem quarterFlat_eq (x : SX.Idx → EReal) (X : SF.Idx → EReal)
    (hX : ∀ (g : Fin 4) (r : Fin 16) (d : Fin 262144), X (ix3 g r d) = x (ix4 (⟨g.val * 16 + r.val, by omega⟩ : Fin 64) (⟨d.val / 1024, by omega⟩ : Fin 256) (⟨d.val % 1024 / 32, by omega⟩ : Fin 32) (⟨d.val % 32, by omega⟩ : Fin 32)))
    (r : Fin 16) (q : Fin 4) : quarterFlat X r q = quarter (dev x r) q := by
  unfold quarterFlat quarter
  apply Fintype.sum_congr
  intro l
  unfold dev grp
  congr 1
  funext g
  exact hX g r _

theorem statFlat_reshape (x : SX.Idx → EReal) (X : SF.Idx → EReal) (hX : ∀ (g : Fin 4) (r : Fin 16) (d : Fin 262144), X (ix3 g r d) = x (ix4 (⟨g.val * 16 + r.val, by omega⟩ : Fin 64) (⟨d.val / 1024, by omega⟩ : Fin 256) (⟨d.val % 1024 / 32, by omega⟩ : Fin 32) (⟨d.val % 32, by omega⟩ : Fin 32))) (r : Fin 16) : statFlat X r = stat x r := by
  unfold statFlat
  rw [quarterFlat_eq x X hX, quarterFlat_eq x X hX, quarterFlat_eq x X hX, quarterFlat_eq x X hX]
  exact statR_eq x r

end Cert.Spec

end
-- ==== Proof.KPay.lean ====
/-
  The kernel's stored values read at one index, at the ideal values: the accumulator's start, the copied block,
  the accumulator's update (the old value plus the block's sum of deviations scaled), and the statistic's column.
-/
import proofs.«123689_g2000102519160773_pallasbulk_914_7_alg».proof.Proof.Gen.KernelIdeal.Skeleton
import proofs.«123689_g2000102519160773_pallasbulk_914_7_alg».proof.Proof.Spec
import proofs.«123689_g2000102519160773_pallasbulk_914_7_alg».proof.Proof.SpecLaws
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KPay

open Cert.KernelIdeal Cert.KernelIdeal.Gen Idealize.ShloMosaic Idealize.ShloMosaic.ValueIdx

/-! ## The accumulator's start, the copied block, the statistic's column -/

theorem pay1_apply (q : Fin 2) : k0_pay1 (F := Ideal) (ix2 q (0 : Fin 1)) = 0 := by
  unfold k0_pay1
  rw [shapeCast_self]
  exact Ideal.ofBits_zero_f32

theorem pay2_eq (x0 : Vec Ideal S4x2x1024x256 .f32) : k0_pay2 (F := Ideal) x0 = x0 := by
  unfold k0_pay2
  exact shapeCast_self _ _

theorem pay4_apply (s : Vec Ideal S2x1 .f32) (g : Fin 4) (q : Fin 2) (p : Fin 1024) :
    k0_pay4 (F := Ideal) s (ix4 g q p (0 : Fin 1)) = s (ix2 q 0) := by
  unfold k0_pay4
  rw [shapeCast_self]
  refine (broadcastTo_apply _ _ (ix4 g q p (0 : Fin 1)) (ix4 (0 : Fin 1) q (0 : Fin 1) (0 : Fin 1)) fun a => ?_).trans ?_
  · match a with
    | ⟨0, _⟩ => rfl
    | ⟨1, _⟩ => rfl
    | ⟨2, _⟩ => rfl
    | ⟨3, _⟩ => rfl
  · refine shapeCast_apply _ _ _ _ ?_
    rw [Shape.rowMajor_val_four, Shape.rowMajor_val_two]
    show q.val * 1 + 0 = ((0 * 2 + q.val) * 1 + 0) * 1 + 0
    omega

/-! ## Layout and reduction steps read at an index -/

/-- A vector [a] viewed as a column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The sum over the group axis of a [4, 2, 1024, 256] block, at (q, p, ch): the four group members' entries. -/
theorem groupSum_apply (src : FVec Ideal S4x2x1024x256 .f32) (h : S4x2x1024x256.Reduces [0] S2x1024x256)
    (hφ : FKind.Formats .f32) (hacc : (0x00000000#32 : BitVec 32) = FKind.add.neutral .f32 hφ)
    (q : Fin 2) (p : Fin 1024) (ch : Fin 256) :
    multiReduction .add [0] S2x1024x256 src 0x00000000#32 h hφ hacc (ix3 q p ch) = ∑ g : Fin 4, src (ix4 g q p ch) := by
  refine (Ideal.multiReduction_add_single src _ h hφ hacc (ix3 q p ch)).trans ?_
  refine Fintype.sum_congr _ _ fun g => congrArg src ?_
  funext c
  match c with
  | ⟨0, _⟩ => rfl
  | ⟨1, _⟩ => rfl
  | ⟨2, _⟩ => rfl
  | ⟨3, _⟩ => rfl

/-- An index of [2, 1024, 256] drops, over the pixel and channel axes, to replica q exactly when its first coordinate is q. -/
theorem drop_eq_iff (h : S2x1024x256.Reduces [1, 2] S2) (i : S2x1024x256.Idx) (q : Fin 2) :
    h.drop i = ix1 q ↔ (i (0 : Fin 3)).val = q.val := by
  have e : (h.drop i (0 : Fin 1) : Nat) = (i (0 : Fin 3)).val := h.drop_apply_val_of_eq i (0 : Fin 1) (0 : Fin 3)
  constructor
  · intro hd
    rw [← e, hd]
  · intro hq
    funext b
    match b with
    | ⟨0, _⟩ => exact Fin.ext (e.trans hq)

/-- The sum over the pixel and channel axes of a [2, 1024, 256] array, at replica q: the double sum. -/
theorem laneSum_apply (src : FVec Ideal S2x1024x256 .f32) (h : S2x1024x256.Reduces [1, 2] S2)
    (hφ : FKind.Formats .f32) (hacc : (0x00000000#32 : BitVec 32) = FKind.add.neutral .f32 hφ) (q : Fin 2) :
    multiReduction .add [1, 2] S2 src 0x00000000#32 h hφ hacc (ix1 q)
      = ∑ p : Fin 1024, ∑ ch : Fin 256, src (ix3 q p ch) := by
  show ∑ i ∈ Finset.univ.filter (fun i => h.drop i = ix1 q), src i = _
  refine Eq.trans ?_ (Fintype.sum_prod_type' (fun (p : Fin 1024) (ch : Fin 256) => src (ix3 q p ch)))
  have hl : ∀ i ∈ Finset.univ.filter (fun i => h.drop i = ix1 q),
      (ix3 q (⟨(i (1 : Fin 3)).val, (i (1 : Fin 3)).isLt⟩ : Fin 1024) (⟨(i (2 : Fin 3)).val, (i (2 : Fin 3)).isLt⟩ : Fin 256) : S2x1024x256.Idx) = i := by
    intro i hi
    have hq := (drop_eq_iff h i q).1 (Finset.mem_filter.1 hi).2
    funext c
    match c with
    | ⟨0, _⟩ => exact Fin.ext hq.symm
    | ⟨1, _⟩ => rfl
    | ⟨2, _⟩ => rfl
  refine Finset.sum_nbij'
    (fun i => ((⟨(i (1 : Fin 3)).val, (i (1 : Fin 3)).isLt⟩ : Fin 1024), (⟨(i (2 : Fin 3)).val, (i (2 : Fin 3)).isLt⟩ : Fin 256)))
    (fun x => ix3 q x.1 x.2) ?_ ?_ ?_ ?_ ?_
  · intro i _; exact Finset.mem_univ _
  · intro x _; exact Finset.mem_filter.2 ⟨Finset.mem_univ _, (drop_eq_iff h _ q).2 rfl⟩
  · intro i hi; exact hl i hi
  · intro x _; rfl
  · intro i hi; exact congrArg src (hl i hi).symm

/-- A [1, 2, 1024, 256] array broadcast over the group axis reads, at (g, q, p, ch), its one leading slice at (q, p, ch). -/
theorem bcastGroup_apply (v : FVec Ideal S1x2x1024x256 .f32) (hb : S1x2x1024x256.Broadcasts S4x2x1024x256)
    (g : Fin 4) (q : Fin 2) (p : Fin 1024) (ch : Fin 256) :
    broadcastTo S4x2x1024x256 v hb (ix4 g q p ch) = v (ix4 (0 : Fin 1) q p ch) :=
  broadcastTo_apply v hb _ _ fun a => by
    match a with
    | ⟨0, _⟩ => rfl
    | ⟨1, _⟩ => rfl
    | ⟨2, _⟩ => rfl
    | ⟨3, _⟩ => rfl

/-- The group mean, broadcast back over the group axis, at (g, q, p, ch): the four entries' sum over the divisor. -/
theorem mean_apply (x0 : FVec Ideal S4x2x1024x256 .f32) (h0 : S4x2x1024x256.Reduces [0] S2x1024x256)
    (hφ : FKind.Formats .f32) (hacc : (0x00000000#32 : BitVec 32) = FKind.add.neutral .f32 hφ)
    (hc : S2x1024x256.ShapeCasts S1x2x1024x256) (hb : S1x2x1024x256.Broadcasts S4x2x1024x256) (c : Ideal .f32)
    (g : Fin 4) (q : Fin 2) (p : Fin 1024) (ch : Fin 256) :
    broadcastTo S4x2x1024x256
        (shapeCast S1x2x1024x256
          (divf (multiReduction .add [0] S2x1024x256 x0 0x00000000#32 h0 hφ hacc) (broadcast S2x1024x256 c)) hc)
        hb (ix4 g q p ch)
      = Ideal.div (∑ g' : Fin 4, x0 (ix4 g' q p ch)) c := by
  refine (bcastGroup_apply _ hb g q p ch).trans ?_
  refine (shapeCast_abc_1abc_apply _ hc (0 : Fin 1) q p ch).trans ?_
  show Ideal.div (multiReduction .add [0] S2x1024x256 x0 0x00000000#32 h0 hφ hacc (ix3 q p ch)) c = _
  rw [groupSum_apply]

/-! ## The accumulator's update -/

theorem pay3_apply (x0 : Vec Ideal S4x2x1024x256 .f32) (acc : Vec Ideal S2x1 .f32) (q : Fin 2) :
    k0_pay3 (F := Ideal) x0 acc (ix2 q (0 : Fin 1))
      = acc (ix2 q 0) + (∑ p : Fin 1024, ∑ ch : Fin 256, Cert.Spec.dev4 (fun g => x0 (ix4 g q p ch))) * Cert.Spec.invD := by
  unfold k0_pay3
  rw [pay2_eq x0]
  refine (congrFun (shapeCast_self _ _) _).trans ?_
  show acc (ix2 q 0) + shapeCast S2x1 _ _ (ix2 q 0) * Cert.Spec.invD = _
  refine congrArg (fun z => acc (ix2 q 0) + z * Cert.Spec.invD) ?_
  refine (shapeCast_a_a1_apply _ _ q 0).trans ?_
  refine (laneSum_apply _ _ _ _ q).trans ?_
  refine Fintype.sum_congr _ _ fun p => Fintype.sum_congr _ _ fun ch => ?_
  show Ideal.sqrt (Ideal.div (multiReduction (F := Ideal) (φ := .f32) .add [0] S2x1024x256 _ 0x00000000#32 _ _ _ (ix3 q p ch)) Cert.Spec.four + Cert.Spec.eps) = _
  unfold Cert.Spec.dev4
  refine congrArg (fun z => Ideal.sqrt (Ideal.div z Cert.Spec.four + Cert.Spec.eps)) ?_
  refine (groupSum_apply _ _ _ _ q p ch).trans ?_
  refine Fintype.sum_congr _ _ fun g => ?_
  have hm := mean_apply x0 reduces_S4x2x1024x256_S2x1024x256 (.inl rfl) rfl shapeCasts_S2x1024x256_S1x2x1024x256
    broadcasts_S1x2x1024x256_S4x2x1024x256 Cert.Spec.four g q p ch
  exact congrArg (fun z => (x0 (ix4 g q p ch) - z) * (x0 (ix4 g q p ch) - z)) hm

end Cert.KPay

end
-- ==== Proof.KArr.lean ====
/-
  The kernel's host operations around its region, read at an index at the ideal values: the region's input array
  is the program's argument re-indexed (a transpose, then a reshape: batch b = g * 16 + r, pixel p = h * 32 + w);
  the region's result array as a function of its input array (the copied channels and the statistic's channel);
  and the host operations after the region (a reshape, then a transpose) carry that array to the specified result.
-/
import proofs.«123689_g2000102519160773_pallasbulk_914_7_alg».proof.Proof.Gen.KernelIdeal.Frame
import proofs.«123689_g2000102519160773_pallasbulk_914_7_alg».proof.Proof.Spec
import proofs.«123689_g2000102519160773_pallasbulk_914_7_alg».proof.Proof.SpecLaws
import proofs.«123689_g2000102519160773_pallasbulk_914_7_alg».proof.Proof.KPay
import Idealize.ShloMosaic.Lib.ValueIdx
import Idealize.ShloMosaic.Lib.Pipeline.Value
import Idealize.ShloMosaic.Lib.ValueLayout
import Idealize.ShloMosaic.Lib.StableHlo.Run

noncomputable section

open scoped BigOperators

namespace Cert.KArr

open Cert.KernelIdeal Cert.KernelIdeal.Gen Idealize.ShloMosaic Idealize.ShloMosaic.ValueIdx

/-! ## The region's result array as a function of its input array -/

/-- The region's result array [4, 16, 1024, 257] from its input array [4, 16, 1024, 256]: the first 256 channels
    copy the input; the last holds, at every group member and pixel, the replica's sum of deviations scaled. -/
def arrY (X1 : S4x16x1024x256.Idx → EReal) : S4x16x1024x257.Idx → EReal := fun j =>
  if h : (j (3 : Fin 4)).val < 256 then
    X1 (ix4 (⟨(j (0 : Fin 4)).val, (j (0 : Fin 4)).isLt⟩ : Fin 4) (⟨(j (1 : Fin 4)).val, (j (1 : Fin 4)).isLt⟩ : Fin 16)
      (⟨(j (2 : Fin 4)).val, (j (2 : Fin 4)).isLt⟩ : Fin 1024) (⟨(j (3 : Fin 4)).val, h⟩ : Fin 256))
  else
    0 + (∑ p : Fin 1024, ∑ ch : Fin 256,
      Cert.Spec.dev4 (fun g => X1 (ix4 g (⟨(j (1 : Fin 4)).val, (j (1 : Fin 4)).isLt⟩ : Fin 16) p ch))) * Cert.Spec.invD

theorem arrY_ix4 (X1 : S4x16x1024x256.Idx → EReal) (g : Fin 4) (r : Fin 16) (p : Fin 1024) (c' : Fin 257) :
    arrY X1 (ix4 g r p c')
      = if h : c'.val < 256 then X1 (ix4 g r p (⟨c'.val, h⟩ : Fin 256))
        else 0 + (∑ p : Fin 1024, ∑ ch : Fin 256, Cert.Spec.dev4 (fun g => X1 (ix4 g r p ch))) * Cert.Spec.invD := rfl

theorem arrY_ix4_lt (X1 : S4x16x1024x256.Idx → EReal) (g : Fin 4) (r : Fin 16) (p : Fin 1024) (c' : Fin 257)
    (h : c'.val < 256) : arrY X1 (ix4 g r p c') = X1 (ix4 g r p (⟨c'.val, h⟩ : Fin 256)) := by
  rw [arrY_ix4, dif_pos h]

theorem arrY_ix4_ge (X1 : S4x16x1024x256.Idx → EReal) (g : Fin 4) (r : Fin 16) (p : Fin 1024) (c' : Fin 257)
    (h : ¬ c'.val < 256) :
    arrY X1 (ix4 g r p c')
      = 0 + (∑ p : Fin 1024, ∑ ch : Fin 256, Cert.Spec.dev4 (fun g => X1 (ix4 g r p ch))) * Cert.Spec.invD := by
  rw [arrY_ix4, dif_neg h]

/-! ## The region's input array -/

/-- The region finds in its input array the argument transposed to channels-last and reshaped. -/
theorem entry_eq (m : (ℓ : Loc nD τ sig) → Buf (Elt Ideal) ℓ) (c : Dev nD) :
    (V m c main_v1 : S4x16x1024x256.Idx → EReal)
      = shapeCast S4x16x1024x256
          (transpose S64x32x32x256 [0, 2, 3, 1] (m ((c.tc : Thread nD τ).loc main_arg0) : S64x256x32x32.Idx → EReal)
            transposes_S64x256x32x32_S64x32x32x256_0_2_3_1)
          shapeCasts_S64x32x32x256_S4x16x1024x256 := by
  show StableHlo.after hostOps0 (fun b => m (c, b)) (Proc.devRef .tc main_v1) = _
  after_results
  rfl

/-- The region's input array at (g, r, p, ch) is the argument at batch g * 16 + r, channel ch, pixel (p / 32, p % 32). -/
theorem entry_apply (m : (ℓ : Loc nD τ sig) → Buf (Elt Ideal) ℓ) (c : Dev nD) (g : Fin 4) (r : Fin 16) (p : Fin 1024)
    (ch : Fin 256) :
    (V m c main_v1 : S4x16x1024x256.Idx → EReal) (ix4 g r p ch)
      = (m ((c.tc : Thread nD τ).loc main_arg0) : S64x256x32x32.Idx → EReal)
          (ix4 (⟨g.val * 16 + r.val, by omega⟩ : Fin 64) ch (⟨p.val / 32, by omega⟩ : Fin 32) (⟨p.val % 32, by omega⟩ : Fin 32)) := by
  rw [entry_eq]
  refine (shapeCast_apply _ _ (ix4 g r p ch)
    (ix4 (⟨g.val * 16 + r.val, by omega⟩ : Fin 64) (⟨p.val / 32, by omega⟩ : Fin 32) (⟨p.val % 32, by omega⟩ : Fin 32) ch) ?_).trans ?_
  · rw [Shape.rowMajor_val_four, Shape.rowMajor_val_four]
    show (((g.val * 16 + r.val) * 32 + p.val / 32) * 32 + p.val % 32) * 256 + ch.val
      = ((g.val * 16 + r.val) * 1024 + p.val) * 256 + ch.val
    omega
  · refine transpose_apply _ _ _ _ _ fun a => ?_
    match a with
    | ⟨0, _⟩ => rfl
    | ⟨1, _⟩ => rfl
    | ⟨2, _⟩ => rfl
    | ⟨3, _⟩ => rfl

/-! ## The host operations after the region -/

/-- The region's result array reshaped to [64, 32, 32, 257] and transposed to channels-second reads, at
    (b, c', h, w), the array at group member b / 16, replica b % 16, pixel h * 32 + w, channel c'. -/
theorem tail_apply (Y : S4x16x1024x257.Idx → EReal) (b : Fin 64) (c' : Fin 257) (h w : Fin 32) :
    (transpose S64x257x32x32 [0, 3, 1, 2] (shapeCast S64x32x32x257 Y shapeCasts_S4x16x1024x257_S64x32x32x257)
        transposes_S64x32x32x257_S64x257x32x32_0_3_1_2) (ix4 b c' h w)
      = Y (ix4 (⟨b.val / 16, by omega⟩ : Fin 4) (⟨b.val % 16, by omega⟩ : Fin 16) (⟨h.val * 32 + w.val, by omega⟩ : Fin 1024) c') := by
  refine (transpose_apply _ _ _ (ix4 b c' h w) (ix4 b h w c') fun a => ?_).trans ?_
  · match a with
    | ⟨0, _⟩ => rfl
    | ⟨1, _⟩ => rfl
    | ⟨2, _⟩ => rfl
    | ⟨3, _⟩ => rfl
  · refine shapeCast_apply _ _ _ _ ?_
    rw [Shape.rowMajor_val_four, Shape.rowMajor_val_four]
    show ((b.val / 16 * 16 + b.val % 16) * 1024 + (h.val * 32 + w.val)) * 257 + c'.val
      = ((b.val * 32 + h.val) * 32 + w.val) * 257 + c'.val
    omega

/-- After the host operations that follow the region, the result buffer holds the region's result array reshaped and
    transposed, whatever the other buffers hold. -/
theorem tail_eq (W : Valuation τ sig (Elt Ideal)) :
    (StableHlo.after (hostOps1 (F := Ideal)) W (Proc.devRef .tc main_v4) : S64x257x32x32.Idx → EReal)
      = transpose S64x257x32x32 [0, 3, 1, 2]
          (shapeCast S64x32x32x257 (W (Proc.devRef .tc main_v2) : S4x16x1024x257.Idx → EReal)
            shapeCasts_S4x16x1024x257_S64x32x32x257)
          transposes_S64x32x32x257_S64x257x32x32_0_3_1_2 := by
  after_results
  rfl

/-! ## The whole result -/

/-- If the region's input array is the argument re-indexed, the host operations after the region carry the region's
    result array to the specified result. -/
theorem out_eq (x : S64x256x32x32.Idx → EReal) (X1 : S4x16x1024x256.Idx → EReal)
    (hX : ∀ (g : Fin 4) (r : Fin 16) (p : Fin 1024) (ch : Fin 256), X1 (ix4 g r p ch)
      = x (ix4 (⟨g.val * 16 + r.val, by omega⟩ : Fin 64) ch (⟨p.val / 32, by omega⟩ : Fin 32) (⟨p.val % 32, by omega⟩ : Fin 32))) :
    transpose S64x257x32x32 [0, 3, 1, 2] (shapeCast S64x32x32x257 (arrY X1) shapeCasts_S4x16x1024x257_S64x32x32x257)
        transposes_S64x32x32x257_S64x257x32x32_0_3_1_2
      = Cert.Spec.out x := by
  funext j
  obtain ⟨b, c', h, w, rfl⟩ : ∃ (b : Fin 64) (c' : Fin 257) (h w : Fin 32), j = ix4 b c' h w :=
    ⟨j (0 : Fin 4), j (1 : Fin 4), j (2 : Fin 4), j (3 : Fin 4), eq_ix4 j⟩
  rw [tail_apply, Cert.Spec.out_ix4]
  unfold Cert.Spec.outAt
  by_cases hc : c'.val < 256
  · rw [dif_pos hc, arrY_ix4_lt _ _ _ _ _ hc, hX]
    refine congrArg x ?_
    funext a
    match a with
    | ⟨0, _⟩ => exact Fin.ext (by show b.val / 16 * 16 + b.val % 16 = b.val; omega)
    | ⟨1, _⟩ => rfl
    | ⟨2, _⟩ => exact Fin.ext (by show (h.val * 32 + w.val) / 32 = h.val; omega)
    | ⟨3, _⟩ => exact Fin.ext (by show (h.val * 32 + w.val) % 32 = w.val; omega)
  · rw [dif_neg hc, arrY_ix4_ge _ _ _ _ _ hc]
    refine Eq.trans ?_ (Cert.Spec.statK_eq x _)
    unfold Cert.Spec.statK Cert.Spec.totalK
    refine congrArg (fun z => 0 + z * Cert.Spec.invD) ?_
    refine Fintype.sum_congr _ _ fun p => Fintype.sum_congr _ _ fun ch => ?_
    unfold Cert.Spec.dev Cert.Spec.grp
    exact congrArg Cert.Spec.dev4 (funext fun g => hX g _ p ch)

end Cert.KArr

end
-- ==== Proof.KValueEven.lean ====
/-
  What an even grid point writes back to the kernel's result array.  Point t = 2 * i + k stages the input block of
  replicas 2 * i and 2 * i + 1 and, at k = 0, copies it to the output block at the same replicas and channels
  0 .. 255: that block of the result array, as a function of the input array, is the input array's.
-/
import proofs.«123689_g2000102519160773_pallasbulk_914_7_alg».proof.Proof.KDataIdeal
import proofs.«123689_g2000102519160773_pallasbulk_914_7_alg».proof.Proof.KPay
import proofs.«123689_g2000102519160773_pallasbulk_914_7_alg».proof.Proof.KArr
import Idealize.ShloMosaic.Lib.ValueIdx
import Idealize.ShloMosaic.Lib.Pipeline.Value

set_option maxRecDepth 16384

noncomputable section

open scoped BigOperators

namespace Cert.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open Cert.KArr (arrY arrY_ix4_lt)

variable (m : (ℓ : Loc nD τ sig) → Buf (Elt Ideal) ℓ)

/-- The block indices of the two windows over the grid: point t = 2 * i + k stages input block (0, i, 0, 0) and writes
    output block (0, i, 0, k). -/
theorem index0 : ∀ t : Fin cfg0.N, win0_0.index t = ![0, t.val / 2, 0, 0] :=
  (by decide +kernel : ∀ t : Fin grid0.N, win0_0.index t = ![0, t.val / 2, 0, 0])
theorem index1 : ∀ t : Fin cfg0.N, win0_1.index t = ![0, t.val / 2, 0, t.val % 2] :=
  (by decide +kernel : ∀ t : Fin grid0.N, win0_1.index t = ![0, t.val / 2, 0, t.val % 2])

/-- The input block at point t, read at an index, is the input array at replica 2 * (t / 2) + q. -/
theorem iblk0_apply (c : Dev nD) (t : Fin cfg0.N) (g : Fin 4) (q : Fin 2) (p : Fin 1024) (ch : Fin 256) (r : Fin 16)
    (hr : r.val = 2 * (t.val / 2) + q.val) :
    (iblk m c 0 t : S4x2x1024x256.Idx → EReal) (ix4 g q p ch) = (V m c main_v1 : S4x16x1024x256.Idx → EReal) (ix4 g r p ch) := by
  unfold iblk
  show V m c main_v1 (((cfg0.win 0).blk t).view.emb (ix4 g q p ch)) = V m c main_v1 (ix4 g r p ch)
  refine congrArg _ ?_
  have e := index0 t
  funext a; apply Fin.ext
  match a with
  | ⟨0, _⟩ => show win0_0.index t (0 : Fin 4) * 4 + 1 * g.val = g.val; rw [e]; show 0 * 4 + 1 * g.val = g.val; omega
  | ⟨1, _⟩ => show win0_0.index t (1 : Fin 4) * 2 + 1 * q.val = r.val; rw [e]; show (t.val / 2) * 2 + 1 * q.val = r.val; omega
  | ⟨2, _⟩ => show win0_0.index t (2 : Fin 4) * 1024 + 1 * p.val = p.val; rw [e]; show 0 * 1024 + 1 * p.val = p.val; omega
  | ⟨3, _⟩ => show win0_0.index t (3 : Fin 4) * 256 + 1 * ch.val = ch.val; rw [e]; show 0 * 256 + 1 * ch.val = ch.val; omega

/-- Where an element of the output block of point t sits in the output array. -/
theorem emb1_eq (t : Fin cfg0.N) (j : (win0_1.xblock (grid0.coords t)).Idx) (g : Fin 4) (r : Fin 16) (p : Fin 1024) (c' : Fin 257)
    (hg : g.val = (j 0).val) (hr : r.val = 2 * (t.val / 2) + (j 1).val) (hp : p.val = (j 2).val)
    (hc : c'.val = (t.val % 2) * 256 + (j 3).val) :
    (((cfg0.win 1).blk t).view.emb j : S4x16x1024x257.Idx) = ix4 g r p c' := by
  have e := index1 t
  funext a; apply Fin.ext
  match a with
  | ⟨0, _⟩ => show win0_1.index t (0 : Fin 4) * 4 + 1 * (j 0).val = g.val; rw [e]; show 0 * 4 + 1 * (j 0).val = g.val; omega
  | ⟨1, _⟩ => show win0_1.index t (1 : Fin 4) * 2 + 1 * (j 1).val = r.val; rw [e]; show (t.val / 2) * 2 + 1 * (j 1).val = r.val; omega
  | ⟨2, _⟩ => show win0_1.index t (2 : Fin 4) * 1024 + 1 * (j 2).val = p.val; rw [e]; show 0 * 1024 + 1 * (j 2).val = p.val; omega
  | ⟨3, _⟩ => show win0_1.index t (3 : Fin 4) * 256 + 1 * (j 3).val = c'.val; rw [e]; show (t.val % 2) * 256 + 1 * (j 3).val = c'.val; omega

/-- The coordinates of an element of the part of the output block that is written back lie inside the block. -/
theorem xinj1_bounds (t : Fin cfg0.N) (j : (win0_1.xblock (grid0.coords t)).Idx) :
    (j 0).val < 4 ∧ (j 1).val < 2 ∧ (j 2).val < 1024 ∧ (j 3).val < 256 :=
  ⟨by have := (win0_1.xinj (grid0.coords t) j 0).isLt; simpa using this,
   by have := (win0_1.xinj (grid0.coords t) j 1).isLt; simpa using this,
   by have := (win0_1.xinj (grid0.coords t) j 2).isLt; simpa using this,
   by have := (win0_1.xinj (grid0.coords t) j 3).isLt; simpa using this⟩

theorem xinj1_eq (t : Fin cfg0.N) (j : (win0_1.xblock (grid0.coords t)).Idx) (g : Fin 4) (q : Fin 2) (p : Fin 1024) (ch : Fin 256)
    (hg : g.val = (j 0).val) (hq : q.val = (j 1).val) (hp : p.val = (j 2).val) (hc : ch.val = (j 3).val) :
    (win0_1.xinj (grid0.coords t) j : S4x2x1024x256.Idx) = ix4 g q p ch := by
  funext a; apply Fin.ext
  match a with
  | ⟨0, _⟩ => exact hg.symm
  | ⟨1, _⟩ => exact hq.symm
  | ⟨2, _⟩ => exact hp.symm
  | ⟨3, _⟩ => exact hc.symm

/-- An element an even point writes back: the input block's, which is the result array's function below channel 256. -/
theorem flushed_even_apply (c : Dev nD) (t : Fin cfg0.N) (h0 : t.val % 2 = 0) (j : (win0_1.xblock (grid0.coords t)).Idx) :
    (dats m 0 c).flushed 1 t j = arrY (V m c main_v1) (((cfg0.win 1).blk t).view.emb j) := by
  show win0_1.cut (grid0.coords t) ((dats m 0 c).after 1 t) j = _
  rw [after1]
  unfold outAt
  rw [dif_pos h0, copyOut_eq, Cert.KPay.pay2_eq]
  obtain ⟨b0, b1, b2, b3⟩ := xinj1_bounds t j
  have hN : t.val < 16 := lt_of_lt_of_eq t.isLt (show cfg0.N = 16 from N_0)
  show (iblk m c 0 t : S4x2x1024x256.Idx → EReal) (win0_1.xinj (grid0.coords t) j) = _
  rw [xinj1_eq t j ⟨(j 0).val, b0⟩ ⟨(j 1).val, b1⟩ ⟨(j 2).val, b2⟩ ⟨(j 3).val, b3⟩ rfl rfl rfl rfl,
    emb1_eq t j ⟨(j 0).val, b0⟩ ⟨2 * (t.val / 2) + (j 1).val, by omega⟩ ⟨(j 2).val, b2⟩ ⟨(t.val % 2) * 256 + (j 3).val, by omega⟩ rfl rfl rfl rfl,
    arrY_ix4_lt _ _ _ _ _ (show (t.val % 2) * 256 + (j 3).val < 256 by omega)]
  refine (iblk0_apply m c t _ _ _ _ ⟨2 * (t.val / 2) + (j 1).val, by omega⟩ rfl).trans ?_
  refine congrArg _ ?_
  funext a; apply Fin.ext
  match a with
  | ⟨0, _⟩ => rfl
  | ⟨1, _⟩ => rfl
  | ⟨2, _⟩ => rfl
  | ⟨3, _⟩ => show (j 3).val = (t.val % 2) * 256 + (j 3).val; omega

/-- What an even point writes back is its block of the result array's function of the input array. -/
theorem flushed_even (c : Dev nD) (t : Fin cfg0.N) (h0 : t.val % 2 = 0) :
    (dats (F := Ideal) m 0 c).flushed 1 t = ((cfg0.win 1).blk t).view.read (Elt Ideal) (arrY (V m c main_v1)) :=
  funext fun j => flushed_even_apply m c t h0 j

end Cert.KValue

end
-- ==== Proof.KFlushOdd.lean ====
/-
  What the kernel writes back at its odd grid points.

  Points are numbered t = 2 * i + k.  At an odd point the result window's block has block index (0, i, 0, 1): it lies past
  the result array's last channel except for its channel 0, which is channel 256 of replicas 2 * i and 2 * i + 1.  The
  body stores there the accumulator, broadcast over the group members and the pixels; the accumulator is what the even
  point before left: zero plus the scaled sum, over the pixels and channels, of the deviations of that point's input block,
  which is replicas 2 * i and 2 * i + 1 of the region's input array.  So the part written back is that part of the
  region's result array as a function of its input array.
-/
import proofs.«123689_g2000102519160773_pallasbulk_914_7_alg».proof.Proof.KDataIdeal
import proofs.«123689_g2000102519160773_pallasbulk_914_7_alg».proof.Proof.KPay
import proofs.«123689_g2000102519160773_pallasbulk_914_7_alg».proof.Proof.KArr

set_option maxRecDepth 16384

noncomputable section

open scoped BigOperators

namespace Cert.KFlush

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

/-! ## The statistic's store and the accumulator, at an index -/

section Pieces
variable (c : Dev nD) (i : grid0.Coords) (arg3 : Memref sig .tc .vmem S4x2x1024x256 .f32) (harg3 : arg3.IsWhole)
    (arg4 : Memref sig .tc .vmem S4x2x1024x256 .f32) (harg4 : arg4.IsWhole) (arg5 : Memref sig .tc .vmem S2x1 .f32) (harg5 : arg5.IsWhole)

/-- Channel 0 of the output block after step 1 holds the accumulator's entry of the block's replica. -/
theorem statOut_col (hc0 : ¬condClear i) (hc1 : ¬condCopy i) (hc2 : condStat i) (x0 : Vec Ideal S4x2x1024x256 .f32) (s : Vec Ideal S2x1 .f32)
    (g : Fin 4) (q : Fin 2) (p : Fin 1024) :
    statOut c i arg3 harg3 arg4 harg4 arg5 harg5 hc0 hc1 hc2 x0 s (ix4 g q p (0 : Fin 256)) = s (ix2 q (0 : Fin 1)) := by
  unfold statOut
  rw [runStat_fst]
  have e : (ix4 g q p (0 : Fin 256) : S4x2x1024x256.Idx)
      = (Rect.unit (s := S4x2x1024x256) ![0, 0, 0, 0] ![4, 2, 1024, 1] inb_S4x2x1024x256_S4x2x1024x1_0_0_0_0).emb (ix4 g q p (0 : Fin 1)) := by
    funext a
    refine Fin.ext ?_
    match a with
    | ⟨0, _⟩ => show g.val = 0 + 1 * g.val; omega
    | ⟨1, _⟩ => show q.val = 0 + 1 * q.val; omega
    | ⟨2, _⟩ => show p.val = 0 + 1 * p.val; omega
    | ⟨3, _⟩ => show 0 = 0 + 1 * 0; omega
  rw [e, View.canon_cons_emb, Cert.KPay.pay4_apply, View.readAt_eq_ld, harg5.read_unread, View.ld_unit_zero (S := S2x1) zero2]

end Pieces

variable (m : (ℓ : Loc nD τ sig) → Buf (Elt Ideal) ℓ)

/-- The printed index maps over the grid: both windows' block index is the point's pair number on the replica axis; the
    result window's is the point's parity on the channel axis; every other entry is zero. -/
theorem idx_facts : ∀ t : Fin cfg0.N, win0_0.index t (0 : Fin 4) = 0 ∧ win0_0.index t (1 : Fin 4) = t.val / 2
    ∧ win0_0.index t (2 : Fin 4) = 0 ∧ win0_0.index t (3 : Fin 4) = 0
    ∧ win0_1.index t (0 : Fin 4) = 0 ∧ win0_1.index t (1 : Fin 4) = t.val / 2
    ∧ win0_1.index t (2 : Fin 4) = 0 ∧ win0_1.index t (3 : Fin 4) = t.val % 2 ∧ t.val < 16 :=
  (by decide +kernel : ∀ t : Fin grid0.N, _)

/-- The input window's block at point `t` is replicas `2 * (t / 2)`, `2 * (t / 2) + 1` of the region's input array. -/
theorem iblk_apply (c : Dev nD) (t : Fin cfg0.N) (x : S4x2x1024x256.Idx) (k : S4x16x1024x256.Idx)
    (hk0 : (k 0).val = (x 0).val) (hk1 : (k 1).val = 2 * (t.val / 2) + (x 1).val) (hk2 : (k 2).val = (x 2).val) (hk3 : (k 3).val = (x 3).val) :
    (iblk m c 0 t : Vec Ideal S4x2x1024x256 .f32) x = (V m c main_v1 : S4x16x1024x256.Idx → EReal) k := by
  obtain ⟨e0, e1, e2, e3, -⟩ := idx_facts t
  unfold iblk
  rw [View.read_apply]
  show V m c main_v1 _ = V m c main_v1 _
  refine congrArg (V m c main_v1) (funext fun a => Fin.ext ?_)
  match a with
  | ⟨0, _⟩ => show win0_0.index t 0 * 4 + 1 * (x 0).val = (k 0).val; rw [e0, hk0]; omega
  | ⟨1, _⟩ => show win0_0.index t 1 * 2 + 1 * (x 1).val = (k 1).val; rw [e1, hk1]; omega
  | ⟨2, _⟩ => show win0_0.index t 2 * 1024 + 1 * (x 2).val = (k 2).val; rw [e2, hk2]; omega
  | ⟨3, _⟩ => show win0_0.index t 3 * 256 + 1 * (x 3).val = (k 3).val; rw [e3, hk3]; omega

/-- The accumulator after an even point, at replica `q` of the point's pair: zero plus the scaled sum of the deviations
    of the point's input block. -/
theorem acc_even_apply (c : Dev nD) (t : Fin cfg0.N) (he : t.val % 2 = 0) (q : Fin 2) :
    accAt m c t.val t.isLt (ix2 q (0 : Fin 1))
      = 0 + (∑ p : Fin 1024, ∑ ch : Fin 256, Cert.Spec.dev4 (fun g => (iblk m c 0 t : Vec Ideal S4x2x1024x256 .f32) (ix4 g q p ch))) * Cert.Spec.invD := by
  rw [accAt_even m c t he, copyAcc_eq]
  refine (Cert.KPay.pay3_apply (iblk m c 0 t) (k0_pay1 (F := Ideal)) q).trans ?_
  rw [Cert.KPay.pay1_apply]

/-- WHAT AN ODD POINT WRITES BACK is its block of the region's result array as a function of the input array. -/
theorem flushed_odd (c : Dev nD) (t : Fin cfg0.N) (h0 : ¬t.val % 2 = 0) :
    (dats (F := Ideal) m 0 c).flushed 1 t = ((cfg0.win 1).blk t).view.read (Elt Ideal) (Cert.KArr.arrY (V m c main_v1)) := by
  obtain ⟨-, -, -, -, f0, f1, f2, f3, hN⟩ := idx_facts t
  funext j
  show (cfg0.win 1).cut (grid0.coords t) ((dats m 0 c).after 1 t) j = _
  rw [after1, View.read_apply]
  show outAt m c t (win0_1.xinj (grid0.coords t) j) = Cert.KArr.arrY (V m c main_v1) (((cfg0.win 1).blk t).view.emb j)
  rw [show outAt m c t = _ from dif_neg h0]
  have hj0 : (j 0).val < 4 := (win0_1.xinj (grid0.coords t) j 0).isLt
  have hj1 : (j 1).val < 2 := (win0_1.xinj (grid0.coords t) j 1).isLt
  have hj2 : (j 2).val < 1024 := (win0_1.xinj (grid0.coords t) j 2).isLt
  have hj3 : (j 3).val < 1 := lt_of_lt_of_eq (j 3).isLt (xsize_odd t (by omega))
  have hx : win0_1.xinj (grid0.coords t) j = (ix4 (⟨(j 0).val, hj0⟩ : Fin 4) (⟨(j 1).val, hj1⟩ : Fin 2) (⟨(j 2).val, hj2⟩ : Fin 1024) (0 : Fin 256) : S4x2x1024x256.Idx) := by
    funext a
    refine Fin.ext ?_
    match a with
    | ⟨0, _⟩ => rfl
    | ⟨1, _⟩ => rfl
    | ⟨2, _⟩ => rfl
    | ⟨3, _⟩ => show (j 3).val = 0; omega
  have hy : ((cfg0.win 1).blk t).view.emb j = (ix4 (⟨(j 0).val, hj0⟩ : Fin 4) (⟨2 * (t.val / 2) + (j 1).val, by omega⟩ : Fin 16) (⟨(j 2).val, hj2⟩ : Fin 1024) (⟨256, by omega⟩ : Fin 257) : S4x16x1024x257.Idx) := by
    funext a
    refine Fin.ext ?_
    match a with
    | ⟨0, _⟩ => show win0_1.index t 0 * 4 + 1 * (j 0).val = (j 0).val; rw [f0]; omega
    | ⟨1, _⟩ => show win0_1.index t 1 * 2 + 1 * (j 1).val = 2 * (t.val / 2) + (j 1).val; rw [f1]; omega
    | ⟨2, _⟩ => show win0_1.index t 2 * 1024 + 1 * (j 2).val = (j 2).val; rw [f2]; omega
    | ⟨3, _⟩ => show win0_1.index t 3 * 256 + 1 * (j 3).val = 256; rw [f3]; omega
  rw [hx, hy, statOut_col, Cert.KArr.arrY_ix4_ge _ _ _ _ _ (by show ¬ (256 < 256); omega)]
  have hlt : t.val - 1 < cfg0.N := Nat.lt_of_le_of_lt (Nat.sub_le _ _) t.isLt
  refine (acc_even_apply m c ⟨t.val - 1, hlt⟩ (by show (t.val - 1) % 2 = 0; omega) (⟨(j 1).val, hj1⟩ : Fin 2)).trans ?_
  refine congrArg (fun z => 0 + z * Cert.Spec.invD) ?_
  refine Fintype.sum_congr _ _ fun p => Fintype.sum_congr _ _ fun ch => congrArg Cert.Spec.dev4 (funext fun g => ?_)
  refine iblk_apply m c ⟨t.val - 1, hlt⟩ _ _ rfl ?_ rfl rfl
  show 2 * (t.val / 2) + (j 1).val = 2 * ((t.val - 1) / 2) + (j 1).val
  omega

end Cert.KFlush

end
-- ==== Proof.KTail.lean ====
/-
  The end of the kernel's program after its region.  The region leaves the output array [4, 16, 1024, 257] (group member,
  replica, pixel, channel); two host lines follow: the array is regrouped by batch b = g * 16 + r and pixel (h, w) into
  [64, 32, 32, 257], then moved to channel-major layout [64, 257, 32, 32].  So the result buffer is that regrouping of
  whatever the region's write-backs leave.  And the write-backs' blocks cover the output array: entry (g, r, p, ch) lies
  in the block of replica pair r / 2, channels 0..255 (an even point) or channel 256 (the odd point after it, whose block
  lies past the array's last channel except for that one).
-/
import proofs.«123689_g2000102519160773_pallasbulk_914_7_alg».proof.Proof.KFrameIdeal
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KTail

open Cert.KernelIdeal Cert.KernelIdeal.Gen Cert.KernelIdeal.Hand

variable (m : (ℓ : Loc nD τ sig) → Buf (Elt Ideal) ℓ) (ρ : Dev nD → PrngReg)

/-- The two host lines after the region: the output array regrouped by batch, then moved to channel-major layout. -/
theorem tail_v4 (c : Dev nD) (Y : S4x16x1024x257.Idx → EReal) (hfinal : (dats (F := Ideal) m 0 c).arrAt 1 cfg0.N = Y) :
    Pipeline.afterTail₀ cfgs (dats m) 0 (V0 m) [hostOps1] c main_v4
      = transpose S64x257x32x32 [0, 3, 1, 2] (shapeCast S64x32x32x257 Y shapeCasts_S4x16x1024x257_S64x32x32x257)
          transposes_S64x32x32x257_S64x257x32x32_0_3_1_2 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2) = Y :=
    (Pipeline.withArrays_arr spec0 launch0.win.arr_inj c _ _ 1).trans hfinal
  rw [e]
  rfl

set_option backward.isDefEq.respectTransparency.types false in
/-- Every run ends with the result buffer at the output array regrouped by batch and moved to channel-major layout,
    and the argument as launched. -/
theorem run_v4 (Y : Dev nD → S4x16x1024x257.Idx → EReal) (hfinal : ∀ c, (dats (F := Ideal) m 0 c).arrAt 1 cfg0.N = Y c) :
    θ_run defs (onTc (τ := τ) (main (F := Ideal))) ⟨m, fun _ => 0, ρ⟩ (fun r => ∀ c : Dev nD,
      r.2.mem ((c.tc : Thread nD τ).loc main_v4)
        = transpose S64x257x32x32 [0, 3, 1, 2] (shapeCast S64x32x32x257 (Y c) shapeCasts_S4x16x1024x257_S64x32x32x257)
            transposes_S64x32x32x257_S64x257x32x32_0_3_1_2
      ∧ r.2.mem ((c.tc : Thread nD τ).loc main_arg0) = m ((c.tc : Thread nD τ).loc main_arg0)) :=
  (θ_run defs _ _).mono (fun _ h c =>
    ⟨((h c).2 main_v4 (Pipeline.mem_restRefs_of main_v4 (by decide) (by decide))).trans (tail_v4 m c (Y c) (hfinal c)),
     ((h c).2 main_arg0 (Pipeline.mem_restRefs_of main_arg0 (by decide) (by decide))).trans (W_main_arg0 m (dats m) c)⟩)
    (run_main m ρ)

/-- The output block's index at point `t`: all group members, replica pair `t / 2`, all pixels, channel block `t % 2`. -/
theorem index_out : ∀ t : Fin cfg0.N, win0_1.index t 0 = 0 ∧ win0_1.index t 1 = t.val / 2 ∧ win0_1.index t 2 = 0 ∧ win0_1.index t 3 = t.val % 2 :=
  (by decide +kernel : ∀ t : Fin grid0.N, win0_1.index t 0 = 0 ∧ win0_1.index t 1 = t.val / 2 ∧ win0_1.index t 2 = 0 ∧ win0_1.index t 3 = t.val % 2)

/-- The part of the block inside the array: all of it at an even point, its first channel only at an odd one. -/
theorem xsize_out : ∀ t : Fin cfg0.N, win0_1.xsize (grid0.coords t) 0 = 4 ∧ win0_1.xsize (grid0.coords t) 1 = 2
    ∧ win0_1.xsize (grid0.coords t) 2 = 1024 ∧ win0_1.xsize (grid0.coords t) 3 = if t.val % 2 = 0 then 256 else 1 :=
  (by decide +kernel : ∀ t : Fin grid0.N, win0_1.xsize (grid0.coords t) 0 = 4 ∧ win0_1.xsize (grid0.coords t) 1 = 2
    ∧ win0_1.xsize (grid0.coords t) 2 = 1024 ∧ win0_1.xsize (grid0.coords t) 3 = if t.val % 2 = 0 then 256 else 1)

/-- Every index of the output array lies in the block some point writes back: entry `(g, r, p, ch)` in that of
    point `2 (r / 2)` when `ch < 256`, of point `2 (r / 2) + 1` when `ch = 256`. -/
theorem cover1 (c : Dev nD) (i : S4x16x1024x257.Idx) :
    ∃ t : Fin cfg0.N, (cfg0.win 1).flush t = true ∧ i ∈ ((cfg0.win 1).blk t).view.set := by
  have hN : cfg0.N = 16 := N_0
  have h0 : (i 0 : Nat) < 4 := (i 0).isLt
  have h1 : (i 1 : Nat) < 16 := (i 1).isLt
  have h2 : (i 2 : Nat) < 1024 := (i 2).isLt
  have h3 : (i 3 : Nat) < 257 := (i 3).isLt
  obtain ⟨t, ht⟩ : ∃ t : Fin cfg0.N, t.val = 2 * ((i 1 : Nat) / 2) + (if (i 3 : Nat) < 256 then 0 else 1) :=
    ⟨⟨2 * ((i 1 : Nat) / 2) + (if (i 3 : Nat) < 256 then 0 else 1), by split <;> omega⟩, rfl⟩
  refine ⟨t, flush0_1 t, ?_⟩
  show i ∈ ((View.whole main_v2).slice (win0_1.rect t)).set
  rw [View.set_slice_whole, Rect.mem_set_unit]
  obtain ⟨e0, e1, e2, e3⟩ := index_out t
  obtain ⟨x0, x1, x2, x3⟩ := xsize_out t
  intro a
  match a with
  | ⟨0, _⟩ =>
    show win0_1.index t 0 * 4 ≤ (i 0 : Nat) ∧ (i 0 : Nat) < win0_1.index t 0 * 4 + win0_1.xsize (grid0.coords t) 0
    rw [e0, x0]; omega
  | ⟨1, _⟩ =>
    show win0_1.index t 1 * 2 ≤ (i 1 : Nat) ∧ (i 1 : Nat) < win0_1.index t 1 * 2 + win0_1.xsize (grid0.coords t) 1
    rw [e1, x1, ht]; split <;> omega
  | ⟨2, _⟩ =>
    show win0_1.index t 2 * 1024 ≤ (i 2 : Nat) ∧ (i 2 : Nat) < win0_1.index t 2 * 1024 + win0_1.xsize (grid0.coords t) 2
    rw [e2, x2]; omega
  | ⟨3, _⟩ =>
    show win0_1.index t 3 * 256 ≤ (i 3 : Nat) ∧ (i 3 : Nat) < win0_1.index t 3 * 256 + win0_1.xsize (grid0.coords t) 3
    rw [e3, x3, ht]; split <;> split <;> omega

end Cert.KTail

end
-- ==== Proof.KValue.lean ====
/-
  The value of the kernel's program: the argument array, transposed to channels last and regrouped by group member and
  replica, enters the region; every grid point writes back its block of one function of that array (the copied
  channels at even points, the replica's scaled sum of deviations at odd points), the blocks cover the result array,
  and the host operations after the region carry it to the specified result.
-/
import proofs.«123689_g2000102519160773_pallasbulk_914_7_alg».proof.Proof.KValueEven
import proofs.«123689_g2000102519160773_pallasbulk_914_7_alg».proof.Proof.KFlushOdd
import proofs.«123689_g2000102519160773_pallasbulk_914_7_alg».proof.Proof.KTail
import proofs.«123689_g2000102519160773_pallasbulk_914_7_alg».proof.Proof.KArr
import Idealize.ShloMosaic.Lib.ValueIdx
import Idealize.ShloMosaic.Lib.Pipeline.Value

set_option maxRecDepth 16384

noncomputable section

open scoped BigOperators

namespace Cert.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand
open Cert.KArr (arrY)

variable (m : (ℓ : Loc nD τ sig) → Buf (Elt Ideal) ℓ) (ρ : Dev nD → PrngReg)

/-- The result array after the region: every point writes back its block of the one function of the input array, and
    the blocks cover the array. -/
theorem final (c : Dev nD) : (dats (F := Ideal) m 0 c).arrAt 1 cfg0.N = arrY (V m c main_v1) :=
  (dats (F := Ideal) m 0 c).arrAt_eq_of_cover 1 (arrY (V m c main_v1))
    (fun t _ => by
      by_cases h0 : t.val % 2 = 0
      · exact flushed_even m c t h0
      · exact Cert.KFlush.flushed_odd m c t h0)
    (Cert.KTail.cover1 c)

/-- The kernel's program computes the specified result and leaves its argument as launched. -/
theorem run : θ_run Cert.KernelIdeal.defs (onTc (τ := τ) (main (F := Ideal))) ⟨m, fun _ => 0, ρ⟩ (fun r => ∀ c : Dev nD,
      r.2.mem ((c.tc : Thread nD τ).loc main_v4) = Cert.Spec.out (m ((c.tc : Thread nD τ).loc main_arg0))
      ∧ r.2.mem ((c.tc : Thread nD τ).loc main_arg0) = m ((c.tc : Thread nD τ).loc main_arg0)) :=
  (θ_run Cert.KernelIdeal.defs _ _).mono
    (fun r h c => ⟨((h c).1).trans (Cert.KArr.out_eq _ _ (Cert.KArr.entry_apply m c)), (h c).2⟩)
    (Cert.KTail.run_v4 m ρ (fun c => arrY (V m c main_v1)) (final m))

end Cert.KValue

end
-- ==== Proof.RefRunLaunch.lean ====
/-
  The reference program's run with its result named.

  The program's @main is five segments: a host stretch, the statistic region, a host stretch, the concatenation
  region, a host stretch.  The buffer contents at each boundary are a fold from the launch memory (W0 .. W5 of the
  generated frame module).  Here the run is stated with the result buffer read at the last boundary's contents: from
  any launch memory with zero counters every fair execution terminates, the result array holds what the fold leaves
  in it, and the argument array is as launched.
-/
import proofs.«123689_g2000102519160773_pallasbulk_914_7_alg».proof.Proof.Gen.ReferenceIdeal.Frame
import Idealize.ShloMosaic.PureOps.Ideal

set_option maxRecDepth 16384

noncomputable section

namespace Cert.RefRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any memory with zero counters, every weakly fair execution of @main on the TensorCores terminates, nothing
    faulting, and in every final state the result array holds the last boundary's contents and the argument array
    is as launched: the launch over the five segments, the last thread state read against the final state. -/
theorem run_W5 : θ_run defs (onTc (τ := τ) (main (F := Ideal))) ⟨m, fun _ => 0, ρ⟩ (fun r => ∀ c : Dev nD,
      r.2.mem ((c.tc : Thread nD τ).loc main_v9) = Gen.W5 m ρ c (Proc.devRef .tc main_v9)
      ∧ r.2.mem ((c.tc : Thread nD τ).loc main_arg0) = m ((c.tc : Thread nD τ).loc main_arg0)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)), (h c _ (mem_uc main_arg0 (by decide))).trans (W5_main_arg0 m ρ c)⟩)

end Cert.RefRun

end
-- ==== Proof.RefConcatBlock.lean ====
import proofs.«123689_g2000102519160773_pallasbulk_914_7_alg».proof.Proof.Gen.ReferenceIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal

set_option maxRecDepth 16384

noncomputable section

namespace Cert.RefRun

open Idealize.ShloMosaic Idealize.ShloMosaic.TcCoe Idealize.ShloMosaic.Tactic Idealize.SL.Sem Idealize.ShloMosaic.ValueIdx
open Idealize.ShloMosaic.Pipeline (Dat)
open Cert.ReferenceIdeal Cert.ReferenceIdeal.Gen

variable {F : FTy → Type} [FloatOps F]

/-! ## One block of the concatenation

The second region's body, at grid point `i`, fills a block of two batch rows of the result: channels below 256 copy the
input block, channel 256 holds, at every pixel, the statistic entry of the batch row (`2 * i + a` for row `a` of
the block). -/

/-- The block as one function of the input block `x0` and of the whole statistic array `x1`. -/
def concatBlock {α : Type} (x0 : S2x256x1024.Idx → α) (x1 : S64x1x1.Idx → α) (i0 : Nat) (hi0 : i0 < 32) : S2x257x1024.Idx → α :=
  fun y => if h : (y 1).val < 256
    then x0 (ix3 (⟨(y 0).val, (y 0).isLt⟩ : Fin 2) (⟨(y 1).val, h⟩ : Fin 256) (⟨(y 2).val, (y 2).isLt⟩ : Fin 1024))
    else x1 (ix3 (⟨2 * i0 + (y 0).val, by have h2 : (y 0).val < 2 := (y 0).isLt; omega⟩ : Fin 64) (0 : Fin 1) (0 : Fin 1))

theorem concatBlock_lt {α : Type} (x0 : S2x256x1024.Idx → α) (x1 : S64x1x1.Idx → α) (i0 : Nat) (hi0 : i0 < 32) (y : S2x257x1024.Idx)
    (h : (y 1).val < 256) :
    concatBlock x0 x1 i0 hi0 y = x0 (ix3 (⟨(y 0).val, (y 0).isLt⟩ : Fin 2) (⟨(y 1).val, h⟩ : Fin 256) (⟨(y 2).val, (y 2).isLt⟩ : Fin 1024)) := by
  unfold concatBlock; rw [dif_pos h]

theorem concatBlock_ge {α : Type} (x0 : S2x256x1024.Idx → α) (x1 : S64x1x1.Idx → α) (i0 : Nat) (hi0 : i0 < 32) (y : S2x257x1024.Idx)
    (h : ¬ (y 1).val < 256) :
    concatBlock x0 x1 i0 hi0 y = x1 (ix3 (⟨2 * i0 + (y 0).val, by have h2 : (y 0).val < 2 := (y 0).isLt; omega⟩ : Fin 64) (0 : Fin 1) (0 : Fin 1)) := by
  unfold concatBlock; rw [dif_neg h]

/-- The copied rows' payload is the loaded block. -/
theorem pay1_eq (v0 : Vec F S2x256x1024 .f32) : k1_pay1 v0 = v0 := by
  unfold k1_pay1; exact shapeCast_self _ _

/-- The statistic row's payload at an index: the loaded pair of statistic entries at the row of the block. -/
theorem pay2_apply (v6 : Vec F S2x1x1 .f32) (a : Fin 2) (q : Fin 1) (p : Fin 1024) :
    k1_pay2 v6 (ix3 a q p) = v6 (ix3 a (0 : Fin 1) (0 : Fin 1)) := by
  unfold k1_pay2
  simp only [shapeCast_self]
  refine broadcastTo_apply _ _ _ _ fun d => ?_
  match d with
  | ⟨0, _⟩ => rfl
  | ⟨1, _⟩ => rfl
  | ⟨2, _⟩ => rfl

end Cert.RefRun
end
-- ==== Proof.RefConcatOut.lean ====
import proofs.«123689_g2000102519160773_pallasbulk_914_7_alg».proof.Proof.RefConcatBlock

set_option maxRecDepth 16384

noncomputable section

namespace Cert.RefRun

open Idealize.ShloMosaic Idealize.ShloMosaic.TcCoe Idealize.ShloMosaic.Tactic Idealize.SL.Sem Idealize.ShloMosaic.ValueIdx
open Idealize.ShloMosaic.Pipeline (Dat)
open Cert.ReferenceIdeal Cert.ReferenceIdeal.Gen

variable {F : FTy → Type} [FloatOps F]

theorem hz3 : (![0, 0, 0] : Fin 3 → Nat) = fun _ => 0 := funext fun a => by fin_cases a <;> rfl

/-- What the body leaves in the result window's staging buffer at grid point `i`, on the input block `x0` and the whole
    statistic array `x1`: the block of the concatenation.  The two stores (rows 0..255; row 256) are blocks of that one
    function, and together they cover the buffer. -/
theorem out_eq (c : Dev nD) (i : grid1.Coords) (arg2 : Memref sig .tc .vmem S2x256x1024 .f32) (harg2 : arg2.IsWhole) (arg3 : Memref sig .tc .vmem S64x1x1 .f32) (harg3 : arg3.IsWhole) (arg4 : Memref sig .tc .vmem S2x257x1024 .f32) (harg4 : arg4.IsWhole)
    (x0 : Vec F S2x256x1024 .f32) (x1 : Vec F S64x1x1 .f32) (i0 : Nat) (hi0 : i0 < 32) (hi : (i 0).val = i0) :
    out1_A_2 c i arg2 harg2 arg3 harg3 arg4 harg4 x0 x1 = concatBlock x0 x1 i0 hi0 := by
  funext y
  unfold out1_A_2
  rw [View.read_writes_eq_canon _ _ _ (cover1_A_2 c i arg2 harg2 arg3 harg3 arg4 harg4 x0 x1)]
  refine View.canon_apply_of_pieces (concatBlock x0 x1 i0 hi0) _ ?_ y (cover1_A_2 c i arg2 harg2 arg3 harg3 arg4 harg4 x0 x1 y)
  unfold kernelRun1_A
  dsimp only
  intro p hp x
  rcases List.mem_cons.mp hp with rfl | hp
  · -- the statistic row: channel 256
    dsimp only
    obtain ⟨a, q, p, rfl⟩ : ∃ (a : Fin 2) (q : Fin 1) (p : Fin 1024), x = ix3 a q p := ⟨x 0, x 1, x 2, eq_ix3 x⟩
    rw [pay2_apply, View.readAt_eq_ld, harg3.read_unread]
    rw [concatBlock_ge _ _ _ _ _ (by show ¬ (256 + 1 * q.val < 256); omega)]
    refine congrArg x1 (funext fun d => Fin.ext ?_)
    match d with
    | ⟨0, _⟩ =>
      show k1_off1 i 0 + 1 * a.val = 2 * i0 + (0 + 1 * a.val)
      rw [k1_off1_eq]
      show 2 * (i 0).val + 1 * a.val = 2 * i0 + (0 + 1 * a.val)
      rw [hi]; omega
    | ⟨1, _⟩ =>
      show k1_off1 i 1 + 1 * 0 = 0
      rw [k1_off1_eq]; rfl
    | ⟨2, _⟩ =>
      show k1_off1 i 2 + 1 * 0 = 0
      rw [k1_off1_eq]; rfl
  · rcases List.mem_cons.mp hp with rfl | hp
    · -- the copied rows: channels below 256
      dsimp only
      obtain ⟨a, ch, p, rfl⟩ : ∃ (a : Fin 2) (ch : Fin 256) (p : Fin 1024), x = ix3 a ch p := ⟨x 0, x 1, x 2, eq_ix3 x⟩
      rw [pay1_eq, View.readAt_eq_ld, harg2.read_unread, View.ld_unit_zero (S := S2x256x1024) hz3]
      rw [concatBlock_lt _ _ _ _ _ (by show 0 + 1 * ch.val < 256; omega)]
      refine congrArg x0 (funext fun d => Fin.ext ?_)
      match d with
      | ⟨0, _⟩ => show a.val = 0 + 1 * a.val; omega
      | ⟨1, _⟩ => show ch.val = 0 + 1 * ch.val; omega
      | ⟨2, _⟩ => show p.val = 0 + 1 * p.val; omega
    · exact absurd hp List.not_mem_nil

end Cert.RefRun
end
-- ==== Proof.RefConcatArray.lean ====
import proofs.«123689_g2000102519160773_pallasbulk_914_7_alg».proof.Proof.RefConcatOut

set_option maxRecDepth 16384

noncomputable section

namespace Cert.RefRun

open Idealize.ShloMosaic Idealize.ShloMosaic.TcCoe Idealize.ShloMosaic.Tactic Idealize.SL.Sem Idealize.ShloMosaic.ValueIdx
open Idealize.ShloMosaic.Pipeline (Dat)
open Cert.ReferenceIdeal Cert.ReferenceIdeal.Gen

variable {F : FTy → Type} [FloatOps F]

/-! ## From the blocks to the result array of the second region

Grid point `t` of the 32 works on batch rows `2 * t` and `2 * t + 1`: the input window's block is those rows of the
flattened input, the statistic window's block is the whole statistic array, and the result window's block is those rows
of the result.  So every block of the result is a block of ONE function of the two arrays the region finds, and the 32
blocks cover the result. -/

/-- The concatenation over the whole batch: channels below 256 copy `X`, channel 256 holds the batch row's entry of `s`. -/
def concatArr {α : Type} (X : S64x256x1024.Idx → α) (s : S64x1x1.Idx → α) : S64x257x1024.Idx → α :=
  fun j => if h : (j 1).val < 256
    then X (ix3 (⟨(j 0).val, (j 0).isLt⟩ : Fin 64) (⟨(j 1).val, h⟩ : Fin 256) (⟨(j 2).val, (j 2).isLt⟩ : Fin 1024))
    else s (ix3 (⟨(j 0).val, (j 0).isLt⟩ : Fin 64) (0 : Fin 1) (0 : Fin 1))

theorem concatArr_lt {α : Type} (X : S64x256x1024.Idx → α) (s : S64x1x1.Idx → α) (b : Fin 64) (ch : Fin 257) (p : Fin 1024) (h : ch.val < 256) :
    concatArr X s (ix3 b ch p) = X (ix3 b (⟨ch.val, h⟩ : Fin 256) p) := by
  unfold concatArr; rw [dif_pos (show ((ix3 b ch p : S64x257x1024.Idx) 1).val < 256 from h)]

theorem concatArr_ge {α : Type} (X : S64x256x1024.Idx → α) (s : S64x1x1.Idx → α) (b : Fin 64) (ch : Fin 257) (p : Fin 1024) (h : ¬ ch.val < 256) :
    concatArr X s (ix3 b ch p) = s (ix3 b (0 : Fin 1) (0 : Fin 1)) := by
  unfold concatArr; rw [dif_neg (show ¬ ((ix3 b ch p : S64x257x1024.Idx) 1).val < 256 from h)]

/-- The printed index maps over the grid: the input's and the result's block index is the point on the batch axis and
    zero on the others, the statistic's is zero; the point's first grid coordinate is the point. -/
theorem idx_facts : ∀ t : Fin cfg1.N, win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ (grid1.coords t 0).val = t.val ∧ t.val < 32 :=
  (by decide +kernel : ∀ t : Fin grid1.N, _)

variable (V : (c : Dev nD) → (b : Ref sig .tc) → Buf (Elt F) ((c : Thread nD τ).loc b))

/-- The input window's block at point `t` is batch rows `2 * t`, `2 * t + 1` of the flattened input. -/
theorem iblk_in_apply (c : Dev nD) (t : Fin cfg1.N) (x : S2x256x1024.Idx) (k : S64x256x1024.Idx)
    (hk0 : (k 0).val = 2 * t.val + (x 0).val) (hk1 : (k 1).val = (x 1).val) (hk2 : (k 2).val = (x 2).val) :
    (iblk1 V c 0 t : Vec F S2x256x1024 .f32) x = (V c main_v7 : S64x256x1024.Idx → Elt F .f32) k := by
  obtain ⟨e0, e1, e2, -⟩ := idx_facts t
  unfold iblk1
  rw [View.read_apply]
  show V c main_v7 _ = V c main_v7 _
  refine congrArg (V c main_v7) (funext fun a => Fin.ext ?_)
  match a with
  | ⟨0, _⟩ => show win1_0.index t 0 * 2 + 1 * (x 0).val = (k 0).val; rw [e0, hk0]; omega
  | ⟨1, _⟩ => show win1_0.index t 1 * 256 + 1 * (x 1).val = (k 1).val; rw [e1, hk1]; omega
  | ⟨2, _⟩ => show win1_0.index t 2 * 1024 + 1 * (x 2).val = (k 2).val; rw [e2, hk2]; omega

/-- The statistic window's block at any point is the whole statistic array. -/
theorem iblk_stat_apply (c : Dev nD) (t : Fin cfg1.N) (x : S64x1x1.Idx) :
    (iblk1 V c 1 t : Vec F S64x1x1 .f32) x = (V c main_v6 : S64x1x1.Idx → Elt F .f32) x := by
  obtain ⟨-, -, -, e0, e1, e2, -⟩ := idx_facts t
  unfold iblk1
  rw [View.read_apply]
  show V c main_v6 _ = V c main_v6 _
  refine congrArg (V c main_v6) (funext fun a => Fin.ext ?_)
  match a with
  | ⟨0, _⟩ => show win1_1.index t 0 * 64 + 1 * (x 0).val = (x 0).val; rw [e0]; omega
  | ⟨1, _⟩ => show win1_1.index t 1 * 1 + 1 * (x 1).val = (x 1).val; rw [e1]; omega
  | ⟨2, _⟩ => show win1_1.index t 2 * 1 + 1 * (x 2).val = (x 2).val; rw [e2]; omega

/-- What point `t` writes back is block `t` of the concatenation of the two arrays the region finds. -/
theorem flushed_eq (c : Dev nD) (t : Fin cfg1.N) :
    (dat1 V c).flushed 2 t = ((cfg1.win 2).blk t).view.read (Elt F) (concatArr (V c main_v7) (V c main_v6)) := by
  obtain ⟨-, -, -, -, -, -, e0, e1, e2, eg, ht⟩ := idx_facts t
  show (cfg1.win 2).cut (grid1.coords t) ((dat1 V c).after 2 t) = _
  rw [after1_2]
  unfold outsAt1
  rw [out_eq c (grid1.coords t) (ms1_0 t) (hs1_0 t) (ms1_1 t) (hs1_1 t) (ms1_2 t) (hs1_2 t) (iblk1 V c 0 t) (iblk1 V c 1 t) t.val ht eg]
  funext y
  show concatBlock (iblk1 V c 0 t) (iblk1 V c 1 t) t.val ht y = concatArr (V c main_v7) (V c main_v6) (((cfg1.win 2).blk t).view.emb y)
  have hy0 : (y 0).val < 2 := (y 0).isLt
  have hy1 : (y 1).val < 257 := (y 1).isLt
  have hy2 : (y 2).val < 1024 := (y 2).isLt
  have k0 : ((((cfg1.win 2).blk t).view.emb y) 0).val = 2 * t.val + (y 0).val := by
    show win1_2.index t 0 * 2 + 1 * (y 0).val = _; rw [e0]; omega
  have k1 : ((((cfg1.win 2).blk t).view.emb y) 1).val = (y 1).val := by
    show win1_2.index t 1 * 257 + 1 * (y 1).val = _; rw [e1]; omega
  have k2 : ((((cfg1.win 2).blk t).view.emb y) 2).val = (y 2).val := by
    show win1_2.index t 2 * 1024 + 1 * (y 2).val = _; rw [e2]; omega
  generalize ((cfg1.win 2).blk t).view.emb y = j at k0 k1 k2
  obtain ⟨b, ch, p, rfl⟩ : ∃ (b : Fin 64) (ch : Fin 257) (p : Fin 1024), j = ix3 b ch p := ⟨j 0, j 1, j 2, eq_ix3 j⟩
  have k0' : b.val = 2 * t.val + (y 0).val := k0
  have k1' : ch.val = (y 1).val := k1
  have k2' : p.val = (y 2).val := k2
  by_cases h : (y 1).val < 256
  · rw [concatBlock_lt _ _ _ _ _ h, concatArr_lt _ _ _ _ _ (by omega)]
    exact iblk_in_apply V c t _ _ k0' k1' k2'
  · rw [concatBlock_ge _ _ _ _ _ h, concatArr_ge _ _ _ _ _ (by omega)]
    rw [iblk_stat_apply V c t]
    refine congrArg (V c main_v6) (funext fun a => Fin.ext ?_)
    match a with
    | ⟨0, _⟩ => exact k0'.symm
    | ⟨1, _⟩ => rfl
    | ⟨2, _⟩ => rfl

/-- An index of the result array is in point `t`'s block iff its batch row is `2 * t` or `2 * t + 1`. -/
theorem mem_blk (t : Fin cfg1.N) (i : S64x257x1024.Idx) :
    i ∈ ((cfg1.win 2).blk t).view.set ↔ ∀ a : Fin 3, win1_2.index t a * S2x257x1024.size a ≤ (i a).val ∧ (i a).val < win1_2.index t a * S2x257x1024.size a + S2x257x1024.size a := by
  show i ∈ ((View.whole main_v8).slice (win1_2.rect t)).set ↔ _
  rw [View.set_slice_whole, Rect.mem_set_unit]
  exact Iff.rfl

/-- Every index of the result array is in the block of the point its batch row names. -/
theorem covered (i : S64x257x1024.Idx) : ∃ t : Fin cfg1.N, (cfg1.win 2).flush t = true ∧ i ∈ ((cfg1.win 2).blk t).view.set := by
  have hi0 : (i 0).val < 64 := (i 0).isLt
  have hi1 : (i 1).val < 257 := (i 1).isLt
  have hi2 : (i 2).val < 1024 := (i 2).isLt
  have hN : cfg1.N = 32 := N_1
  let t : Fin cfg1.N := ⟨(i 0).val / 2, by rw [hN]; omega⟩
  have ht : t.val = (i 0).val / 2 := rfl
  obtain ⟨-, -, -, -, -, -, e0, e1, e2, -⟩ := idx_facts t
  refine ⟨t, flush1_2 t, ?_⟩
  rw [mem_blk]
  intro a
  match a with
  | ⟨0, _⟩ => show win1_2.index t 0 * 2 ≤ (i 0).val ∧ (i 0).val < win1_2.index t 0 * 2 + 2; rw [e0, ht]; omega
  | ⟨1, _⟩ => show win1_2.index t 1 * 257 ≤ (i 1).val ∧ (i 1).val < win1_2.index t 1 * 257 + 257; rw [e1]; omega
  | ⟨2, _⟩ => show win1_2.index t 2 * 1024 ≤ (i 2).val ∧ (i 2).val < win1_2.index t 2 * 1024 + 1024; rw [e2]; omega

/-- THE SECOND REGION'S RESULT ARRAY: the concatenation of the two arrays the region finds. -/
theorem concat_arr (c : Dev nD) : (dat1 V c).arrAt 2 cfg1.N = concatArr (V c main_v7) (V c main_v6) :=
  (dat1 V c).arrAt_eq_of_cover 2 (concatArr (V c main_v7) (V c main_v6)) (fun t _ => flushed_eq V c t) covered

/-- The same at coordinates. -/
theorem concat_arr_apply (c : Dev nD) (b : Fin 64) (ch : Fin 257) (p : Fin 1024) :
    ((dat1 V c).arrAt 2 cfg1.N : S64x257x1024.Idx → Elt F .f32) (ix3 b ch p)
      = if h : ch.val < 256 then (V c main_v7 : S64x256x1024.Idx → Elt F .f32) (ix3 b (⟨ch.val, h⟩ : Fin 256) p)
        else (V c main_v6 : S64x1x1.Idx → Elt F .f32) (ix3 b (0 : Fin 1) (0 : Fin 1)) := by
  rw [concat_arr V c]
  split
  · rename_i h; exact concatArr_lt _ _ b ch p h
  · rename_i h; exact concatArr_ge _ _ b ch p h

end Cert.RefRun
end
-- ==== Proof.RefHostLayout.lean ====
import proofs.«123689_g2000102519160773_pallasbulk_914_7_alg».proof.Proof.Gen.ReferenceIdeal
import Idealize.ShloMosaic.Lib.Pipeline.Value
import Idealize.ShloMosaic.Lib.ValueIdx
import Idealize.ShloMosaic.Lib.ValueIdxRank6
import Idealize.ShloMosaic.PureOps.Ideal

set_option maxRecDepth 16384

noncomputable section

namespace Cert.RefRun

open Idealize.ShloMosaic Idealize.ShloMosaic.TcCoe Idealize.ShloMosaic.Tactic Idealize.SL.Sem Idealize.ShloMosaic.ValueIdx
open Idealize.ShloMosaic.Pipeline (Dat)
open Cert.ReferenceIdeal Cert.ReferenceIdeal.Gen

/-! ## The host operations of the reference, read at an index

Between the two regions the host lays the statistic out again: the 16 replica entries become a [64,1,1] array whose
entry at batch row `b` is replica `b % 16`'s (a broadcast over the four group members, flattened), and the input is
flattened to [64,256,1024] (pixel `p = h * 32 + w`); before the first region it is flattened to [4,16,262144]
(batch `g * 16 + r`, feature `d = (ch * 32 + h) * 32 + w`); after the second the result is unflattened to
[64,257,32,32]. -/

section Layout

variable {α : Type}

/-- The input as group, replica and flattened feature. -/
theorem reshape_grf_apply (x : S64x256x32x32.Idx → α) (h : S64x256x32x32.ShapeCasts S4x16x262144) (g : Fin 4) (r : Fin 16) (d : Fin 262144) :
    shapeCast S4x16x262144 x h (ix3 g r d)
      = x (ix4 (⟨g.val * 16 + r.val, by omega⟩ : Fin 64) (⟨d.val / 1024, by omega⟩ : Fin 256) (⟨d.val % 1024 / 32, by omega⟩ : Fin 32) (⟨d.val % 32, by omega⟩ : Fin 32)) :=
  shapeCast_apply x h _ _ (by
    rw [Shape.rowMajor_val_four, Shape.rowMajor_val_three]
    show (((g.val * 16 + r.val) * 256 + d.val / 1024) * 32 + d.val % 1024 / 32) * 32 + d.val % 32 = (g.val * 16 + r.val) * 262144 + d.val
    omega)

/-- The input with its pixels flattened. -/
theorem reshape_pix_apply (x : S64x256x32x32.Idx → α) (h : S64x256x32x32.ShapeCasts S64x256x1024) (b : Fin 64) (ch : Fin 256) (p : Fin 1024) :
    shapeCast S64x256x1024 x h (ix3 b ch p)
      = x (ix4 b ch (⟨p.val / 32, by omega⟩ : Fin 32) (⟨p.val % 32, by omega⟩ : Fin 32)) :=
  shapeCast_apply x h _ _ (by
    rw [Shape.rowMajor_val_four, Shape.rowMajor_val_three]
    show ((b.val * 256 + ch.val) * 32 + p.val / 32) * 32 + p.val % 32 = (b.val * 256 + ch.val) * 1024 + p.val
    omega)

/-- The result with its pixels unflattened. -/
theorem reshape_unpix_apply (y : S64x257x1024.Idx → α) (h : S64x257x1024.ShapeCasts S64x257x32x32) (b : Fin 64) (ch : Fin 257) (hh w : Fin 32) :
    shapeCast S64x257x32x32 y h (ix4 b ch hh w) = y (ix3 b ch (⟨hh.val * 32 + w.val, by omega⟩ : Fin 1024)) :=
  shapeCast_apply y h _ _ (by
    rw [Shape.rowMajor_val_three, Shape.rowMajor_val_four]
    show (b.val * 257 + ch.val) * 1024 + (hh.val * 32 + w.val) = ((b.val * 257 + ch.val) * 32 + hh.val) * 32 + w.val
    omega)

/-- The statistic laid out over the batch: entry `b` is replica `b % 16`'s. -/
theorem tile_apply (v : S16x1.Idx → α) (h1 : S16x1.ShapeCasts S1x16x1) (h2 : S1x16x1.ShapeCasts S1x1x1x16x1x1)
    (h3 : S1x1x1x16x1x1.BroadcastsInDim S4x1x1x16x1x1 (![0, 1, 2, 3, 4, 5] : Fin 6 → Fin S4x1x1x16x1x1.rank))
    (h4 : S4x1x1x16x1x1.ShapeCasts S4x16x1) (h5 : S4x16x1.ShapeCasts S64x1x1) (b : Fin 64) :
    shapeCast S64x1x1 (shapeCast S4x16x1 (broadcastInDim S4x1x1x16x1x1 ![0, 1, 2, 3, 4, 5] h3
      (shapeCast S1x1x1x16x1x1 (shapeCast S1x16x1 v h1) h2)) h4) h5 (ix3 b (0 : Fin 1) (0 : Fin 1))
      = v (ix2 (⟨b.val % 16, by omega⟩ : Fin 16) (0 : Fin 1)) := by
  refine (shapeCast_apply _ h5 _ (ix3 (⟨b.val / 16, by omega⟩ : Fin 4) (⟨b.val % 16, by omega⟩ : Fin 16) (0 : Fin 1)) ?_).trans ?_
  · rw [Shape.rowMajor_val_three, Shape.rowMajor_val_three]
    show (b.val / 16 * 16 + b.val % 16) * 1 + 0 = (b.val * 1 + 0) * 1 + 0
    omega
  refine (shapeCast_apply _ h4 _ (ix6 (⟨b.val / 16, by omega⟩ : Fin 4) (0 : Fin 1) (0 : Fin 1) (⟨b.val % 16, by omega⟩ : Fin 16) (0 : Fin 1) (0 : Fin 1)) ?_).trans ?_
  · rw [Shape.rowMajor_val_six, Shape.rowMajor_val_three]
    show ((((b.val / 16 * 1 + 0) * 1 + 0) * 16 + b.val % 16) * 1 + 0) * 1 + 0 = (b.val / 16 * 16 + b.val % 16) * 1 + 0
    omega
  refine (broadcastInDim_apply _ h3 _ _ (ix6 (0 : Fin 1) (0 : Fin 1) (0 : Fin 1) (⟨b.val % 16, by omega⟩ : Fin 16) (0 : Fin 1) (0 : Fin 1)) fun a => ?_).trans ?_
  · match a with
    | ⟨0, _⟩ => rfl
    | ⟨1, _⟩ => rfl
    | ⟨2, _⟩ => rfl
    | ⟨3, _⟩ => rfl
    | ⟨4, _⟩ => rfl
    | ⟨5, _⟩ => rfl
  refine (shapeCast_apply _ h2 _ (ix3 (0 : Fin 1) (⟨b.val % 16, by omega⟩ : Fin 16) (0 : Fin 1)) ?_).trans ?_
  · rw [Shape.rowMajor_val_three, Shape.rowMajor_val_six]
    show (0 * 16 + b.val % 16) * 1 + 0 = ((((0 * 1 + 0) * 1 + 0) * 16 + b.val % 16) * 1 + 0) * 1 + 0
    omega
  refine shapeCast_apply _ h1 _ (ix2 (⟨b.val % 16, by omega⟩ : Fin 16) (0 : Fin 1)) ?_
  rw [Shape.rowMajor_val_two, Shape.rowMajor_val_three]
  show b.val % 16 * 1 + 0 = (0 * 16 + b.val % 16) * 1 + 0
  omega

end Layout

end Cert.RefRun
end
-- ==== Proof.RefHost.lean ====
import proofs.«123689_g2000102519160773_pallasbulk_914_7_alg».proof.Proof.Gen.ReferenceIdeal.Frame
import proofs.«123689_g2000102519160773_pallasbulk_914_7_alg».proof.Proof.RefHostLayout
import Idealize.ShloMosaic.Lib.Tactic

set_option maxRecDepth 16384

noncomputable section

namespace Cert.RefRun

open Idealize.ShloMosaic Idealize.ShloMosaic.TcCoe Idealize.ShloMosaic.Tactic Idealize.SL.Sem Idealize.ShloMosaic.ValueIdx
open Idealize.ShloMosaic.Pipeline (Dat)
open Cert.ReferenceIdeal Cert.ReferenceIdeal.Gen

/-! ## The buffers at the boundaries of the reference's run, read at an index

The contents at each boundary are a fold of the host operations and of the regions' results from the launch memory.
Each lemma reads one buffer at one boundary back to the boundary before. -/

variable (m : (ℓ : Loc nD τ sig) → Buf (Elt Ideal) ℓ) (ρ : Dev nD → PrngReg)

/-- The first host stretch leaves the argument as launched. -/
theorem W1_arg0 (c : Dev nD) : W1 m ρ c (Proc.devRef .tc main_arg0) = m ((c : Thread nD τ).loc main_arg0) := by
  dsimp only [W1, hostOps0]
  after_results

/-- So does the first region. -/
theorem W2_arg0 (c : Dev nD) : W2 m ρ c (Proc.devRef .tc main_arg0) = m ((c : Thread nD τ).loc main_arg0) :=
  (W2_of_ne m ρ c main_arg0 (by decide)).trans (W1_arg0 m ρ c)

/-- The first region finds the input as group, replica and flattened feature. -/
theorem W1_v0_apply (c : Dev nD) (g : Fin 4) (r : Fin 16) (d : Fin 262144) :
    (W1 m ρ c (Proc.devRef .tc main_v0) : S4x16x262144.Idx → EReal) (ix3 g r d)
      = (m ((c : Thread nD τ).loc main_arg0) : S64x256x32x32.Idx → EReal)
          (ix4 (⟨g.val * 16 + r.val, by omega⟩ : Fin 64) (⟨d.val / 1024, by omega⟩ : Fin 256) (⟨d.val % 1024 / 32, by omega⟩ : Fin 32) (⟨d.val % 32, by omega⟩ : Fin 32)) := by
  have e : (W1 m ρ c (Proc.devRef .tc main_v0) : S4x16x262144.Idx → EReal)
      = shapeCast S4x16x262144 (m ((c : Thread nD τ).loc main_arg0) : S64x256x32x32.Idx → EReal) shapeCasts_S64x256x32x32_S4x16x262144 := by
    dsimp only [W1, hostOps0]
    after_results
    rfl
  rw [e]
  exact reshape_grf_apply _ _ g r d

/-- The first region's result array is what its write-backs leave. -/
theorem W2_v1 (c : Dev nD) : W2 m ρ c (Proc.devRef .tc main_v1) = (dat0 (V1 m ρ) c).arrAt 1 cfg0.N :=
  W2_arr m ρ c 1

/-- The second region finds, at batch row `b` of its statistic operand, replica `b % 16`'s entry of the first region's result. -/
theorem W3_v6_apply (c : Dev nD) (b : Fin 64) :
    (W3 m ρ c (Proc.devRef .tc main_v6) : S64x1x1.Idx → EReal) (ix3 b (0 : Fin 1) (0 : Fin 1))
      = (W2 m ρ c (Proc.devRef .tc main_v1) : S16x1.Idx → EReal) (ix2 (⟨b.val % 16, by omega⟩ : Fin 16) (0 : Fin 1)) := by
  dsimp only [W3, hostOps1]
  generalize W2 m ρ c = Wv
  after_results
  exact tile_apply (Wv (Proc.devRef .tc main_v1) : S16x1.Idx → EReal) _ _ _ _ _ b

/-- The second region finds the input with its pixels flattened. -/
theorem W3_v7_apply (c : Dev nD) (b : Fin 64) (ch : Fin 256) (p : Fin 1024) :
    (W3 m ρ c (Proc.devRef .tc main_v7) : S64x256x1024.Idx → EReal) (ix3 b ch p)
      = (m ((c : Thread nD τ).loc main_arg0) : S64x256x32x32.Idx → EReal) (ix4 b ch (⟨p.val / 32, by omega⟩ : Fin 32) (⟨p.val % 32, by omega⟩ : Fin 32)) := by
  have e : (W3 m ρ c (Proc.devRef .tc main_v7) : S64x256x1024.Idx → EReal)
      = shapeCast S64x256x1024 (W2 m ρ c (Proc.devRef .tc main_arg0) : S64x256x32x32.Idx → EReal) shapeCasts_S64x256x32x32_S64x256x1024 := by
    dsimp only [W3, hostOps1]
    generalize W2 m ρ c = Wv
    after_results
    rfl
  rw [e, W2_arg0]
  exact reshape_pix_apply _ _ b ch p

/-- The second region's result array is what its write-backs leave. -/
theorem W4_v8 (c : Dev nD) : W4 m ρ c (Proc.devRef .tc main_v8) = (dat1 (V3 m ρ) c).arrAt 2 cfg1.N :=
  W4_arr m ρ c 2

/-- The result is the second region's result array with its pixels unflattened. -/
theorem W5_v9_apply (c : Dev nD) (b : Fin 64) (ch : Fin 257) (h w : Fin 32) :
    (W5 m ρ c (Proc.devRef .tc main_v9) : S64x257x32x32.Idx → EReal) (ix4 b ch h w)
      = ((dat1 (V3 m ρ) c).arrAt 2 cfg1.N : S64x257x1024.Idx → EReal) (ix3 b ch (⟨h.val * 32 + w.val, by omega⟩ : Fin 1024)) := by
  have e : (W5 m ρ c (Proc.devRef .tc main_v9) : S64x257x32x32.Idx → EReal)
      = shapeCast S64x257x32x32 (W4 m ρ c (Proc.devRef .tc main_v8) : S64x257x1024.Idx → EReal) shapeCasts_S64x257x1024_S64x257x32x32 := by
    dsimp only [W5, hostOps2]
    generalize W4 m ρ c = Wv
    after_results
    rfl
  rw [e, W4_v8]
  exact reshape_unpix_apply _ _ b ch h w

end Cert.RefRun
end
-- ==== Proof.RefStatStep.lean ====
/-
  The statistic kernel of the reference program, one grid point at a time: what each control case of the body leaves
  in the statistic block (the case's stored pieces read back), and the accumulation step read at a replica row — the
  running value plus the sum over the block's 65536 lanes of the four group members' deviation, scaled by 2^-18.
-/
import proofs.«123689_g2000102519160773_pallasbulk_914_7_alg».proof.Proof.Spec
import proofs.«123689_g2000102519160773_pallasbulk_914_7_alg».proof.Proof.Gen.ReferenceIdeal.Frame
import Idealize.ShloMosaic.Lib.Pipeline.Value
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.RefStat

open Cert.ReferenceIdeal Cert.ReferenceIdeal.Gen

/-! ## What each case of the body leaves in the statistic block -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later quarter: the block holding `xo` is left at the accumulation step's value over `xo` and the input block. -/
theorem out_B (c : Dev nD) (i : grid0.Coords) (a2 : Memref sig .tc .vmem S4x8x65536 .f32) (h2 : a2.IsWhole)
    (a3 : Memref sig .tc .vmem S8x1 .f32) (h3 : a3.IsWhole) (hc : ¬cond0_0 i) (x : Vec F S4x8x65536 .f32) (xo : Vec F S8x1 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz2]
  simp only [View.readAt_eq_ld, h2.read_unread, h3.read_unread, View.ld_unit_zero (S := S8x1) hz2, View.ld_unit_zero (S := S4x8x65536) hz3]

/-- The first quarter: the block is zeroed, then left at the accumulation step's value over the zero block. -/
theorem out_A (c : Dev nD) (i : grid0.Coords) (a2 : Memref sig .tc .vmem S4x8x65536 .f32) (h2 : a2.IsWhole)
    (a3 : Memref sig .tc .vmem S8x1 .f32) (h3 : a3.IsWhole) (hc : cond0_0 i) (x : Vec F S4x8x65536 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S8x1) hz2, View.readCov_unit_zero (S := S8x1) _ hz2]
  simp only [View.readAt_eq_ld, h2.read_unread, View.ld_unit_zero (S := S4x8x65536) hz3]

end Pieces

/-! ## The accumulation step read at a replica row -/

section Payload

/-- Inserting group member `g` at axis 0 over `(a, l)`. -/
theorem lift_group (h : S4x8x65536.Reduces [0] S8x65536) (a : Fin 8) (l : Fin 65536) (g : Fin 4) :
    h.lift (ix2 a l) g = ix3 g a l := by
  funext d
  match d with
  | ⟨0, _⟩ => exact Fin.ext rfl
  | ⟨1, _⟩ => exact Fin.ext rfl
  | ⟨2, _⟩ => exact Fin.ext rfl

/-- Inserting lane `l` at axis 1 over row `a`. -/
theorem lift_lane (h : S8x65536.Reduces [1] S8) (a : Fin 8) (l : Fin 65536) :
    h.lift (ix1 a) l = ix2 a l := by
  funext d
  match d with
  | ⟨0, _⟩ => exact Fin.ext rfl
  | ⟨1, _⟩ => exact Fin.ext rfl

/-- The sum over the four group members at `(a, l)`. -/
theorem groupSum (v : FVec Ideal S4x8x65536 .f32) (h : S4x8x65536.Reduces [0] S8x65536) (hφ : FKind.Formats .f32)
    (hacc : (0x00000000#32 : BitVec 32) = 0x00000000#32) (a : Fin 8) (l : Fin 65536) :
    multiReduction .add [0] S8x65536 v 0x00000000#32 h hφ hacc (ix2 a l) = ∑ g : Fin 4, v (ix3 g a l) := by
  refine (Ideal.multiReduction_add_single v 0x00000000#32 h hφ hacc (ix2 a l)).trans ?_
  exact Finset.sum_congr rfl fun g _ => congrArg v (lift_group h a l g)

/-- The sum over the 65536 lanes of row `a`. -/
theorem laneSum (w : FVec Ideal S8x65536 .f32) (h : S8x65536.Reduces [1] S8) (hφ : FKind.Formats .f32)
    (hacc : (0x00000000#32 : BitVec 32) = 0x00000000#32) (a : Fin 8) :
    multiReduction .add [1] S8 w 0x00000000#32 h hφ hacc (ix1 a) = ∑ l : Fin 65536, w (ix2 a l) := by
  refine (Ideal.multiReduction_add_single w 0x00000000#32 h hφ hacc (ix1 a)).trans ?_
  exact Finset.sum_congr rfl fun l _ => congrArg w (lift_lane h a l)

/-- A vector of 8 viewed as a column reads row `a` at `a`. -/
theorem column_apply {α : Type} (u : S8.Idx → α) (h : S8.ShapeCasts S8x1) (a : Fin 8) :
    shapeCast S8x1 u h (ix2 a (0 : Fin 1)) = u (ix1 a) :=
  shapeCast_apply u h _ _ (by
    rw [Shape.rowMajor_val_one, Shape.rowMajor_val_two]
    show a.val = a.val * 1 + 0
    omega)

/-- The per-`(a, l)` value repeated over the group axis reads, at any member, that value. -/
theorem repeat_apply {α : Type} (m : S8x65536.Idx → α) (hc : S8x65536.ShapeCasts S1x8x65536)
    (hb : S1x8x65536.Broadcasts S4x8x65536) (g : Fin 4) (a : Fin 8) (l : Fin 65536) :
    broadcastTo S4x8x65536 (shapeCast S1x8x65536 m hc) hb (ix3 g a l) = m (ix2 a l) := by
  refine (broadcastTo_apply _ hb (ix3 g a l) (ix3 (0 : Fin 1) a l) fun ax => ?_).trans (shapeCast_ab_1ab_apply m hc 0 a l)
  match ax with
  | ⟨0, _⟩ => rfl
  | ⟨1, _⟩ => rfl
  | ⟨2, _⟩ => rfl

end Payload

section PayloadAt

/-- The group mean at each `(a, l)`, repeated over the group axis. -/
def meanRep (x : FVec Ideal S4x8x65536 .f32) : FVec Ideal S4x8x65536 .f32 :=
  broadcastTo S4x8x65536
    (shapeCast S1x8x65536
      (divf (multiReduction .add [0] S8x65536 x 0x00000000#32 reduces_S4x8x65536_S8x65536 (.inl rfl) rfl)
        (broadcast S8x65536 (FloatOps.ofBits .f32 0x40800000#32)))
      shapeCasts_S8x65536_S1x8x65536)
    broadcasts_S1x8x65536_S4x8x65536

/-- The deviation at each `(a, l)`: the root of the mean squared distance from the group mean, plus the constant. -/
def devVec (x : FVec Ideal S4x8x65536 .f32) : FVec Ideal S8x65536 .f32 :=
  sqrt (addf
    (divf (multiReduction .add [0] S8x65536 (mulf (subf x (meanRep x)) (subf x (meanRep x))) 0x00000000#32
        reduces_S4x8x65536_S8x65536 (.inl rfl) rfl)
      (broadcast S8x65536 (FloatOps.ofBits .f32 0x40800000#32)))
    (broadcast S8x65536 (FloatOps.ofBits .f32 0x322BCC77#32)))

theorem meanRep_apply (x : FVec Ideal S4x8x65536 .f32) (g : Fin 4) (a : Fin 8) (l : Fin 65536) :
    meanRep x (ix3 g a l) = Ideal.div (∑ g' : Fin 4, x (ix3 g' a l)) Cert.Spec.four := by
  unfold meanRep
  refine (repeat_apply _ _ _ g a l).trans ?_
  exact congrArg (fun z => Ideal.div z Cert.Spec.four) (groupSum x _ _ _ a l)

theorem devVec_apply (x : FVec Ideal S4x8x65536 .f32) (a : Fin 8) (l : Fin 65536) :
    devVec x (ix2 a l) = Cert.Spec.dev4 (fun g => x (ix3 g a l)) := by
  have e : ∀ g : Fin 4, mulf (subf x (meanRep x)) (subf x (meanRep x)) (ix3 g a l)
      = (x (ix3 g a l) - Ideal.div (∑ g' : Fin 4, x (ix3 g' a l)) Cert.Spec.four)
        * (x (ix3 g a l) - Ideal.div (∑ g' : Fin 4, x (ix3 g' a l)) Cert.Spec.four) := fun g =>
    congrArg (fun z => (x (ix3 g a l) - z) * (x (ix3 g a l) - z)) (meanRep_apply x g a l)
  have s : multiReduction .add [0] S8x65536 (mulf (subf x (meanRep x)) (subf x (meanRep x))) 0x00000000#32
        reduces_S4x8x65536_S8x65536 (.inl rfl) rfl (ix2 a l)
      = ∑ g : Fin 4, (x (ix3 g a l) - Ideal.div (∑ g' : Fin 4, x (ix3 g' a l)) Cert.Spec.four)
        * (x (ix3 g a l) - Ideal.div (∑ g' : Fin 4, x (ix3 g' a l)) Cert.Spec.four) :=
    (groupSum _ _ _ _ a l).trans (Finset.sum_congr rfl fun g _ => e g)
  exact congrArg (fun z => Ideal.sqrt (Ideal.div z Cert.Spec.four + Cert.Spec.eps)) s

/-- The accumulation step, with the deviations named. -/
theorem pay2_eq (x : Vec Ideal S4x8x65536 .f32) (acc : Vec Ideal S8x1 .f32) :
    k0_pay2 (F := Ideal) x acc
      = addf acc (mulf
          (shapeCast S8x1 (multiReduction .add [1] S8 (devVec x) 0x00000000#32 reduces_S8x65536_S8 (.inl rfl) rfl) shapeCasts_S8_S8x1)
          (broadcast S8x1 (FloatOps.ofBits .f32 0x36800000#32))) := by
  unfold k0_pay2
  dsimp only
  simp only [shapeCast_self]
  rfl

/-- The accumulation step at replica row `a`: the running value plus the lanes' sum of deviations, scaled. -/
theorem pay2_apply (x : Vec Ideal S4x8x65536 .f32) (acc : Vec Ideal S8x1 .f32) (a : Fin 8) :
    k0_pay2 (F := Ideal) x acc (ix2 a (0 : Fin 1))
      = acc (ix2 a (0 : Fin 1)) + (∑ l : Fin 65536, Cert.Spec.dev4 (fun g => x (ix3 g a l))) * Cert.Spec.invD := by
  rw [pay2_eq]
  have s : shapeCast S8x1 (multiReduction .add [1] S8 (devVec x) 0x00000000#32 reduces_S8x65536_S8 (.inl rfl) rfl) shapeCasts_S8_S8x1
        (ix2 a (0 : Fin 1))
      = ∑ l : Fin 65536, Cert.Spec.dev4 (fun g => x (ix3 g a l)) :=
    (column_apply _ _ a).trans ((laneSum _ _ _ _ a).trans (Finset.sum_congr rfl fun l _ => devVec_apply x a l))
  exact congrArg (fun z => acc (ix2 a (0 : Fin 1)) + z * Cert.Spec.invD) s

/-- The zero block at any row is zero. -/
theorem pay1_apply (a : Fin 8) : k0_pay1 (F := Ideal) (ix2 a (0 : Fin 1)) = 0 := by
  show Ideal.ofBits .f32 0x00000000#32 = 0
  exact Ideal.ofBits_zero_f32

end PayloadAt

end Cert.RefStat

end
-- ==== Proof.RefStat.lean ====
/-
  The value of the reference program's statistic region. The grid is 2 replica tiles (8 replicas each) by 4 quarters of
  the flattened feature axis; at point t = 4 i + j the input block holds members 0..3, replicas 8 i .. 8 i + 7, features
  65536 j .. 65536 j + 65535 of the region's input array, and the [8,1] statistic block is zeroed at j = 0 and gains, at
  every j, the quarter's sum of deviations scaled by 2^-18. So after the tile's last quarter, row a of the block is the
  statistic of replica 8 i + a accumulated quarter by quarter in order; the block is written back there, the two tiles'
  blocks tile the [16,1] array, and the array ends with every replica's statistic.
-/
import proofs.«123689_g2000102519160773_pallasbulk_914_7_alg».proof.Proof.RefStatStep

noncomputable section

open scoped BigOperators
open Idealize.ShloMosaic Idealize.ShloMosaic.TcCoe Idealize.SL.Sem Idealize.ShloMosaic.ValueIdx
open Idealize.ShloMosaic.Pipeline (Dat)

namespace Cert.RefStat

open Cert.ReferenceIdeal Cert.ReferenceIdeal.Gen

variable (V : (c : Dev nD) → (b : Ref sig .tc) → Buf (Elt Ideal) ((c : Thread nD τ).loc b))

/-! ## The blocks at a point -/

/-- The input block's index at point `t`: all four group members, replica tile `t / 4`, quarter `t % 4`. -/
theorem index_in : ∀ t : Fin cfg0.N, win0_0.index t 0 = 0 ∧ win0_0.index t 1 = t.val / 4 ∧ win0_0.index t 2 = t.val % 4 :=
  (by decide +kernel : ∀ t : Fin grid0.N, win0_0.index t 0 = 0 ∧ win0_0.index t 1 = t.val / 4 ∧ win0_0.index t 2 = t.val % 4)

/-- The statistic block's index at point `t`: replica tile `t / 4`. -/
theorem index_out : ∀ t : Fin cfg0.N, win0_1.index t 0 = t.val / 4 ∧ win0_1.index t 1 = 0 :=
  (by decide +kernel : ∀ t : Fin grid0.N, win0_1.index t 0 = t.val / 4 ∧ win0_1.index t 1 = 0)

/-- The input block at point `t` holds, at `(g, a, l)`, the array's entry at member `g`, replica `8 (t / 4) + a`,
    feature `65536 (t % 4) + l`. -/
theorem iblk_apply (c : Dev nD) (t : Fin cfg0.N) (g : Fin 4) (a : Fin 8) (l : Fin 65536) (r : Fin 16) (d : Fin 262144)
    (hr : r.val = 8 * (t.val / 4) + a.val) (hd : d.val = 65536 * (t.val % 4) + l.val) :
    (iblk0 V c 0 t : Vec Ideal S4x8x65536 .f32) (ix3 g a l) = V c main_v0 (ix3 g r d) := by
  obtain ⟨h0, h1, h2⟩ := index_in t
  unfold iblk0
  rw [View.read_apply]
  show V c main_v0 _ = V c main_v0 _
  refine congrArg (V c main_v0) (funext fun ax => Fin.ext ?_)
  match ax with
  | ⟨0, _⟩ => show win0_0.index t 0 * 4 + 1 * g.val = g.val; rw [h0]; omega
  | ⟨1, _⟩ => show win0_0.index t 1 * 8 + 1 * a.val = r.val; rw [h1, hr]; omega
  | ⟨2, _⟩ => show win0_0.index t 2 * 65536 + 1 * l.val = d.val; rw [h2, hd]; omega

/-- So the lanes' sum of deviations over the block at point `t`, row `a`, is quarter `t % 4` of replica `8 (t / 4) + a`. -/
theorem quarter_iblk (c : Dev nD) (t : Fin cfg0.N) (a : Fin 8) (r : Fin 16) (q : Fin 4)
    (hr : r.val = 8 * (t.val / 4) + a.val) (hq : q.val = t.val % 4) :
    (∑ l : Fin 65536, Cert.Spec.dev4 (fun g => (iblk0 V c 0 t : Vec Ideal S4x8x65536 .f32) (ix3 g a l)))
      = Cert.Spec.quarterFlat (V c main_v0) r q := by
  unfold Cert.Spec.quarterFlat
  refine Finset.sum_congr rfl fun l _ => congrArg Cert.Spec.dev4 (funext fun g => ?_)
  exact iblk_apply V c t g a l r _ hr (by show q.val * 65536 + l.val = 65536 * (t.val % 4) + l.val; rw [hq]; omega)

/-! ## The statistic block after each point of a replica tile -/

/-- At the first quarter the block is left at nothing plus the quarter, scaled. -/
theorem reset_value (c : Dev nD) (t : Fin cfg0.N) (h0 : t.val % 4 = 0) (a : Fin 8) (r : Fin 16)
    (hr : r.val = 8 * (t.val / 4) + a.val) :
    out0_A_1 c (grid0.coords t) (ms0_0 t) (hs0_0 t) (ms0_1 t) (hs0_1 t) ((hcond0_0 t).mpr h0) (iblk0 V c 0 t) (ix2 a (0 : Fin 1))
      = 0 + Cert.Spec.quarterFlat (V c main_v0) r 0 * Cert.Spec.invD := by
  refine (congrFun (out_A (F := Ideal) c (grid0.coords t) (ms0_0 t) (hs0_0 t) (ms0_1 t) (hs0_1 t) ((hcond0_0 t).mpr h0) (iblk0 V c 0 t)) (ix2 a (0 : Fin 1))).trans ?_
  refine (pay2_apply (iblk0 V c 0 t) (k0_pay1 (F := Ideal)) a).trans ?_
  rw [pay1_apply a, quarter_iblk V c t a r 0 hr (by show (0 : Fin 4).val = t.val % 4; rw [h0]; rfl)]

/-- At a later quarter `q` the block holding `xo` is left at `xo` plus the quarter, scaled. -/
theorem step_value (c : Dev nD) (t : Fin cfg0.N) (h0 : ¬t.val % 4 = 0) (xo : Vec Ideal S8x1 .f32) (a : Fin 8) (r : Fin 16) (q : Fin 4)
    (hq : q.val = t.val % 4) (hr : r.val = 8 * (t.val / 4) + a.val) :
    out0_B_1 c (grid0.coords t) (ms0_0 t) (hs0_0 t) (ms0_1 t) (hs0_1 t) (fun h => h0 ((hcond0_0 t).mp h)) (iblk0 V c 0 t) xo (ix2 a (0 : Fin 1))
      = xo (ix2 a (0 : Fin 1)) + Cert.Spec.quarterFlat (V c main_v0) r q * Cert.Spec.invD := by
  refine (congrFun (out_B (F := Ideal) c (grid0.coords t) (ms0_0 t) (hs0_0 t) (ms0_1 t) (hs0_1 t) (fun h => h0 ((hcond0_0 t).mp h)) (iblk0 V c 0 t) xo) (ix2 a (0 : Fin 1))).trans ?_
  refine (pay2_apply (iblk0 V c 0 t) xo a).trans ?_
  rw [quarter_iblk V c t a r q hr hq]

/-- The block after the point following `n`, at a later quarter: what point `n` left plus the quarter, scaled. -/
theorem outsAt_step (c : Dev nD) (n : ℕ) (h : n + 1 < cfg0.N) (h0 : ¬(n + 1) % 4 = 0) (a : Fin 8) (r : Fin 16) (q : Fin 4)
    (hq : q.val = (n + 1) % 4) (hr : r.val = 8 * ((n + 1) / 4) + a.val) :
    outsAt0 V c (n + 1) h (ix2 a (0 : Fin 1))
      = outsAt0 V c n (Nat.lt_of_succ_lt h) (ix2 a (0 : Fin 1)) + Cert.Spec.quarterFlat (V c main_v0) r q * Cert.Spec.invD :=
  (congrFun (outsAt0_B V c ⟨n + 1, h⟩ h0) (ix2 a (0 : Fin 1))).trans
    (step_value V c ⟨n + 1, h⟩ h0 (outsAt0 V c n (Nat.lt_of_succ_lt h)) a r q hq hr)

/-- After the last quarter of the replica tile that starts at point `b`, row `a` of the block holds the statistic of
    replica `8 (b / 4) + a`: the four quarters accumulated in order. -/
theorem outsAt_tile (c : Dev nD) (b : ℕ) (hb : b + 1 + 1 + 1 < cfg0.N) (hb0 : b % 4 = 0) (a : Fin 8) (r : Fin 16)
    (hr : r.val = 8 * (b / 4) + a.val) :
    outsAt0 V c (b + 1 + 1 + 1) hb (ix2 a (0 : Fin 1)) = Cert.Spec.statFlat (V c main_v0) r := by
  have l2 : b + 1 + 1 < cfg0.N := Nat.lt_of_succ_lt hb
  have l1 : b + 1 < cfg0.N := Nat.lt_of_succ_lt l2
  have l0 : b < cfg0.N := Nat.lt_of_succ_lt l1
  have e0 : outsAt0 V c b l0 (ix2 a (0 : Fin 1)) = 0 + Cert.Spec.quarterFlat (V c main_v0) r 0 * Cert.Spec.invD :=
    (congrFun (outsAt0_A V c ⟨b, l0⟩ hb0) (ix2 a (0 : Fin 1))).trans (reset_value V c ⟨b, l0⟩ hb0 a r hr)
  have e1 := outsAt_step V c b l1 (by omega) a r 1 (by show 1 = (b + 1) % 4; omega) (by omega)
  have e2 := outsAt_step V c (b + 1) l2 (by omega) a r 2 (by show 2 = (b + 1 + 1) % 4; omega) (by omega)
  have e3 := outsAt_step V c (b + 1 + 1) hb (by omega) a r 3 (by show 3 = (b + 1 + 1 + 1) % 4; omega) (by omega)
  unfold Cert.Spec.statFlat
  rw [e3, e2, e1, e0]

/-! ## From the blocks to the array -/

/-- The statistic array: row `r` holds replica `r`'s statistic. -/
def statArr (X : Cert.Spec.SF.Idx → EReal) : S16x1.Idx → EReal :=
  fun y => Cert.Spec.statFlat X ⟨(y 0).val, idx2_lt0 y⟩

/-- A block whose row `a` is the array's row `8 (t / 4) + a` is the array's block at point `t`. -/
theorem cut_eq_read (t : Fin cfg0.N) (B : Vec Ideal S8x1 .f32) (G : S16x1.Idx → EReal)
    (hB : ∀ (a : Fin 8) (r : Fin 16), r.val = 8 * (t.val / 4) + a.val → B (ix2 a (0 : Fin 1)) = G (ix2 r (0 : Fin 1))) :
    (cfg0.win 1).cut (grid0.coords t) B = ((cfg0.win 1).blk t).view.read (Elt Ideal) G := by
  obtain ⟨i0, i1⟩ := index_out t
  have hN : cfg0.N = 8 := N_0
  have ht := t.isLt
  funext y
  obtain ⟨a, u, rfl⟩ : ∃ (a : Fin 8) (u : Fin 1), y = ix2 a u := ⟨y 0, y 1, eq_ix2 y⟩
  obtain rfl : u = 0 := Subsingleton.elim _ _
  rw [View.read_apply]
  have hlt : 8 * (t.val / 4) + a.val < 16 := by omega
  have e1 : (cfg0.win 1).xinj (grid0.coords t) (ix2 a (0 : Fin 1)) = ix2 a (0 : Fin 1) := funext fun ax => by
    match ax with
    | ⟨0, _⟩ => rfl
    | ⟨1, _⟩ => rfl
  have e2 : ((cfg0.win 1).blk t).view.emb (ix2 a (0 : Fin 1)) = ix2 (⟨8 * (t.val / 4) + a.val, hlt⟩ : Fin 16) (0 : Fin 1) :=
    funext fun ax => Fin.ext (by
      match ax with
      | ⟨0, _⟩ => show win0_1.index t 0 * 8 + 1 * a.val = 8 * (t.val / 4) + a.val; rw [i0]; omega
      | ⟨1, _⟩ => show win0_1.index t 1 * 1 + 1 * 0 = 0; rw [i1])
  show B ((cfg0.win 1).xinj (grid0.coords t) (ix2 a (0 : Fin 1))) = G (((cfg0.win 1).blk t).view.emb (ix2 a (0 : Fin 1)))
  rw [e1, e2]
  exact hB a _ rfl

/-- Each write-back (after the last quarter of a replica tile) writes the tile's block of the statistic array. -/
theorem flushed_eq (c : Dev nD) (t : Fin cfg0.N) (hf : (cfg0.win 1).flush t = true) :
    (dat0 V c).flushed 1 t = ((cfg0.win 1).blk t).view.read (Elt Ideal) (statArr (V c main_v0)) := by
  have h3 : t.val % 4 = 3 := (flush0_1 t).mp hf
  show (cfg0.win 1).cut (grid0.coords t) ((dat0 V c).after 1 t) = _
  rw [after0_1]
  refine cut_eq_read t (outsAt0 V c t.val t.isLt) (statArr (V c main_v0)) fun a r hr => ?_
  obtain ⟨n, hn⟩ := t
  have h3' : n % 4 = 3 := h3
  have hr' : r.val = 8 * (n / 4) + a.val := hr
  obtain ⟨b, rfl⟩ : ∃ b, n = b + 1 + 1 + 1 := ⟨n - 3, by omega⟩
  refine (outsAt_tile V c b hn (by omega) a r (by omega)).trans ?_
  show _ = Cert.Spec.statFlat (V c main_v0) ⟨r.val, _⟩
  rfl

/-- The two write-backs' blocks tile the array, so it ends holding every replica's statistic. -/
theorem final (c : Dev nD) : (dat0 V c).arrAt 1 cfg0.N = statArr (V c main_v0) :=
  (dat0 V c).arrAt_eq_of_cover 1 (statArr (V c main_v0)) (flushed_eq V c) fun i => by
    have h1 : (i 1 : Nat) < 1 := (i 1).isLt
    have h0 : (i 0 : Nat) < 16 := (i 0).isLt
    by_cases hlo : (i 0 : Nat) < 8
    · exact ⟨t0_3, (flush0_1 t0_3).mpr rfl, by
        show i ∈ ((View.whole main_v1).slice (win0_1.rect t0_3)).set
        rw [View.set_slice_whole, Rect.mem_set_unit]
        intro ax
        match ax with
        | ⟨0, _⟩ => show win0_1.index t0_3 0 * win0_1.size 0 ≤ (i 0 : Nat) ∧ (i 0 : Nat) < win0_1.index t0_3 0 * win0_1.size 0 + win0_1.xsize (grid0.coords t0_3) 0
                    rw [show win0_1.index t0_3 0 * win0_1.size 0 = 0 from by decide +kernel, show win0_1.xsize (grid0.coords t0_3) 0 = 8 from by decide +kernel]; omega
        | ⟨1, _⟩ => show win0_1.index t0_3 1 * win0_1.size 1 ≤ (i 1 : Nat) ∧ (i 1 : Nat) < win0_1.index t0_3 1 * win0_1.size 1 + win0_1.xsize (grid0.coords t0_3) 1
                    rw [show win0_1.index t0_3 1 * win0_1.size 1 = 0 from by decide +kernel, show win0_1.xsize (grid0.coords t0_3) 1 = 1 from by decide +kernel]; omega⟩
    · exact ⟨t0_7, (flush0_1 t0_7).mpr rfl, by
        show i ∈ ((View.whole main_v1).slice (win0_1.rect t0_7)).set
        rw [View.set_slice_whole, Rect.mem_set_unit]
        intro ax
        match ax with
        | ⟨0, _⟩ => show win0_1.index t0_7 0 * win0_1.size 0 ≤ (i 0 : Nat) ∧ (i 0 : Nat) < win0_1.index t0_7 0 * win0_1.size 0 + win0_1.xsize (grid0.coords t0_7) 0
                    rw [show win0_1.index t0_7 0 * win0_1.size 0 = 8 from by decide +kernel, show win0_1.xsize (grid0.coords t0_7) 0 = 8 from by decide +kernel]; omega
        | ⟨1, _⟩ => show win0_1.index t0_7 1 * win0_1.size 1 ≤ (i 1 : Nat) ∧ (i 1 : Nat) < win0_1.index t0_7 1 * win0_1.size 1 + win0_1.xsize (grid0.coords t0_7) 1
                    rw [show win0_1.index t0_7 1 * win0_1.size 1 = 0 from by decide +kernel, show win0_1.xsize (grid0.coords t0_7) 1 = 1 from by decide +kernel]; omega⟩

/-- The statistic array after the region: replica `r`'s row holds its statistic over the region's input array. -/
theorem arr1 (c : Dev nD) (r : Fin 16) :
    (dat0 (F := Ideal) V c).arrAt 1 cfg0.N (ix2 r (0 : Fin 1)) = Cert.Spec.statFlat (V c main_v0) r :=
  (congrFun (final V c) (ix2 r (0 : Fin 1))).trans rfl

end Cert.RefStat

end
-- ==== Proof.RefRun.lean ====
import proofs.«123689_g2000102519160773_pallasbulk_914_7_alg».proof.Proof.RefRunLaunch
import proofs.«123689_g2000102519160773_pallasbulk_914_7_alg».proof.Proof.RefConcatArray
import proofs.«123689_g2000102519160773_pallasbulk_914_7_alg».proof.Proof.RefHost
import proofs.«123689_g2000102519160773_pallasbulk_914_7_alg».proof.Proof.Spec
import proofs.«123689_g2000102519160773_pallasbulk_914_7_alg».proof.Proof.SpecLaws
import proofs.«123689_g2000102519160773_pallasbulk_914_7_alg».proof.Proof.RefStat

set_option maxRecDepth 16384

noncomputable section

namespace Cert.RefRun

open Idealize.ShloMosaic Idealize.ShloMosaic.TcCoe Idealize.ShloMosaic.Tactic Idealize.SL.Sem Idealize.ShloMosaic.ValueIdx
open Idealize.ShloMosaic.Pipeline (Dat)
open Cert.ReferenceIdeal Cert.ReferenceIdeal.Gen

/-! ## The reference computes the specification

The result buffer at the last boundary, read back through the boundaries: unflatten the pixels of the second region's
result; that array copies the flattened input below channel 256 and holds at channel 256 the batch row's entry of the
laid-out statistic; that entry is replica `b % 16`'s entry of the first region's result, which is the statistic of the
input as the first region finds it (group, replica, flattened feature). -/

variable (m : (ℓ : Loc nD τ sig) → Buf (Elt Ideal) ℓ) (ρ : Dev nD → PrngReg)

/-- The result buffer at the last boundary is the specification's result array of the argument, given the first region's
    statistic (`h0`) and the statistic's invariance under the flattening (`hflat`). -/
theorem result_eq
    (h0 : ∀ (V : (c : Dev nD) → (b : Ref sig .tc) → Buf (Elt Ideal) ((c : Thread nD τ).loc b)) (c : Dev nD) (r : Fin 16),
      (Gen.dat0 (F := Ideal) V c).arrAt 1 cfg0.N (ix2 r (0 : Fin 1)) = Cert.Spec.statFlat (V c main_v0) r)
    (hflat : ∀ (x : Cert.Spec.SX.Idx → EReal) (X : Cert.Spec.SF.Idx → EReal),
      (∀ (g : Fin 4) (r : Fin 16) (d : Fin 262144), X (ix3 g r d) = x (ix4 (⟨g.val * 16 + r.val, by omega⟩ : Fin 64) (⟨d.val / 1024, by omega⟩ : Fin 256) (⟨d.val % 1024 / 32, by omega⟩ : Fin 32) (⟨d.val % 32, by omega⟩ : Fin 32))) →
      ∀ r, Cert.Spec.statFlat X r = Cert.Spec.stat x r)
    (c : Dev nD) :
    Gen.W5 m ρ c (Proc.devRef .tc main_v9) = Cert.Spec.out (m ((c.tc : Thread nD τ).loc main_arg0)) := by
  funext j
  obtain ⟨b, ch, h, w, rfl⟩ : ∃ (b : Fin 64) (ch : Fin 257) (h w : Fin 32), j = ix4 b ch h w := ⟨j 0, j 1, j 2, j 3, eq_ix4 j⟩
  rw [Cert.Spec.out_ix4]
  refine (W5_v9_apply m ρ c b ch h w).trans ?_
  refine (concat_arr_apply (F := Ideal) (V3 m ρ) c b ch _).trans ?_
  unfold Cert.Spec.outAt
  by_cases hc : ch.val < 256
  · rw [dif_pos hc, dif_pos hc]
    refine (W3_v7_apply m ρ c b ⟨ch.val, hc⟩ _).trans ?_
    have e2 : (⟨(h.val * 32 + w.val) / 32, by omega⟩ : Fin 32) = h := Fin.ext (by show (h.val * 32 + w.val) / 32 = h.val; omega)
    have e3 : (⟨(h.val * 32 + w.val) % 32, by omega⟩ : Fin 32) = w := Fin.ext (by show (h.val * 32 + w.val) % 32 = w.val; omega)
    rw [e2, e3]
  · rw [dif_neg hc, dif_neg hc]
    refine (W3_v6_apply m ρ c b).trans ?_
    rw [W2_v1]
    refine (h0 (V1 m ρ) c ⟨b.val % 16, by omega⟩).trans ?_
    exact hflat _ _ (fun g r d => W1_v0_apply m ρ c g r d) _

/-- THE REFERENCE'S RUN: from any memory with zero counters every weakly fair execution terminates, nothing faulting, the
    result array is the specification's of the argument array, and the argument array is as launched. -/
theorem run_of
    (h0 : ∀ (V : (c : Dev nD) → (b : Ref sig .tc) → Buf (Elt Ideal) ((c : Thread nD τ).loc b)) (c : Dev nD) (r : Fin 16),
      (Gen.dat0 (F := Ideal) V c).arrAt 1 cfg0.N (ix2 r (0 : Fin 1)) = Cert.Spec.statFlat (V c main_v0) r)
    (hflat : ∀ (x : Cert.Spec.SX.Idx → EReal) (X : Cert.Spec.SF.Idx → EReal),
      (∀ (g : Fin 4) (r : Fin 16) (d : Fin 262144), X (ix3 g r d) = x (ix4 (⟨g.val * 16 + r.val, by omega⟩ : Fin 64) (⟨d.val / 1024, by omega⟩ : Fin 256) (⟨d.val % 1024 / 32, by omega⟩ : Fin 32) (⟨d.val % 32, by omega⟩ : Fin 32))) →
      ∀ r, Cert.Spec.statFlat X r = Cert.Spec.stat x r) :
    θ_run defs (onTc (τ := τ) (main (F := Ideal))) ⟨m, fun _ => 0, ρ⟩ (fun r => ∀ c : Dev nD,
      r.2.mem ((c.tc : Thread nD τ).loc main_v9) = Cert.Spec.out (m ((c.tc : Thread nD τ).loc main_arg0))
      ∧ r.2.mem ((c.tc : Thread nD τ).loc main_arg0) = m ((c.tc : Thread nD τ).loc main_arg0)) :=
  (θ_run defs _ _).mono (fun r h c => ⟨(h c).1.trans (result_eq m ρ h0 hflat c), (h c).2⟩) (run_W5 m ρ)

/-- The same with the first region's statistic and the statistic's invariance under the flattening supplied. -/
theorem run :
    θ_run defs (onTc (τ := τ) (main (F := Ideal))) ⟨m, fun _ => 0, ρ⟩ (fun r => ∀ c : Dev nD,
      r.2.mem ((c.tc : Thread nD τ).loc main_v9) = Cert.Spec.out (m ((c.tc : Thread nD τ).loc main_arg0))
      ∧ r.2.mem ((c.tc : Thread nD τ).loc main_arg0) = m ((c.tc : Thread nD τ).loc main_arg0)) :=
  run_of m ρ (fun V c r => Cert.RefStat.arr1 V c r) (fun x X hX r => Cert.Spec.statFlat_reshape x X hX r)

end Cert.RefRun
end
-- ==== Proof.lean ====
/-
  The certificate's claim, assembled.

  Both programs compute, from an input x[b, ch, h, w] (b = g * 16 + r: 4 group members of 16 replicas), the array
  whose first 256 channels copy x and whose last channel holds, at every pixel of batch entry b, the statistic of
  replica b mod 16: the sum over all 256 * 32 * 32 features of the group's deviation, times 2^-18 (Proof/Spec.lean).
  The first program sums a replica's features at once, pixel-major; the second adds four scaled partial sums over
  quarters of the channel-major feature axis.  On the extended reals the two arrangements agree because sums commute
  and associate and because multiplication by the nonnegative finite scale distributes over them (Proof/SpecLaws.lean);
  no property of the inputs is used.  Each program's run, with its result named by the common specification, is
  Proof/KValue.lean and Proof/RefRun.lean; the frames of the two kernel programs are Proof/KFrame.lean and
  Proof/KFrameIdeal.lean; the second program's frame is its generated one.  No rewrite separates the first program
  from its idealization.
-/
import proofs.«123689_g2000102519160773_pallasbulk_914_7_alg».proof.Defs
import proofs.«123689_g2000102519160773_pallasbulk_914_7_alg».proof.Proof.Gen.Kernel
import proofs.«123689_g2000102519160773_pallasbulk_914_7_alg».proof.Proof.Gen.KernelIdeal
import proofs.«123689_g2000102519160773_pallasbulk_914_7_alg».proof.Proof.Gen.ReferenceIdeal
import proofs.«123689_g2000102519160773_pallasbulk_914_7_alg».proof.Proof.Gen.ReferenceIdeal.Frame
import proofs.«123689_g2000102519160773_pallasbulk_914_7_alg».proof.Proof.Gen.Pre_finite_inputs
import proofs.«123689_g2000102519160773_pallasbulk_914_7_alg».proof.Proof.KFrame
import proofs.«123689_g2000102519160773_pallasbulk_914_7_alg».proof.Proof.KFrameIdeal
import proofs.«123689_g2000102519160773_pallasbulk_914_7_alg».proof.Proof.KValue
import proofs.«123689_g2000102519160773_pallasbulk_914_7_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Gen.frame m ρ

/-- Both runs end with the result at the common specification of arguments that agree. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)), Cert.KValue.run m ρ, ?_⟩
  refine (θ_run (Cert.ReferenceIdeal.defs (F := Ideal)) _ _).mono (fun _ h c => ⟨(h c).1.trans ?_, (h c).2⟩) (Cert.RefRun.run m' ρ')
  rw [hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
